-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S50000x256 : Shape := ⟨2, ![50000, 256]⟩
abbrev S8192 : Shape := ⟨1, ![8192]⟩
abbrev S_ : Shape := ⟨0, ![]⟩
abbrev S8192x1 : Shape := ⟨2, ![8192, 1]⟩
abbrev S8192x256 : Shape := ⟨2, ![8192, 256]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S8192 : S_.BroadcastsInDim S8192 (![] : Fin 0 → Fin S8192.rank)
  bcast_S8192_S8192x1_0 : S8192.BroadcastsInDim S8192x1 (![0] : Fin 1 → Fin S8192x1.rank)
  reducesTo_S8192x256_S8192_d1 : S8192x256.ReducesTo [1] S8192
  reducesTo_S8192_S_d0 : S8192.ReducesTo [0] S_
  gather_S100000x256_S8192x1_S8192x256_1_0_n_n_0_1_1256_wf : GatherDims.WF S100000x256 S8192x1 S8192x256 [1] [0] [] [0] [] 1 ![1, 256]
  gather_S50000x256_S8192x1_S8192x256_1_0_n_n_0_1_1256_wf : GatherDims.WF S50000x256 S8192x1 S8192x256 [1] [0] [] [0] [] 1 ![1, 256]

variable [Facts]

def gather_S100000x256_S8192x1_S8192x256_1_0_n_n_0_1_1256 : GatherDims S100000x256 S8192x1 S8192x256 where
  offsetDims := [1]
  collapsedSliceDims := [0]
  operandBatchingDims := []
  startIndicesBatchingDims := []
  startIndexMap := [0]
  indexVectorDim := 1
  sliceSizes := ![1, 256]
  wf := gather_S100000x256_S8192x1_S8192x256_1_0_n_n_0_1_1256_wf
def gather_S50000x256_S8192x1_S8192x256_1_0_n_n_0_1_1256 : GatherDims S50000x256 S8192x1 S8192x256 where
  offsetDims := [1]
  collapsedSliceDims := [0]
  operandBatchingDims := []
  startIndicesBatchingDims := []
  startIndexMap := [0]
  indexVectorDim := 1
  sliceSizes := ![1, 256]
  wf := gather_S50000x256_S8192x1_S8192x256_1_0_n_n_0_1_1256_wf
def fn_part2 {F : FTy → Type} [FloatOps F] (main_arg1 : FVec F S50000x256 .f32) (main_arg3 : IVec S8192 32) (main_v28 : IVec S_ 1) (main_v34 : IVec S8192x1 32) : IVec S_ 1 :=
  let main_v35 : FVec F S8192x256 .f32 := (fun x i => Host.gather gather_S50000x256_S8192x1_S8192x256_1_0_n_n_0_1_1256 x i) main_arg1 main_v34
  let main_c_11 : IVec S_ 32 := constantI S_ 32 0#32
  let main_v36 : IVec S8192 32 := broadcastInDim S8192 ![] bcast_S_S8192 main_c_11
  let main_v37 : IVec S8192 1 := cmpi .slt main_arg3 main_v36
  let main_c_12 : IVec S_ 32 := constantI S_ 32 50000#32
  let main_v38 : IVec S8192 32 := broadcastInDim S8192 ![] bcast_S_S8192 main_c_12
  let main_v39 : IVec S8192 32 := addi main_arg3 main_v38
  let main_v40 : IVec S8192 32 := select main_v37 main_v39 main_arg3
  let main_v41 : IVec S8192x1 32 := broadcastInDim S8192x1 ![0] bcast_S8192_S8192x1_0 main_v40
  let main_v42 : FVec F S8192x256 .f32 := (fun x i => Host.gather gather_S50000x256_S8192x1_S8192x256_1_0_n_n_0_1_1256 x i) main_arg1 main_v41
  let main_v43 : FVec F S8192x256 .f32 := mulf main_v35 main_v42
  let main_cst_13 : FVec F S_ .f32 := constant S_ .f32 0x00000000#32
  let main_v44 : FVec F S8192 .f32 := (fun x v => Host.reduceAdd x v reducesTo_S8192x256_S8192_d1 h_S_) main_v43 main_cst_13
  let main_cst_14 : FVec F S_ .f32 := constant S_ .f32 0x00000000#32
  let main_v45 : FVec F S8192 .f32 := broadcastInDim S8192 ![] bcast_S_S8192 main_cst_14
  let main_v46 : IVec S8192 1 := cmpf .ogt main_v44 main_v45
  let main_c_15 : IVec S_ 1 := constantI S_ 1 1#1
  let main_v47 : IVec S_ 1 := (fun x v => Host.reduce IntOp.andi x v reducesTo_S8192_S_d0 h_S_) main_v46 main_c_15
  let main_v48 : IVec S_ 1 := andi main_v28 main_v47
  main_v48

def fn_part1 {F : FTy → Type} [FloatOps F] (main_arg0 : FVec F S100000x256 .f32) (main_arg1 : FVec F S50000x256 .f32) (main_arg2 : IVec S8192 32) (main_arg3 : IVec S8192 32) (main_v8 : IVec S_ 1) (main_v15 : FVec F S8192x256 .f32) (main_v16 : IVec S8192 32) : IVec S_ 1 :=
  let main_v17 : IVec S8192 1 := cmpi .slt main_arg2 main_v16
  let main_c_5 : IVec S_ 32 := constantI S_ 32 100000#32
  let main_v18 : IVec S8192 32 := broadcastInDim S8192 ![] bcast_S_S8192 main_c_5
  let main_v19 : IVec S8192 32 := addi main_arg2 main_v18
  let main_v20 : IVec S8192 32 := select main_v17 main_v19 main_arg2
  let main_v21 : IVec S8192x1 32 := broadcastInDim S8192x1 ![0] bcast_S8192_S8192x1_0 main_v20
  let main_v22 : FVec F S8192x256 .f32 := (fun x i => Host.gather gather_S100000x256_S8192x1_S8192x256_1_0_n_n_0_1_1256 x i) main_arg0 main_v21
  let main_v23 : FVec F S8192x256 .f32 := mulf main_v15 main_v22
  let main_cst_6 : FVec F S_ .f32 := constant S_ .f32 0x00000000#32
  let main_v24 : FVec F S8192 .f32 := (fun x v => Host.reduceAdd x v reducesTo_S8192x256_S8192_d1 h_S_) main_v23 main_cst_6
  let main_cst_7 : FVec F S_ .f32 := constant S_ .f32 0x00000000#32
  let main_v25 : FVec F S8192 .f32 := broadcastInDim S8192 ![] bcast_S_S8192 main_cst_7
  let main_v26 : IVec S8192 1 := cmpf .ogt main_v24 main_v25
  let main_c_8 : IVec S_ 1 := constantI S_ 1 1#1
  let main_v27 : IVec S_ 1 := (fun x v => Host.reduce IntOp.andi x v reducesTo_S8192_S_d0 h_S_) main_v26 main_c_8
  let main_v28 : IVec S_ 1 := andi main_v8 main_v27
  let main_c_9 : IVec S_ 32 := constantI S_ 32 0#32
  let main_v29 : IVec S8192 32 := broadcastInDim S8192 ![] bcast_S_S8192 main_c_9
  let main_v30 : IVec S8192 1 := cmpi .slt main_arg3 main_v29
  let main_c_10 : IVec S_ 32 := constantI S_ 32 50000#32
  let main_v31 : IVec S8192 32 := broadcastInDim S8192 ![] bcast_S_S8192 main_c_10
  let main_v32 : IVec S8192 32 := addi main_arg3 main_v31
  let main_v33 : IVec S8192 32 := select main_v30 main_v32 main_arg3
  let main_v34 : IVec S8192x1 32 := broadcastInDim S8192x1 ![0] bcast_S8192_S8192x1_0 main_v33
  fn_part2 (F := F) main_arg1 main_arg3 main_v28 main_v34

def fn {F : FTy → Type} [FloatOps F] (main_arg0 : FVec F S100000x256 .f32) (main_arg1 : FVec F S50000x256 .f32) (main_arg2 : IVec S8192 32) (main_arg3 : IVec S8192 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .slt main_arg2 main_v9
  let main_c_3 : IVec S_ 32 := constantI S_ 32 100000#32
  let main_v11 : IVec S8192 32 := broadcastInDim S8192 ![] bcast_S_S8192 main_c_3
  let main_v12 : IVec S8192 32 := addi main_arg2 main_v11
  let main_v13 : IVec S8192 32 := select main_v10 main_v12 main_arg2
  let main_v14 : IVec S8192x1 32 := broadcastInDim S8192x1 ![0] bcast_S8192_S8192x1_0 main_v13
  let main_v15 : FVec F S8192x256 .f32 := (fun x i => Host.gather gather_S100000x256_S8192x1_S8192x256_1_0_n_n_0_1_1256 x i) main_arg0 main_v14
  let main_c_4 : IVec S_ 32 := constantI S_ 32 0#32
  let main_v16 : IVec S8192 32 := broadcastInDim S8192 ![] bcast_S_S8192 main_c_4
  fn_part1 (F := F) main_arg0 main_arg1 main_arg2 main_arg3 main_v8 main_v15 main_v16
-- ==== Kernel.lean ====
abbrev S100000x256 : Shape := ⟨2, ![100000, 256]⟩
abbrev S50000x256 : Shape := ⟨2, ![50000, 256]⟩
abbrev S8192 : Shape := ⟨1, ![8192]⟩
abbrev S_ : Shape := ⟨0, ![]⟩
abbrev S8192x1 : Shape := ⟨2, ![8192, 1]⟩
abbrev S8192x256 : Shape := ⟨2, ![8192, 256]⟩
abbrev S1x8192x256 : Shape := ⟨3, ![1, 8192, 256]⟩
abbrev S2x8192x256 : Shape := ⟨3, ![2, 8192, 256]⟩
abbrev S1x512x256 : Shape := ⟨3, ![1, 512, 256]⟩
abbrev S512x1 : Shape := ⟨2, ![512, 1]⟩
abbrev S512x256 : Shape := ⟨2, ![512, 256]⟩
abbrev S1x1024x256 : Shape := ⟨3, ![1, 1024, 256]⟩
abbrev S1024x256 : Shape := ⟨2, ![1024, 256]⟩
abbrev S512x1024 : Shape := ⟨2, ![512, 1024]⟩
abbrev S512 : Shape := ⟨1, ![512]⟩

abbrev nBuf : Space → Nat
  | .hbm => 61
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S50000x256, .f32⟩
  | .hbm, ⟨2, _⟩ => ⟨S8192, .i32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192x256, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S8192x256, .f32⟩
  | .hbm, ⟨22, _⟩ => ⟨S8192x256, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S8192x1, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1, .f32⟩
  | .hbm, ⟨34, _⟩ => ⟨S8192x256, .f32⟩
  | .hbm, ⟨35, _⟩ => ⟨S8192x256, .f32⟩
  | .hbm, ⟨36, _⟩ => ⟨S1x8192x256, .f32⟩
  | .hbm, ⟨37, _⟩ => ⟨S1x8192x256, .f32⟩
  | .hbm, ⟨38, _⟩ => ⟨S2x8192x256, .f32⟩
  | .hbm, ⟨39, _⟩ => ⟨S2x8192x256, .f32⟩
  | .hbm, ⟨40, _⟩ => ⟨S1x8192x256, .f32⟩
  | .hbm, ⟨41, _⟩ => ⟨S8192x256, .f32⟩
  | .hbm, ⟨42, _⟩ => ⟨S1x8192x256, .f32⟩
  | .hbm, ⟨43, _⟩ => ⟨S8192x256, .f32⟩
  | .hbm, ⟨44, _⟩ => ⟨S8192x256, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S1x512x256, .f32⟩
  | .local _ .vmem, ⟨1, _⟩ => ⟨S1x512x256, .f32⟩
  | .local _ .vmem, ⟨2, _⟩ => ⟨S1x8192x256, .f32⟩
  | .local _ .vmem, ⟨3, _⟩ => ⟨S1x8192x256, .f32⟩
  | .local _ .vmem, ⟨4, _⟩ => ⟨S1x512x256, .f32⟩
  | .local _ .vmem, ⟨5, _⟩ => ⟨S1x512x256, .f32⟩
  | .local _ .vmem, ⟨6, _⟩ => ⟨S512x1, .f32⟩
  | .local _ .vmem, ⟨7, _⟩ => ⟨S512x1, .f32⟩
  | .local _ .vmem, ⟨8, _⟩ => ⟨S512x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 8], ![false, false, false]⟩

def k0_mult1 (i : grid0.Coords) : BitVec 32 :=
  let arg2 : BitVec 32 := BitVec.ofNat 32 (i 2).val
  let c1024_i32 : BitVec 32 := 1024#32
  let v8 : BitVec 32 := Scalar.muli arg2 c1024_i32
  v8
def k0_off1 (i : grid0.Coords) : Fin 3 → Nat :=
  let c0_3 : Index := 0#32
  let arg2 : BitVec 32 := BitVec.ofNat 32 (i 2).val
  let c1024_i32 : BitVec 32 := 1024#32
  let v8 : BitVec 32 := Scalar.muli arg2 c1024_i32
  let v9 : BitVec 32 := v8
  let v10 : Index := Scalar.indexCast v9
  let c0_4 : Index := 0#32
  ![0, v10.toNat, 0]
def k0_cond2 (i : grid0.Coords) : BitVec 1 :=
  let arg2 : BitVec 32 := BitVec.ofNat 32 (i 2).val
  let c7_i32 : BitVec 32 := 7#32
  let v44 : BitVec 1 := Scalar.cmpi .eq arg2 c7_i32
  let v45 : BitVec 32 := Scalar.extui v44
  let c0_i32_21 : BitVec 32 := 0#32
  let v46 : BitVec 1 := Scalar.cmpi .ne v45 c0_i32_21
  v46

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x256_S8192_d1 : S8192x256.ReducesTo [1] S8192
  h_S_ : 0 < S_.numel
  bcast_S8192x1_S8192x256_0_1 : S8192x1.BroadcastsInDim S8192x256 (![0, 1] : Fin 2 → Fin S8192x256.rank)
  bcast_S8192x256_S1x8192x256_1_2 : S8192x256.BroadcastsInDim S1x8192x256 (![1, 2] : Fin 2 → Fin S1x8192x256.rank)
  concatenates_S1x8192x256_S1x8192x256_S2x8192x256_d0 : Shape.Concatenates [S1x8192x256, S1x8192x256] S2x8192x256 0
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  h_S1x1024x256 : 0 < S1x1024x256.numel
  shapeCasts_S1x1024x256_S1024x256 : S1x1024x256.ShapeCasts S1024x256
  reduces_S512x1024_S512 : S512x1024.Reduces [1] S512
  shapeCasts_S512_S512x1 : S512.ShapeCasts S512x1
  broadcasts_S512x1_S512x1024 : S512x1.Broadcasts S512x1024
  broadcasts_S512x1_S512x256 : S512x1.Broadcasts S512x256
  reduces_S512x256_S512 : S512x256.Reduces [1] S512
  shapeCasts_S512x256_S1x512x256 : S512x256.ShapeCasts S1x512x256
  slices_S2x8192x256_S1x8192x256_0_0_0 : S2x8192x256.Slices ![0, 0, 0] S1x8192x256
  shapeCasts_S1x8192x256_S8192x256 : S1x8192x256.ShapeCasts S8192x256
  slices_S2x8192x256_S1x8192x256_1_0_0 : S2x8192x256.Slices ![1, 0, 0] S1x8192x256
  reducesTo_S8192_S_d0 : S8192.ReducesTo [0] S_
  gather_S100000x256_S8192x1_S8192x256_1_0_n_n_0_1_1256_wf : GatherDims.WF S100000x256 S8192x1 S8192x256 [1] [0] [] [0] [] 1 ![1, 256]
  gather_S50000x256_S8192x1_S8192x256_1_0_n_n_0_1_1256_wf : GatherDims.WF S50000x256 S8192x1 S8192x256 [1] [0] [] [0] [] 1 ![1, 256]
  dot_S512x256_S1024x256_S512x1024_1_1_0_0_n_n_wf : DotDims.WF S512x256 S1024x256 S512x1024 [1] [1] [0] [0] [] []
  dot_S512x1024_S1024x256_S512x256_1_0_0_1_n_n_wf : DotDims.WF S512x1024 S1024x256 S512x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x256.size a ≤ S1x8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S2x8192x256.size a
  hwx0_0 : ∀ i : grid0.Coords, EltTy.bits .f32 = 32 ∨ (Rect.block (s := S2x8192x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x256.size a ≤ S2x8192x256.size a
  hwx0_1 : ∀ i : grid0.Coords, EltTy.bits .f32 = 32 ∨ (Rect.block (s := S2x8192x256) S1x8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S2x8192x256.size a
  hwx0_2 : ∀ i : grid0.Coords, EltTy.bits .f32 = 32 ∨ (Rect.block (s := S2x8192x256) S1x512x256.size (cc0_transform_2 i) (hinb0_2 i)).WholeWords (EltTy.packing .f32)

variable [Facts₀]

def gather_S100000x256_S8192x1_S8192x256_1_0_n_n_0_1_1256 : GatherDims S100000x256 S8192x1 S8192x256 where
  offsetDims := [1]
  collapsedSliceDims := [0]
  operandBatchingDims := []
  startIndicesBatchingDims := []
  startIndexMap := [0]
  indexVectorDim := 1
  sliceSizes := ![1, 256]
  wf := gather_S100000x256_S8192x1_S8192x256_1_0_n_n_0_1_1256_wf
def gather_S50000x256_S8192x1_S8192x256_1_0_n_n_0_1_1256 : GatherDims S50000x256 S8192x1 S8192x256 where
  offsetDims := [1]
  collapsedSliceDims := [0]
  operandBatchingDims := []
  startIndicesBatchingDims := []
  startIndexMap := [0]
  indexVectorDim := 1
  sliceSizes := ![1, 256]
  wf := gather_S50000x256_S8192x1_S8192x256_1_0_n_n_0_1_1256_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_v22) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S100000x256 : Shape := ⟨2, ![100000, 256]⟩
abbrev S50000x256 : Shape := ⟨2, ![50000, 256]⟩
abbrev S8192 : Shape := ⟨1, ![8192]⟩
abbrev S_ : Shape := ⟨0, ![]⟩
abbrev S8192x1 : Shape := ⟨2, ![8192, 1]⟩
abbrev S8192x256 : Shape := ⟨2, ![8192, 256]⟩
abbrev S8192x8192 : Shape := ⟨2, ![8192, 8192]⟩

abbrev nBuf : Space → Nat
  | .hbm => 119
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S50000x256, .f32⟩
  | .hbm, ⟨2, _⟩ => ⟨S8192, .i32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192x256, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S8192x256, .f32⟩
  | .hbm, ⟨22, _⟩ => ⟨S8192x256, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S8192x1, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1, .f32⟩
  | .hbm, ⟨34, _⟩ => ⟨S8192x256, .f32⟩
  | .hbm, ⟨35, _⟩ => ⟨S8192x256, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x8192, .f32⟩
  | .hbm, ⟨53, _⟩ => ⟨S8192x8192, .f32⟩
  | .hbm, ⟨54, _⟩ => ⟨S8192x256, .f32⟩
  | .hbm, ⟨55, _⟩ => ⟨S_, .f32⟩
  | .hbm, ⟨56, _⟩ => ⟨S8192x256, .f32⟩
  | .hbm, ⟨57, _⟩ => ⟨S8192x256, .f32⟩
  | .hbm, ⟨58, _⟩ => ⟨S8192x256, .f32⟩
  | .hbm, ⟨59, _⟩ => ⟨S8192x256, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x256, .f32⟩
  | .hbm, ⟨68, _⟩ => ⟨S8192x256, .f32⟩
  | .hbm, ⟨69, _⟩ => ⟨S8192x8192, .f32⟩
  | .hbm, ⟨70, _⟩ => ⟨S_, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S8192x1, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x8192, .f32⟩
  | .hbm, ⟨86, _⟩ => ⟨S8192x8192, .f32⟩
  | .hbm, ⟨87, _⟩ => ⟨S8192x256, .f32⟩
  | .hbm, ⟨88, _⟩ => ⟨S_, .f32⟩
  | .hbm, ⟨89, _⟩ => ⟨S8192x256, .f32⟩
  | .hbm, ⟨90, _⟩ => ⟨S8192x256, .f32⟩
  | .hbm, ⟨91, _⟩ => ⟨S8192x256, .f32⟩
  | .hbm, ⟨92, _⟩ => ⟨S8192x256, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S8192x256, .f32⟩
  | .hbm, ⟨101, _⟩ => ⟨S8192x256, .f32⟩
  | .hbm, ⟨102, _⟩ => ⟨S8192x256, .f32⟩
  | .hbm, ⟨103, _⟩ => ⟨S_, .f32⟩
  | .hbm, ⟨104, _⟩ => ⟨S8192, .f32⟩
  | .hbm, ⟨105, _⟩ => ⟨S8192, .f32⟩
  | .hbm, ⟨106, _⟩ => ⟨S8192, .f32⟩
  | .hbm, ⟨107, _⟩ => ⟨S_, .f32⟩
  | .hbm, ⟨108, _⟩ => ⟨S8192, .f32⟩
  | .hbm, ⟨109, _⟩ => ⟨S8192, .f32⟩
  | .hbm, ⟨110, _⟩ => ⟨S_, .f32⟩
  | .hbm, ⟨111, _⟩ => ⟨S8192, .f32⟩
  | .hbm, ⟨112, _⟩ => ⟨S8192, .f32⟩
  | .hbm, ⟨113, _⟩ => ⟨S8192, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call2_v0 : Ref sig .tc := ⟨.hbm, 59, rfl⟩
abbrev main_call2_cst : Ref sig .tc := ⟨.hbm, 60, rfl⟩
abbrev main_call2_v1 : Ref sig .tc := ⟨.hbm, 61, rfl⟩
abbrev main_call2_v2 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call3_v0 : Ref sig .tc := ⟨.hbm, 92, rfl⟩
abbrev main_call3_cst : Ref sig .tc := ⟨.hbm, 93, rfl⟩
abbrev main_call3_v1 : Ref sig .tc := ⟨.hbm, 94, rfl⟩
abbrev main_call3_v2 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_15 : Ref sig .tc := ⟨.hbm, 107, rfl⟩
abbrev main_v70 : Ref sig .tc := ⟨.hbm, 108, rfl⟩
abbrev main_v71 : Ref sig .tc := ⟨.hbm, 109, rfl⟩
abbrev main_cst_16 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_17 : Ref sig .tc := ⟨.hbm, 114, rfl⟩
abbrev main_v75 : Ref sig .tc := ⟨.hbm, 115, rfl⟩
abbrev main_v76 : Ref sig .tc := ⟨.hbm, 116, rfl⟩
abbrev main_cst_18 : Ref sig .tc := ⟨.hbm, 117, rfl⟩
abbrev main_v77 : Ref sig .tc := ⟨.hbm, 118, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x256_S8192_d1 : S8192x256.ReducesTo [1] S8192
  h_S_ : 0 < S_.numel
  bcast_S8192x1_S8192x256_0_1 : S8192x1.BroadcastsInDim S8192x256 (![0, 1] : Fin 2 → Fin S8192x256.rank)
  bcast_S_S8192x8192 : S_.BroadcastsInDim S8192x8192 (![] : Fin 0 → Fin S8192x8192.rank)
  reducesTo_S8192x8192_S8192_d1 : S8192x8192.ReducesTo [1] S8192
  bcast_S8192x1_S8192x8192_0_1 : S8192x1.BroadcastsInDim S8192x8192 (![0, 1] : Fin 2 → Fin S8192x8192.rank)
  bcast_S_S8192x256 : S_.BroadcastsInDim S8192x256 (![] : Fin 0 → Fin S8192x256.rank)
  bcast_S_S8192x1 : S_.BroadcastsInDim S8192x1 (![] : Fin 0 → Fin S8192x1.rank)
  reducesTo_S8192_S_d0 : S8192.ReducesTo [0] S_
  gather_S100000x256_S8192x1_S8192x256_1_0_n_n_0_1_1256_wf : GatherDims.WF S100000x256 S8192x1 S8192x256 [1] [0] [] [0] [] 1 ![1, 256]
  gather_S50000x256_S8192x1_S8192x256_1_0_n_n_0_1_1256_wf : GatherDims.WF S50000x256 S8192x1 S8192x256 [1] [0] [] [0] [] 1 ![1, 256]
  dot_S8192x256_S8192x256_S8192x8192_1_1_0_0_n_n_wf : DotDims.WF S8192x256 S8192x256 S8192x8192 [1] [1] [0] [0] [] []
  dot_S8192x8192_S8192x256_S8192x256_1_0_0_1_n_n_wf : DotDims.WF S8192x8192 S8192x256 S8192x256 [1] [0] [0] [1] [] []

variable [Facts₀]

def gather_S100000x256_S8192x1_S8192x256_1_0_n_n_0_1_1256 : GatherDims S100000x256 S8192x1 S8192x256 where
  offsetDims := [1]
  collapsedSliceDims := [0]
  operandBatchingDims := []
  startIndicesBatchingDims := []
  startIndexMap := [0]
  indexVectorDim := 1
  sliceSizes := ![1, 256]
  wf := gather_S100000x256_S8192x1_S8192x256_1_0_n_n_0_1_1256_wf
def gather_S50000x256_S8192x1_S8192x256_1_0_n_n_0_1_1256 : GatherDims S50000x256 S8192x1 S8192x256 where
  offsetDims := [1]
  collapsedSliceDims := [0]
  operandBatchingDims := []
  startIndicesBatchingDims := []
  startIndexMap := [0]
  indexVectorDim := 1
  sliceSizes := ![1, 256]
  wf := gather_S50000x256_S8192x1_S8192x256_1_0_n_n_0_1_1256_wf
def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.RefFrame.lean ====
/-
  The reference runs to the end, faults nowhere and leaves its four argument arrays as they were.

  The reference is a straight line of host operations with no kernel launch: from any memory with zero counters every
  weakly fair execution ends with each buffer at the value its operation computes from buffers written before it, and
  no operation writes an argument. The run theorem states that for the result and for the four arguments; the frame
  claim is its statement about the arguments alone, so the result's conjunct is dropped. The precondition is not used:
  a host program of total operations runs from every memory.
-/
import proofs.«146094_j20349555048597_2_alg».proof.Defs
import proofs.«146094_j20349555048597_2_alg».proof.Proof.Gen.ReferenceIdeal
import proofs.«146094_j20349555048597_2_alg».proof.Proof.Gen.Pre_finite_inputs
import proofs.«146094_j20349555048597_2_alg».proof.Proof.RefRunPatched

noncomputable section

namespace Cert.Proof.Reference

open Idealize.ShloMosaic Idealize.ShloMosaic.TcCoe Idealize.SL.Sem

/-- The frame of the reference: its run with the result's conjunct dropped. -/
theorem frame_ri : Cert.frame_ReferenceIdeal := fun m ρ _ =>
  (θ_run Cert.ReferenceIdeal.defs _ _).mono (fun _ h c => (h c).2) (Cert.ReferenceIdeal.ValueP.run (F := Ideal) m ρ)

end Cert.Proof.Reference

end
-- ==== Proof.KiRuns.lean ====
/-
  What the three control cases of the kernel body share.

  The grid is (half b, query block qi, key block kv) = (2, 16, 8), kv fastest, so point t has kv = t mod 8. The body
  resets its three running buffers (value m, denominator l, numerator acc) when kv = 0 and writes the output block
  when kv = 7; both conditions are closed forms of t, decided once over the 256 points. The output window is idle and
  not written back at every other point.
-/
import proofs.«146094_j20349555048597_2_alg».proof.Proof.Gen.KernelIdeal.Launch
import proofs.«146094_j20349555048597_2_alg».proof.Proof.Gen.KernelIdeal.Skeleton
import proofs.«146094_j20349555048597_2_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: the first key block of a (half, query block) pair. -/
abbrev condFirst (i : grid0.Coords) : Prop :=
  (Scalar.cmpi .ne (Scalar.extui (Scalar.cmpi .eq (BitVec.ofNat 32 (i 2).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- The body's second branch is taken: the last key block. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- Off the last key block the output window is idle and its block is not written back. -/
theorem idle2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
/-- At the last key block it is live. -/
theorem live2 : ∀ t : Fin cfg0.N, condLast (grid0.coords t) → cfg0.idle 2 (grid0.coords t) = false := by decide +kernel

/-- Each window's current staging memref at point t, and that it is a whole buffer. -/
abbrev ms0 (t : Fin cfg0.N) : Memref sig .tc .vmem S1x512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8192x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x256 .f32 := win0_2.stage (cfg0.slots t 2)
abbrev hs2 (t : Fin cfg0.N) : (ms2 t).IsWhole := hstage0_2 ((cfg0.slots t 2).cast nbuf0_2)
/-- The three running buffers: m, l, acc. -/
abbrev scM : Memref sig .tc .vmem S512x1 .f32 := Memref.whole cc0_scratch0
abbrev scL : Memref sig .tc .vmem S512x1 .f32 := Memref.whole cc0_scratch1
abbrev scA : Memref sig .tc .vmem S512x256 .f32 := Memref.whole cc0_scratch2
/-- Views through which buffer contents are stated. -/
abbrev VO : View sig .tc .vmem S1x512x256 .f32 := (Memref.whole cc0_stg2_0 : Memref sig .tc .vmem S1x512x256 .f32).view
abbrev VM : View sig .tc .vmem S512x1 .f32 := scM.view
abbrev VL : View sig .tc .vmem S512x1 .f32 := scL.view
abbrev VA : View sig .tc .vmem S512x256 .f32 := scA.view

end Cert.KernelIdeal.Hand

end
-- ==== Proof.KiRunB.lean ====
/-
  The kernel body at a middle key block (neither the first nor the last): it reads the query block, the key block at
  rows kv*1024 .. kv*1024+1023 of the resident half, and the three running buffers, and stores the three running
  buffers; the output block is not touched. What each running buffer ends with is recorded as the list of pieces stored
  into it (here one whole-buffer piece each), found when the run hands the buffers to the continuation.
-/
import proofs.«146094_j20349555048597_2_alg».proof.Proof.Gen.KernelIdeal.Launch
import proofs.«146094_j20349555048597_2_alg».proof.Proof.Gen.KernelIdeal.Skeleton
import proofs.«146094_j20349555048597_2_alg».proof.Proof.Gen.KernelIdeal.Points
import Idealize.ShloMosaic.Lib.Pipeline.FrameBody
import Idealize.ShloMosaic.Lib.Pipeline.Regions
import Idealize.ShloMosaic.Lib.Tactic
import proofs.«146094_j20349555048597_2_alg».proof.Proof.KiRuns
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) :
    Σ' (L2 : List (View.Piece (Elt F) S1x512x256 .f32)) (LS0 : List (View.Piece (Elt F) S512x1 .f32)) (LS1 : List (View.Piece (Elt F) S512x1 .f32)), { LS2 : List (View.Piece (Elt F) S512x256 .f32) //
      ∀ (xi2 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1 ∗ owns (c : Thread nD τ) arg8 fullShare xs2
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__spec_smooth_kernel i arg3 harg3 arg4 harg4 arg5 harg5 arg6 harg6 arg7 harg7 arg8 harg8) K } := by
  refine ⟨[], ?_, ?_, ?_, fun xi2 E K => ?run⟩
  case run =>
    simp only [cc0__spec_smooth_kernel_eq_skeleton]; unfold cc0__spec_smooth_kernel_skel
    simp only [k0_part1_eq_skeleton]; unfold k0_part1_skel
    unfold owns
    iintro ⟨⟨%f0, %hf0, H0⟩, ⟨%f1, %hf1, H1⟩, ⟨%f2, %hf2, H2⟩, ⟨%g0, %hg0, HS0⟩, ⟨%g1, %hg1, HS1⟩, ⟨%g2, %hg2, HS2⟩, Hk⟩
    obtain rfl := harg3.eq_unread hf0; obtain rfl := harg4.eq_unread hf1; obtain rfl := harg5.eq_unread hf2
    obtain rfl := harg6.eq_unread hg0; obtain rfl := harg7.eq_unread hg1; obtain rfl := harg8.eq_unread hg2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.KernelIdeal.Hand

end
-- ==== Proof.KiRunA.lean ====
/-
  The kernel body at the first key block of a (half, query block) pair: it overwrites the three running buffers with
  their starting values (-inf, 0, 0) before reading them, so what they held before does not matter; then it proceeds as
  at any block. The output block is not touched.
-/
import proofs.«146094_j20349555048597_2_alg».proof.Proof.Gen.KernelIdeal.Launch
import proofs.«146094_j20349555048597_2_alg».proof.Proof.Gen.KernelIdeal.Skeleton
import proofs.«146094_j20349555048597_2_alg».proof.Proof.Gen.KernelIdeal.Points
import Idealize.ShloMosaic.Lib.Pipeline.FrameBody
import Idealize.ShloMosaic.Lib.Pipeline.Regions
import Idealize.ShloMosaic.Lib.Tactic
import proofs.«146094_j20349555048597_2_alg».proof.Proof.KiRunB
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) :
    Σ' (L2 : List (View.Piece (Elt F) S1x512x256 .f32)) (LS0 : List (View.Piece (Elt F) S512x1 .f32)) (LS1 : List (View.Piece (Elt F) S512x1 .f32)), { LS2 : List (View.Piece (Elt F) S512x256 .f32) //
      ∀ (xi2 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__spec_smooth_kernel i arg3 harg3 arg4 harg4 arg5 harg5 arg6 harg6 arg7 harg7 arg8 harg8) K } := by
  refine ⟨[], ?_, ?_, ?_, fun xi2 E K => ?run⟩
  case run =>
    simp only [cc0__spec_smooth_kernel_eq_skeleton]; unfold cc0__spec_smooth_kernel_skel
    simp only [k0_part1_eq_skeleton]; unfold k0_part1_skel
    unfold owns
    iintro ⟨⟨%f0, %hf0, H0⟩, ⟨%f1, %hf1, H1⟩, ⟨%f2, %hf2, H2⟩, ⟨%d0, %g0, -, HS0⟩, ⟨%d1, %g1, -, HS1⟩, ⟨%d2, %g2, -, HS2⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.KernelIdeal.Hand

end
-- ==== Proof.KiRunC.lean ====
/-
  The kernel body at the last key block: after updating the three running buffers as at any block it divides the
  running numerator by the running denominator, forms y = x - 0.8 * (that quotient) and stores y * |y| as the output
  block; what the output's staging buffer held before does not matter.
-/
import proofs.«146094_j20349555048597_2_alg».proof.Proof.Gen.KernelIdeal.Launch
import proofs.«146094_j20349555048597_2_alg».proof.Proof.Gen.KernelIdeal.Skeleton
import proofs.«146094_j20349555048597_2_alg».proof.Proof.Gen.KernelIdeal.Points
import Idealize.ShloMosaic.Lib.Pipeline.FrameBody
import Idealize.ShloMosaic.Lib.Pipeline.Regions
import Idealize.ShloMosaic.Lib.Tactic
import proofs.«146094_j20349555048597_2_alg».proof.Proof.KiRunA
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) :
    Σ' (L2 : List (View.Piece (Elt F) S1x512x256 .f32)) (LS0 : List (View.Piece (Elt F) S512x1 .f32)) (LS1 : List (View.Piece (Elt F) S512x1 .f32)), { LS2 : List (View.Piece (Elt F) S512x256 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__spec_smooth_kernel i arg3 harg3 arg4 harg4 arg5 harg5 arg6 harg6 arg7 harg7 arg8 harg8) K } := by
  refine ⟨?_, ?_, ?_, ?_, fun E K => ?run⟩
  case run =>
    simp only [cc0__spec_smooth_kernel_eq_skeleton]; unfold cc0__spec_smooth_kernel_skel
    simp only [k0_part1_eq_skeleton]; unfold k0_part1_skel
    unfold owns
    iintro ⟨⟨%f0, %hf0, H0⟩, ⟨%f1, %hf1, H1⟩, ⟨%d2, %f2, -, H2⟩, ⟨%g0, %hg0, HS0⟩, ⟨%g1, %hg1, HS1⟩, ⟨%g2, %hg2, HS2⟩, Hk⟩
    obtain rfl := harg3.eq_unread hf0; obtain rfl := harg4.eq_unread hf1
    obtain rfl := harg6.eq_unread hg0; obtain rfl := harg7.eq_unread hg1; obtain rfl := harg8.eq_unread hg2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    isplitl [HS1]; · iexists _; iexact HS1
    iexists _; iexact HS2

end Cert.KernelIdeal.Hand

end
-- ==== Proof.KiOuts.lean ====
/-
  What the output's staging buffer and the three running buffers hold after the body at each grid point.

  Point t belongs to the (half, query block) pair t / 8 and processes key block t mod 8. At the first key block the body
  starts the running buffers afresh from the query block and that key block alone; at every later one it updates what
  the point before left; at the last it also stores the output block. So the four buffers after point t are given by
  recursion on t, the case selected by t mod 8 (first, last, or in between).
-/
import proofs.«146094_j20349555048597_2_alg».proof.Proof.Gen.KernelIdeal.Launch
import proofs.«146094_j20349555048597_2_alg».proof.Proof.Gen.KernelIdeal.Skeleton
import proofs.«146094_j20349555048597_2_alg».proof.Proof.Gen.KernelIdeal.Points
import Idealize.ShloMosaic.Lib.Pipeline.FrameBody
import Idealize.ShloMosaic.Lib.Pipeline.Regions
import Idealize.ShloMosaic.Lib.Tactic
import Idealize.ShloMosaic.Lib.Ring
import proofs.«146094_j20349555048597_2_alg».proof.Proof.KiRunC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as @main's host operations before the kernel leave them: the launch contents, then the five stretches
    of operations in order (index fix-up and row selection; the first norm; the first division; the second norm; the
    second division and the stacking of the two halves). -/
abbrev W0 (c : Dev nD) : Valuation τ sig (Elt F) := fun b => m (c, b)
abbrev V0 (c : Dev nD) : Valuation τ sig (Elt F) :=
  StableHlo.after hostOps0_4 (StableHlo.after hostOps0_3 (StableHlo.after hostOps0_2 (StableHlo.after hostOps0_1 (StableHlo.after hostOps0 (W0 m c)))))
/-- The same read at a TensorCore reference. -/
abbrev V (c : Dev nD) (b : Ref sig .tc) : Buf (Elt F) ((c : Thread nD τ).loc b) := V0 m c (Proc.devRef .tc b)

/-- Window w's block at point t, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Case A's pieces for the running buffer M cover it (one whole-buffer store). -/
theorem scover_A_M (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) (y : S512x1.Idx) :
    ∃ pc ∈ (kernelRun_A c i arg3 harg3 arg4 harg4 arg5 harg5 arg6 harg6 arg7 harg7 arg8 harg8 hc0 hc1 x0 x1).2.1, y ∈ pc.1.set :=
  View.cover_of_tiledL (kernelRun_A c i arg3 harg3 arg4 harg4 arg5 harg5 arg6 harg6 arg7 harg7 arg8 harg8 hc0 hc1 x0 x1).2.1 S512x1.size (by sl_kernel_rfl) y

/-- What case A leaves in the running buffer M: its pieces read back. -/
def sout_A_M (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) : Vec F S512x1 .f32 :=
  VM.read (Elt F) (VM.writes (Elt F) VM.junk (kernelRun_A c i arg3 harg3 arg4 harg4 arg5 harg5 arg6 harg6 arg7 harg7 arg8 harg8 hc0 hc1 x0 x1).2.1)

/-- Case A's pieces for the running buffer L cover it (one whole-buffer store). -/
theorem scover_A_L (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) (y : S512x1.Idx) :
    ∃ pc ∈ (kernelRun_A c i arg3 harg3 arg4 harg4 arg5 harg5 arg6 harg6 arg7 harg7 arg8 harg8 hc0 hc1 x0 x1).2.2.1, y ∈ pc.1.set :=
  View.cover_of_tiledL (kernelRun_A c i arg3 harg3 arg4 harg4 arg5 harg5 arg6 harg6 arg7 harg7 arg8 harg8 hc0 hc1 x0 x1).2.2.1 S512x1.size (by sl_kernel_rfl) y

/-- What case A leaves in the running buffer L: its pieces read back. -/
def sout_A_L (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) : Vec F S512x1 .f32 :=
  VL.read (Elt F) (VL.writes (Elt F) VL.junk (kernelRun_A c i arg3 harg3 arg4 harg4 arg5 harg5 arg6 harg6 arg7 harg7 arg8 harg8 hc0 hc1 x0 x1).2.2.1)

/-- Case A's pieces for the running buffer A cover it (one whole-buffer store). -/
theorem scover_A_A (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) (y : S512x256.Idx) :
    ∃ pc ∈ (kernelRun_A c i arg3 harg3 arg4 harg4 arg5 harg5 arg6 harg6 arg7 harg7 arg8 harg8 hc0 hc1 x0 x1).2.2.2.1, y ∈ pc.1.set :=
  View.cover_of_tiledL (kernelRun_A c i arg3 harg3 arg4 harg4 arg5 harg5 arg6 harg6 arg7 harg7 arg8 harg8 hc0 hc1 x0 x1).2.2.2.1 S512x256.size (by sl_kernel_rfl) y

/-- What case A leaves in the running buffer A: its pieces read back. -/
def sout_A_A (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) : Vec F S512x256 .f32 :=
  VA.read (Elt F) (VA.writes (Elt F) VA.junk (kernelRun_A c i arg3 harg3 arg4 harg4 arg5 harg5 arg6 harg6 arg7 harg7 arg8 harg8 hc0 hc1 x0 x1).2.2.2.1)

/-- What case A leaves in the output's staging buffer — nothing is stored there; a placeholder nothing consults, the window being idle and not written back at these points. -/
def out_A_O (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) : Vec F S1x512x256 .f32 :=
  VO.read (Elt F) (VO.writes (Elt F) VO.junk (kernelRun_A c i arg3 harg3 arg4 harg4 arg5 harg5 arg6 harg6 arg7 harg7 arg8 harg8 hc0 hc1 x0 x1).1)

/-- Case B's pieces for the running buffer M cover it (one whole-buffer store). -/
theorem scover_B_M (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) (y : S512x1.Idx) :
    ∃ pc ∈ (kernelRun_B c i arg3 harg3 arg4 harg4 arg5 harg5 arg6 harg6 arg7 harg7 arg8 harg8 hc0 hc1 x0 x1 xs0 xs1 xs2).2.1, y ∈ pc.1.set :=
  View.cover_of_tiledL (kernelRun_B c i arg3 harg3 arg4 harg4 arg5 harg5 arg6 harg6 arg7 harg7 arg8 harg8 hc0 hc1 x0 x1 xs0 xs1 xs2).2.1 S512x1.size (by sl_kernel_rfl) y

/-- What case B leaves in the running buffer M: its pieces read back. -/
def sout_B_M (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) : Vec F S512x1 .f32 :=
  VM.read (Elt F) (VM.writes (Elt F) VM.junk (kernelRun_B c i arg3 harg3 arg4 harg4 arg5 harg5 arg6 harg6 arg7 harg7 arg8 harg8 hc0 hc1 x0 x1 xs0 xs1 xs2).2.1)

/-- Case B's pieces for the running buffer L cover it (one whole-buffer store). -/
theorem scover_B_L (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) (y : S512x1.Idx) :
    ∃ pc ∈ (kernelRun_B c i arg3 harg3 arg4 harg4 arg5 harg5 arg6 harg6 arg7 harg7 arg8 harg8 hc0 hc1 x0 x1 xs0 xs1 xs2).2.2.1, y ∈ pc.1.set :=
  View.cover_of_tiledL (kernelRun_B c i arg3 harg3 arg4 harg4 arg5 harg5 arg6 harg6 arg7 harg7 arg8 harg8 hc0 hc1 x0 x1 xs0 xs1 xs2).2.2.1 S512x1.size (by sl_kernel_rfl) y

/-- What case B leaves in the running buffer L: its pieces read back. -/
def sout_B_L (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) : Vec F S512x1 .f32 :=
  VL.read (Elt F) (VL.writes (Elt F) VL.junk (kernelRun_B c i arg3 harg3 arg4 harg4 arg5 harg5 arg6 harg6 arg7 harg7 arg8 harg8 hc0 hc1 x0 x1 xs0 xs1 xs2).2.2.1)

/-- Case B's pieces for the running buffer A cover it (one whole-buffer store). -/
theorem scover_B_A (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) (y : S512x256.Idx) :
    ∃ pc ∈ (kernelRun_B c i arg3 harg3 arg4 harg4 arg5 harg5 arg6 harg6 arg7 harg7 arg8 harg8 hc0 hc1 x0 x1 xs0 xs1 xs2).2.2.2.1, y ∈ pc.1.set :=
  View.cover_of_tiledL (kernelRun_B c i arg3 harg3 arg4 harg4 arg5 harg5 arg6 harg6 arg7 harg7 arg8 harg8 hc0 hc1 x0 x1 xs0 xs1 xs2).2.2.2.1 S512x256.size (by sl_kernel_rfl) y

/-- What case B leaves in the running buffer A: its pieces read back. -/
def sout_B_A (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) : Vec F S512x256 .f32 :=
  VA.read (Elt F) (VA.writes (Elt F) VA.junk (kernelRun_B c i arg3 harg3 arg4 harg4 arg5 harg5 arg6 harg6 arg7 harg7 arg8 harg8 hc0 hc1 x0 x1 xs0 xs1 xs2).2.2.2.1)

/-- What case B leaves in the output's staging buffer — nothing is stored there; a placeholder nothing consults, the window being idle and not written back at these points. -/
def out_B_O (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) : Vec F S1x512x256 .f32 :=
  VO.read (Elt F) (VO.writes (Elt F) VO.junk (kernelRun_B c i arg3 harg3 arg4 harg4 arg5 harg5 arg6 harg6 arg7 harg7 arg8 harg8 hc0 hc1 x0 x1 xs0 xs1 xs2).1)

/-- Case C's pieces for the running buffer M cover it (one whole-buffer store). -/
theorem scover_C_M (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) (y : S512x1.Idx) :
    ∃ pc ∈ (kernelRun_C c i arg3 harg3 arg4 harg4 arg5 harg5 arg6 harg6 arg7 harg7 arg8 harg8 hc0 hc1 x0 x1 xs0 xs1 xs2).2.1, y ∈ pc.1.set :=
  View.cover_of_tiledL (kernelRun_C c i arg3 harg3 arg4 harg4 arg5 harg5 arg6 harg6 arg7 harg7 arg8 harg8 hc0 hc1 x0 x1 xs0 xs1 xs2).2.1 S512x1.size (by sl_kernel_rfl) y

/-- What case C leaves in the running buffer M: its pieces read back. -/
def sout_C_M (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) : Vec F S512x1 .f32 :=
  VM.read (Elt F) (VM.writes (Elt F) VM.junk (kernelRun_C c i arg3 harg3 arg4 harg4 arg5 harg5 arg6 harg6 arg7 harg7 arg8 harg8 hc0 hc1 x0 x1 xs0 xs1 xs2).2.1)

/-- Case C's pieces for the running buffer L cover it (one whole-buffer store). -/
theorem scover_C_L (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) (y : S512x1.Idx) :
    ∃ pc ∈ (kernelRun_C c i arg3 harg3 arg4 harg4 arg5 harg5 arg6 harg6 arg7 harg7 arg8 harg8 hc0 hc1 x0 x1 xs0 xs1 xs2).2.2.1, y ∈ pc.1.set :=
  View.cover_of_tiledL (kernelRun_C c i arg3 harg3 arg4 harg4 arg5 harg5 arg6 harg6 arg7 harg7 arg8 harg8 hc0 hc1 x0 x1 xs0 xs1 xs2).2.2.1 S512x1.size (by sl_kernel_rfl) y

/-- What case C leaves in the running buffer L: its pieces read back. -/
def sout_C_L (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) : Vec F S512x1 .f32 :=
  VL.read (Elt F) (VL.writes (Elt F) VL.junk (kernelRun_C c i arg3 harg3 arg4 harg4 arg5 harg5 arg6 harg6 arg7 harg7 arg8 harg8 hc0 hc1 x0 x1 xs0 xs1 xs2).2.2.1)

/-- Case C's pieces for the running buffer A cover it (one whole-buffer store). -/
theorem scover_C_A (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) (y : S512x256.Idx) :
    ∃ pc ∈ (kernelRun_C c i arg3 harg3 arg4 harg4 arg5 harg5 arg6 harg6 arg7 harg7 arg8 harg8 hc0 hc1 x0 x1 xs0 xs1 xs2).2.2.2.1, y ∈ pc.1.set :=
  View.cover_of_tiledL (kernelRun_C c i arg3 harg3 arg4 harg4 arg5 harg5 arg6 harg6 arg7 harg7 arg8 harg8 hc0 hc1 x0 x1 xs0 xs1 xs2).2.2.2.1 S512x256.size (by sl_kernel_rfl) y

/-- What case C leaves in the running buffer A: its pieces read back. -/
def sout_C_A (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) : Vec F S512x256 .f32 :=
  VA.read (Elt F) (VA.writes (Elt F) VA.junk (kernelRun_C c i arg3 harg3 arg4 harg4 arg5 harg5 arg6 harg6 arg7 harg7 arg8 harg8 hc0 hc1 x0 x1 xs0 xs1 xs2).2.2.2.1)

/-- Case C's pieces for the output block cover it (one whole-buffer store). -/
theorem cover_C_O (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) (y : S1x512x256.Idx) :
    ∃ pc ∈ (kernelRun_C c i arg3 harg3 arg4 harg4 arg5 harg5 arg6 harg6 arg7 harg7 arg8 harg8 hc0 hc1 x0 x1 xs0 xs1 xs2).1, y ∈ pc.1.set :=
  View.cover_of_tiledL (kernelRun_C c i arg3 harg3 arg4 harg4 arg5 harg5 arg6 harg6 arg7 harg7 arg8 harg8 hc0 hc1 x0 x1 xs0 xs1 xs2).1 S1x512x256.size (by sl_kernel_rfl) y

/-- What case C leaves in the output's staging buffer: its pieces read back. -/
def out_C_O (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) : Vec F S1x512x256 .f32 :=
  VO.read (Elt F) (VO.writes (Elt F) VO.junk (kernelRun_C c i arg3 harg3 arg4 harg4 arg5 harg5 arg6 harg6 arg7 harg7 arg8 harg8 hc0 hc1 x0 x1 xs0 xs1 xs2).1)

/-- The four buffers after a point of the first key block. -/
def caseA (c : Dev nD) (t : Fin cfg0.N) (h0 : t.val % 8 = 0) (h1 : ¬t.val % 8 = 7) : (Vec F S1x512x256 .f32 × Vec F S512x1 .f32 × Vec F S512x1 .f32 × Vec F S512x256 .f32) :=
  (out_A_O c (grid0.coords t) (ms0 t) (hs0 t) (ms1 t) (hs1 t) (ms2 t) (hs2 t) scM (Memref.isWhole_whole _) scL (Memref.isWhole_whole _) scA (Memref.isWhole_whole _) ((hcondFirst t).mpr h0) (fun h => h1 ((hcondLast t).mp h)) (iblk m c 0 t) (iblk m c 1 t),
   sout_A_M c (grid0.coords t) (ms0 t) (hs0 t) (ms1 t) (hs1 t) (ms2 t) (hs2 t) scM (Memref.isWhole_whole _) scL (Memref.isWhole_whole _) scA (Memref.isWhole_whole _) ((hcondFirst t).mpr h0) (fun h => h1 ((hcondLast t).mp h)) (iblk m c 0 t) (iblk m c 1 t),
   sout_A_L c (grid0.coords t) (ms0 t) (hs0 t) (ms1 t) (hs1 t) (ms2 t) (hs2 t) scM (Memref.isWhole_whole _) scL (Memref.isWhole_whole _) scA (Memref.isWhole_whole _) ((hcondFirst t).mpr h0) (fun h => h1 ((hcondLast t).mp h)) (iblk m c 0 t) (iblk m c 1 t),
   sout_A_A c (grid0.coords t) (ms0 t) (hs0 t) (ms1 t) (hs1 t) (ms2 t) (hs2 t) scM (Memref.isWhole_whole _) scL (Memref.isWhole_whole _) scA (Memref.isWhole_whole _) ((hcondFirst t).mpr h0) (fun h => h1 ((hcondLast t).mp h)) (iblk m c 0 t) (iblk m c 1 t))

/-- The four buffers after a point of a middle key block, over what the point before left in the running buffers. -/
def caseB (c : Dev nD) (t : Fin cfg0.N) (h0 : ¬t.val % 8 = 0) (h1 : ¬t.val % 8 = 7) (p : (Vec F S1x512x256 .f32 × Vec F S512x1 .f32 × Vec F S512x1 .f32 × Vec F S512x256 .f32)) : (Vec F S1x512x256 .f32 × Vec F S512x1 .f32 × Vec F S512x1 .f32 × Vec F S512x256 .f32) :=
  (out_B_O c (grid0.coords t) (ms0 t) (hs0 t) (ms1 t) (hs1 t) (ms2 t) (hs2 t) scM (Memref.isWhole_whole _) scL (Memref.isWhole_whole _) scA (Memref.isWhole_whole _) (fun h => h0 ((hcondFirst t).mp h)) (fun h => h1 ((hcondLast t).mp h)) (iblk m c 0 t) (iblk m c 1 t) p.2.1 p.2.2.1 p.2.2.2,
   sout_B_M c (grid0.coords t) (ms0 t) (hs0 t) (ms1 t) (hs1 t) (ms2 t) (hs2 t) scM (Memref.isWhole_whole _) scL (Memref.isWhole_whole _) scA (Memref.isWhole_whole _) (fun h => h0 ((hcondFirst t).mp h)) (fun h => h1 ((hcondLast t).mp h)) (iblk m c 0 t) (iblk m c 1 t) p.2.1 p.2.2.1 p.2.2.2,
   sout_B_L c (grid0.coords t) (ms0 t) (hs0 t) (ms1 t) (hs1 t) (ms2 t) (hs2 t) scM (Memref.isWhole_whole _) scL (Memref.isWhole_whole _) scA (Memref.isWhole_whole _) (fun h => h0 ((hcondFirst t).mp h)) (fun h => h1 ((hcondLast t).mp h)) (iblk m c 0 t) (iblk m c 1 t) p.2.1 p.2.2.1 p.2.2.2,
   sout_B_A c (grid0.coords t) (ms0 t) (hs0 t) (ms1 t) (hs1 t) (ms2 t) (hs2 t) scM (Memref.isWhole_whole _) scL (Memref.isWhole_whole _) scA (Memref.isWhole_whole _) (fun h => h0 ((hcondFirst t).mp h)) (fun h => h1 ((hcondLast t).mp h)) (iblk m c 0 t) (iblk m c 1 t) p.2.1 p.2.2.1 p.2.2.2)

/-- The four buffers after a point of the last key block, over what the point before left in the running buffers. -/
def caseC (c : Dev nD) (t : Fin cfg0.N) (h0 : ¬t.val % 8 = 0) (h1 : t.val % 8 = 7) (p : (Vec F S1x512x256 .f32 × Vec F S512x1 .f32 × Vec F S512x1 .f32 × Vec F S512x256 .f32)) : (Vec F S1x512x256 .f32 × Vec F S512x1 .f32 × Vec F S512x1 .f32 × Vec F S512x256 .f32) :=
  (out_C_O c (grid0.coords t) (ms0 t) (hs0 t) (ms1 t) (hs1 t) (ms2 t) (hs2 t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2,
   sout_C_M c (grid0.coords t) (ms0 t) (hs0 t) (ms1 t) (hs1 t) (ms2 t) (hs2 t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2,
   sout_C_L c (grid0.coords t) (ms0 t) (hs0 t) (ms1 t) (hs1 t) (ms2 t) (hs2 t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2,
   sout_C_A c (grid0.coords t) (ms0 t) (hs0 t) (ms1 t) (hs1 t) (ms2 t) (hs2 t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2)

/-- The four buffers after the body at position n, by recursion on n. -/
def outsAt (c : Dev nD) : (n : ℕ) → n < cfg0.N → (Vec F S1x512x256 .f32 × Vec F S512x1 .f32 × Vec F S512x1 .f32 × Vec F S512x256 .f32)
  | 0, hn => caseA m c ⟨0, hn⟩ (Nat.zero_mod _) (by dsimp only; omega)
  | n + 1, hn =>
    if h0 : (n + 1) % 8 = 0 then caseA m c ⟨n + 1, hn⟩ h0 (by dsimp only; omega)
    else if h1 : (n + 1) % 8 = 7 then caseC m c ⟨n + 1, hn⟩ h0 h1 (outsAt c n (Nat.lt_of_succ_lt hn))
    else caseB m c ⟨n + 1, hn⟩ h0 h1 (outsAt c n (Nat.lt_of_succ_lt hn))

theorem outsAt_A (c : Dev nD) (t : Fin cfg0.N) (h0 : t.val % 8 = 0) (h1 : ¬t.val % 8 = 7) :
    outsAt m c t.val t.isLt = caseA m c t h0 h1 := by
  obtain ⟨n, hn⟩ := t
  cases n with
  | zero => rfl
  | succ n => exact (dif_pos h0).trans rfl

theorem outsAt_B (c : Dev nD) (t : Fin cfg0.N) (h0 : ¬t.val % 8 = 0) (h1 : ¬t.val % 8 = 7) :
    outsAt m c t.val t.isLt = caseB m c t h0 h1 (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt_C (c : Dev nD) (t : Fin cfg0.N) (h0 : ¬t.val % 8 = 0) (h1 : t.val % 8 = 7) :
    outsAt m c t.val t.isLt = caseC m c t h0 h1 (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

end Cert.KernelIdeal.Hand

end
-- ==== Proof.KiFrame.lean ====
/-
  The pipeline's proof data for the kernel, and the body at a generic grid point.

  Between points the three running buffers hold what the point before left (at the very first point: anything; the
  body of a first key block never uses what it finds there). The two input windows hold their blocks at every point,
  fetched there or not; the output window's staging buffer is stored only at a last key block and is handed back
  untouched elsewhere. At each point the case is selected by t mod 8 and that case's run applies.
-/
import proofs.«146094_j20349555048597_2_alg».proof.Proof.Gen.KernelIdeal.Launch
import proofs.«146094_j20349555048597_2_alg».proof.Proof.Gen.KernelIdeal.Skeleton
import proofs.«146094_j20349555048597_2_alg».proof.Proof.Gen.KernelIdeal.Points
import Idealize.ShloMosaic.Lib.Pipeline.FrameBody
import Idealize.ShloMosaic.Lib.Pipeline.Regions
import Idealize.ShloMosaic.Lib.Tactic
import Idealize.ShloMosaic.Lib.Ring
import proofs.«146094_j20349555048597_2_alg».proof.Proof.KiOuts
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scoped buffers no window stages are the three running buffers, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ (∃ d, owns (c : Thread nD τ) scL fullShare d) ∗ (∃ d, owns (c : Thread nD τ) scA fullShare d)) := by
  rw [scopedRest0_eq]; simp only [scM, scL, scA, owns_whole]; try rfl

/-- The invariant before position n: before the first point the running buffers at anything; afterwards each at what
    the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM fullShare (outsAt m c n hn).2.1 ∗ owns (c : Thread nD τ) scL fullShare (outsAt m c n hn).2.2.1
      ∗ owns (c : Thread nD τ) scA fullShare (outsAt m c n hn).2.2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM fullShare (outsAt m c n hn).2.1 ∗ owns (c : Thread nD τ) scL fullShare (outsAt m c n hn).2.2.1
      ∗ owns (c : Thread nD τ) scA fullShare (outsAt m c n hn).2.2.2) := rfl

theorem PhiS_pos (c : Dev nD) (n : ℕ) (h : n ≤ cfg0.N) (hz : n ≠ 0) :
    PhiS m c n h = iprop(owns (c : Thread nD τ) scM fullShare (outsAt m c (n - 1) (by omega)).2.1 ∗ owns (c : Thread nD τ) scL fullShare (outsAt m c (n - 1) (by omega)).2.2.1
      ∗ owns (c : Thread nD τ) scA fullShare (outsAt m c (n - 1) (by omega)).2.2.2) := by
  cases n with
  | zero => exact absurd rfl hz
  | succ n => rfl

/-- The proof data on core c: the arrays as the kernel finds them; after the body each input's buffer at its block and
    the output's at the recursion's first component; the invariant above; the stacked rows' array lent in two halves
    to the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 8 = 0
  · have h1 : ¬t.val % 8 = 7 := by omega
    rw [show (dats m 0 c).leavesExact 0 t = owns (c : Thread nD τ) (ms0 t) fullShare ((dats m 0 c).after 0 t) from (by unfold Dat.leavesExact; rw [live0 t]), after0]
    rw [show (dats m 0 c).leavesExact 1 t = owns (c : Thread nD τ) (ms1 t) fullShare ((dats m 0 c).after 1 t) from (by unfold Dat.leavesExact; rw [live1 t]), after1]
    rw [Dat.leavesExact_idle (dats m 0 c) 2 t (idle2 t (fun h => h1 ((hcondLast t).mp h))) (noFlush2 t (fun h => h1 ((hcondLast t).mp h)))]
    rw [outsAt_A m c t h0 h1]
    unfold caseA sout_A_M sout_A_L sout_A_A; (try dsimp only)
    by_cases hz : t.val = 0
    · rw [PhiS_castSucc m c t, PhiS_zero m c _ _ hz, scoped_eq]
      iintro ⟨⟨HS0, HS1, HS2⟩, Ho, ⟨%d0, H0⟩, ⟨%d1, H1⟩, ⟨%d2, H2⟩⟩
      iapply ((kernelRun_A c (grid0.coords t) _ _ _ _ _ _ _ _ _ _ _ _ ((hcondFirst t).mpr h0) (fun h => h1 ((hcondLast t).mp h)) (iblk m c 0 t) (iblk m c 1 t)).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (scover_A_M c _ _ _ _ _ _ _ _ _ _ _ _ _ _ _ _ _)
        isplitl [HS1]
        · unfold owns; iexists _; isplitr
          swap; · iexact HS1
          ipureintro; exact View.read_writes_of_cover _ _ _ _ _ (scover_A_L c _ _ _ _ _ _ _ _ _ _ _ _ _ _ _ _ _)
        unfold owns; iexists _; isplitr
        swap; · iexact HS2
        ipureintro; exact View.read_writes_of_cover _ _ _ _ _ (scover_A_A c _ _ _ _ _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨⟨HS0, HS1, HS2⟩, Ho, ⟨%d0, H0⟩, ⟨%d1, H1⟩, ⟨%d2, H2⟩⟩
      iapply ((kernelRun_A c (grid0.coords t) _ _ _ _ _ _ _ _ _ _ _ _ ((hcondFirst t).mpr h0) (fun h => h1 ((hcondLast t).mp h)) (iblk m c 0 t) (iblk m c 1 t)).2.2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (scover_A_M c _ _ _ _ _ _ _ _ _ _ _ _ _ _ _ _ _)
        isplitl [HS1]
        · unfold owns; iexists _; isplitr
          swap; · iexact HS1
          ipureintro; exact View.read_writes_of_cover _ _ _ _ _ (scover_A_L c _ _ _ _ _ _ _ _ _ _ _ _ _ _ _ _ _)
        unfold owns; iexists _; isplitr
        swap; · iexact HS2
        ipureintro; exact View.read_writes_of_cover _ _ _ _ _ (scover_A_A c _ _ _ _ _ _ _ _ _ _ _ _ _ _ _ _ _)
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dats m 0 c).leavesExact 0 t = owns (c : Thread nD τ) (ms0 t) fullShare ((dats m 0 c).after 0 t) from (by unfold Dat.leavesExact; rw [live0 t]), after0]
      rw [show (dats m 0 c).leavesExact 1 t = owns (c : Thread nD τ) (ms1 t) fullShare ((dats m 0 c).after 1 t) from (by unfold Dat.leavesExact; rw [live1 t]), after1]
      rw [show (dats m 0 c).leavesExact 2 t = owns (c : Thread nD τ) (ms2 t) fullShare ((dats m 0 c).after 2 t) from (by unfold Dat.leavesExact; rw [live2 t ((hcondLast t).mpr h1)]), after2]
      rw [outsAt_C m c t h0 h1]
      unfold caseC out_C_O sout_C_M sout_C_L sout_C_A; (try dsimp only)
      rw [PhiS_castSucc m c t, PhiS_pos m c _ _ hz]
      iintro ⟨⟨HS0, HS1, HS2⟩, Ho, ⟨%d0, H0⟩, ⟨%d1, H1⟩, ⟨%d2, H2⟩⟩
      iapply ((kernelRun_C c (grid0.coords t) _ _ _ _ _ _ _ _ _ _ _ _ (fun h => h0 ((hcondFirst t).mp h)) ((hcondLast t).mpr h1) (iblk m c 0 t) (iblk m c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e3, H2⟩, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (scover_C_M c _ _ _ _ _ _ _ _ _ _ _ _ _ _ _ _ _ _ _ _)
        isplitl [HS1]
        · unfold owns; iexists _; isplitr
          swap; · iexact HS1
          ipureintro; exact View.read_writes_of_cover _ _ _ _ _ (scover_C_L c _ _ _ _ _ _ _ _ _ _ _ _ _ _ _ _ _ _ _ _)
        unfold owns; iexists _; isplitr
        swap; · iexact HS2
        ipureintro; exact View.read_writes_of_cover _ _ _ _ _ (scover_C_A c _ _ _ _ _ _ _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover_C_O c _ _ _ _ _ _ _ _ _ _ _ _ _ _ _ _ _ _ _ _)
    · rw [show (dats m 0 c).leavesExact 0 t = owns (c : Thread nD τ) (ms0 t) fullShare ((dats m 0 c).after 0 t) from (by unfold Dat.leavesExact; rw [live0 t]), after0]
      rw [show (dats m 0 c).leavesExact 1 t = owns (c : Thread nD τ) (ms1 t) fullShare ((dats m 0 c).after 1 t) from (by unfold Dat.leavesExact; rw [live1 t]), after1]
      rw [Dat.leavesExact_idle (dats m 0 c) 2 t (idle2 t (fun h => h1 ((hcondLast t).mp h))) (noFlush2 t (fun h => h1 ((hcondLast t).mp h)))]
      rw [outsAt_B m c t h0 h1]
      unfold caseB sout_B_M sout_B_L sout_B_A; (try dsimp only)
      rw [PhiS_castSucc m c t, PhiS_pos m c _ _ hz]
      iintro ⟨⟨HS0, HS1, HS2⟩, Ho, ⟨%d0, H0⟩, ⟨%d1, H1⟩, ⟨%d2, H2⟩⟩
      iapply ((kernelRun_B c (grid0.coords t) _ _ _ _ _ _ _ _ _ _ _ _ (fun h => h0 ((hcondFirst t).mp h)) (fun h => h1 ((hcondLast t).mp h)) (iblk m c 0 t) (iblk m c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (scover_B_M c _ _ _ _ _ _ _ _ _ _ _ _ _ _ _ _ _ _ _ _)
        isplitl [HS1]
        · unfold owns; iexists _; isplitr
          swap; · iexact HS1
          ipureintro; exact View.read_writes_of_cover _ _ _ _ _ (scover_B_L c _ _ _ _ _ _ _ _ _ _ _ _ _ _ _ _ _ _ _ _)
        unfold owns; iexists _; isplitr
        swap; · iexact HS2
        ipureintro; exact View.read_writes_of_cover _ _ _ _ _ (scover_B_A c _ _ _ _ _ _ _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiLaunch.lean ====
/-
  @main of the kernel program as segments: five stretches of host operations, the kernel, one stretch of host operations.

  Two of the kernel's three windows read ONE array (the stacked normalized rows: the query block and the resident keys
  of a half are slices of the same rows). The pipeline holds each window's array at a share, so on entry the points-to
  of that array is halved between the two input windows, and on exit — an input array is never written, so both halves
  still hold the entry contents — the halves are put together again. The result's array is held whole and comes back
  at what the write-backs made of it.
-/
import proofs.«146094_j20349555048597_2_alg».proof.Proof.Gen.KernelIdeal.Launch
import proofs.«146094_j20349555048597_2_alg».proof.Proof.Gen.KernelIdeal.Skeleton
import proofs.«146094_j20349555048597_2_alg».proof.Proof.Gen.KernelIdeal.Points
import Idealize.ShloMosaic.Lib.Pipeline.FrameBody
import Idealize.ShloMosaic.Lib.Pipeline.Regions
import Idealize.ShloMosaic.Lib.Tactic
import Idealize.ShloMosaic.Lib.Ring
import proofs.«146094_j20349555048597_2_alg».proof.Proof.KiFrame
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two arrays behind the three windows. -/
theorem arr_image : (Finset.univ.image (Pipeline.arrRef spec0)) = ({main_v22, main_v23} : Finset (Ref sig .tc)) := by decide

/-- The windows' arrays at contents G, window by window at its share. -/
theorem arrays_form (c : Dev nD) (G : (w : Fin cfg0.W) → Buf (Elt F) ((cfg0.win w).arr.view.loc (c.tc : Thread nD τ))) :
    ((dats m 0 c).arrays G : sProp 𝕄)
      = iprop((((c.tc : Thread nD τ).loc main_v22) ↦{fullShare.left} G 0) ∗ (((c.tc : Thread nD τ).loc main_v22) ↦{fullShare.right} G 1)
          ∗ (((c.tc : Thread nD τ).loc main_v23) ↦{fullShare} G 2)) := by
  unfold Dat.arrays
  rw [bigSep_W0, (arr_whole0 0).set_eq_univ, (arr_whole0 2).set_eq_univ]
  rfl

/-- ENTRY: the unscoped buffers as the host operations left them are the windows' arrays at the entry contents — the
    stacked rows halved between the two windows that read them — and the rest. -/
theorem entry_split (c : Dev nD) :
    (unscopedBufs (Ix := Unit) (Name := ℕ) (U := UR sig nD τ) (Lvl := ℕ) c (V m c) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [Pipeline.unscopedBufs_split₀ cfgs 0 winFacts₀0.arr_unscoped c (V m c), arrays_form]
  refine sep_mono ?_ .rfl
  unfold Pipeline.arrBufs
  rw [arr_image, BI.bigSep_insert (by decide), BI.bigSep_singleton]
  refine (sep_mono (pointsTo_share (PosShare.mem_left_op_right fullShare)).1 .rfl).trans ?_
  exact sep_assoc.1

/-- The buffers after the kernel: as the host operations left them, the result's array at what the write-backs made
    of it. -/
abbrev W1 (c : Dev nD) : Valuation τ sig (Elt F) :=
  Function.update (V0 m c) (Proc.devRef .tc main_v23) ((dats m 0 c).arrAt 2 cfg0.N)

theorem W1_v22 (c : Dev nD) : W1 m c (Proc.devRef .tc main_v22) = V m c main_v22 :=
  Function.update_of_ne (by decide) _ _
theorem W1_v23 (c : Dev nD) : W1 m c (Proc.devRef .tc main_v23) = (dats m 0 c).arrAt 2 cfg0.N :=
  Function.update_self _ _ _
theorem W1_of_ne (c : Dev nD) (b : Ref sig .tc) (hb : b ≠ main_v23) : W1 m c (Proc.devRef .tc b) = V m c b :=
  Function.update_of_ne (StableHlo.devRef_ne_of_ne hb) _ _

/-- EXIT: the windows' arrays after every write-back — the two input windows' halves still at the entry contents — and
    the rest make the unscoped buffers at the valuation after the kernel. -/
theorem exit_join (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c.tc : Thread nD τ) (Pipeline.ucRefs τ sig) (W1 m c) : sProp 𝕄) := by
  rw [← Pipeline.unscopedBufs_held (Ix := Unit) (Name := ℕ) (U := UR sig nD τ) (Lvl := ℕ) c (W1 m c),
    Pipeline.unscopedBufs_split₀ cfgs 0 winFacts₀0.arr_unscoped c (fun b => W1 m c b), arrays_form]
  refine sep_mono ?_ (Entails.of_eq ?_)
  · unfold Pipeline.arrBufs
    rw [arr_image, BI.bigSep_insert (by decide), BI.bigSep_singleton]
    beta_reduce
    rw [W1_v22, W1_v23, (dats m 0 c).arrAt_in 0 rfl _, (dats m 0 c).arrAt_in 1 rfl _]
    refine sep_assoc.2.trans (sep_mono ?_ .rfl)
    exact (pointsTo_share (PosShare.mem_left_op_right fullShare)).2
  · unfold Pipeline.unscopedRest
    refine bigSep_congr fun b hb => ?_
    beta_reduce
    rw [W1_of_ne m c b (fun h => by subst h; exact (Finset.mem_sdiff.mp hb).2 (by rw [arr_image]; decide))]

/-- After any point but the first the invariant gives the running buffers back at some contents. -/
theorem Phi_out (c : Dev nD) (t : Fin (cfg0.N + 1)) (ht : t.val ≠ 0) :
    (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, scoped_eq]
  iintro ⟨HS0, HS1, HS2⟩
  isplitl [HS0]; · iexists _; iexact HS0
  isplitl [HS1]; · iexists _; iexact HS1
  iexists _; iexact HS2

/-! ## The segments -/

abbrev EP : Emb (UR sig nD τ) (MT nD τ sig Unit (Elt F) ℕ (UR sig nD τ) ℕ) := emb₁

/-- No core owes another anything: no level is assigned; no prefetched table. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through the host operations: the core owing nothing. -/
abbrev R (c : Dev nD) : sProp 𝕄 := iprop(∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations over the unscoped buffers held at a valuation. -/
def hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The valuations between the stretches before the kernel. -/
abbrev Wa1 (c : Dev nD) : Valuation τ sig (Elt F) := StableHlo.after hostOps0 (W0 m c)
abbrev Wa2 (c : Dev nD) : Valuation τ sig (Elt F) := StableHlo.after hostOps0_1 (Wa1 m c)
abbrev Wa3 (c : Dev nD) : Valuation τ sig (Elt F) := StableHlo.after hostOps0_2 (Wa2 m c)
abbrev Wa4 (c : Dev nD) : Valuation τ sig (Elt F) := StableHlo.after hostOps0_3 (Wa3 m c)
/-- The buffers at the end of @main. -/
abbrev Wfin (c : Dev nD) : Valuation τ sig (Elt F) := StableHlo.after hostOps1 (W1 m c)

set_option backward.isDefEq.respectTransparency.types false in
/-- THE KERNEL REGION: entered from the buffers as the host operations left them, left with the result's array at
    what the write-backs made of it; the running buffers are the invariant's; everything else bypasses. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X _ := iprop(emp)
  Y _ := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm]
    iintro ⟨⟨Hub, HO⟩, -, -⟩
    ihave H := (entry_split m c) $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (dats m 0 c).Φ 0 = Pipeline.scopedRest spec0 c from rfl]
    iintro ⟨-, -, Hr⟩; iexact Hr
  hout c := by
    rw [Pipeline.ownSems0_none]
    have hΦ := Phi_out m c (Fin.last cfg0.N) (by rw [Fin.val_last]; have : cfg0.N = 256 := N_0; omega)
    iintro H
    ihave Hr := hΦ $$ H
    isplitr; · iempintro
    isplitr; · iempintro
    iexact Hr
  hexit c := by
    have hjoin := exit_join m c
    iintro ⟨Ha, HO, -, HZ⟩
    imodintro
    isplitr [HO]
    · iapply hjoin
      isplitl [Ha]; · iexact Ha
      iexact HZ
    · unfold Pipeline.Dat.owesAt Pipeline.owesWithin
      icases HO with ⟨%W, -, HO⟩; iexists W; iexact HO

/-- @main as its seven segments. -/
abbrev segs : List (Pipeline.Seg (pcfgs (F := F)) adm (dats m) () defs₀ Variants.none L lv) :=
  [.host (hostSeg hostOps0 hostOps0_sub hostOps0_fresh (W0 m)),
   .host (hostSeg hostOps0_1 hostOps0_1_sub hostOps0_1_fresh (Wa1 m)),
   .host (hostSeg hostOps0_2 hostOps0_2_sub hostOps0_2_fresh (Wa2 m)),
   .host (hostSeg hostOps0_3 hostOps0_3_sub hostOps0_3_fresh (Wa3 m)),
   .host (hostSeg hostOps0_4 hostOps0_4_sub hostOps0_4_fresh (Wa4 m)),
   .region (reg0 m),
   .host (hostSeg hostOps1 hostOps1_sub hostOps1_fresh (W1 m))]

/-- The launch element: the pipeline library's at the staging cells. -/
def u₀ : UR sig nD τ := initOf (Pipeline.cells (Pipeline.pin (pcfgs (F := F)) adm) cellOf_inj) (Pipeline.launchToks (Pipeline.pin (pcfgs (F := F)) adm) cellOf_inj)

/-- The physical post: every unscoped buffer at the final valuation. -/
def QC : PUnit × MemSt nD τ sig (Elt F) → Prop := fun r =>
  ∀ c : Dev nD, ∀ b ∈ Pipeline.ucRefs τ sig, r.2.mem ((c.tc : Thread nD τ).1, b) = Wfin m c b

set_option backward.isDefEq.respectTransparency.types false in
/-- From any memory with zero counters every weakly fair execution of @main terminates, nothing faulting, and every
    final state has every unscoped buffer at the final valuation: the host operations applied in order, the kernel's
    result in between at what the pipeline's write-backs made of it. -/
theorem run_main : θ_run defs (onTc (τ := τ) (main (F := F))) ⟨m, fun _ => 0, ρ⟩ (QC m) :=
  Pipeline.θ_run_regions_kit (pcfgs (F := F)) adm (dats m) () cellOf_inj EP defs₀ Variants.none L lv m ρ main (segs m)
    (fun c Q => by rw [main_chain, Pipeline.Seg.run_eq_chain]; exact Entails.of_eq rfl)
    (by simp only [Pipeline.Seg.pipes_host, Pipeline.Seg.pipes_region, Pipeline.Seg.pipes_nil]; decide) (O₀ := 0) (hL := fun _ _ => rfl) (G := fun _ => iprop(emp)) (u₀ := u₀ (F := F))
    (hu₀ := by
      unfold u₀
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (Wfin m c))
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem ((c.tc : Thread nD τ).1, b) = Wfin m c b)
    (hfin := fun c s' => by
      beta_reduce
      unfold StableHlo.held
      iintro ⟨Hh, HSI⟩
      ihave Hr := (pointsTo_read_all (Pipeline.ucRefs τ sig) (fun b => ((c.tc : Thread nD τ).1, b)) (Wfin m c) s') $$ [Hh HSI]
      · isplitl [Hh] <;> iassumption
      icases Hr with ⟨%h, HSI⟩
      imodintro
      isplitr; · ipureintro; exact h
      iexact HSI)
    (hQ := fun _ h => h)

end Cert.KernelIdeal.Hand

end
-- ==== Proof.KiArgs.lean ====
/-
  The four argument arrays end as they were launched: none of @main's host operations writes an argument (each writes
  only its own result buffer), and the kernel's result is another buffer. With the run this is the frame claim.
-/
import proofs.«146094_j20349555048597_2_alg».proof.Proof.Gen.KernelIdeal.Launch
import proofs.«146094_j20349555048597_2_alg».proof.Proof.Gen.KernelIdeal.Skeleton
import proofs.«146094_j20349555048597_2_alg».proof.Proof.Gen.KernelIdeal.Points
import Idealize.ShloMosaic.Lib.Pipeline.FrameBody
import Idealize.ShloMosaic.Lib.Pipeline.Regions
import Idealize.ShloMosaic.Lib.Tactic
import proofs.«146094_j20349555048597_2_alg».proof.Proof.KiLaunch
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem nw_hostOps0_0 : ∀ op ∈ (hostOps0 : List (HloOp τ sig (Elt F))), Proc.devRef .tc main_arg0 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_1 : ∀ op ∈ (hostOps0 : List (HloOp τ sig (Elt F))), Proc.devRef .tc main_arg1 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_2 : ∀ op ∈ (hostOps0 : List (HloOp τ sig (Elt F))), Proc.devRef .tc main_arg2 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_3 : ∀ op ∈ (hostOps0 : List (HloOp τ sig (Elt F))), Proc.devRef .tc main_arg3 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_1_0 : ∀ op ∈ (hostOps0_1 : List (HloOp τ sig (Elt F))), Proc.devRef .tc main_arg0 ∉ op.writes := by
  intro op hop
  simp only [hostOps0_1, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_1_1 : ∀ op ∈ (hostOps0_1 : List (HloOp τ sig (Elt F))), Proc.devRef .tc main_arg1 ∉ op.writes := by
  intro op hop
  simp only [hostOps0_1, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_1_2 : ∀ op ∈ (hostOps0_1 : List (HloOp τ sig (Elt F))), Proc.devRef .tc main_arg2 ∉ op.writes := by
  intro op hop
  simp only [hostOps0_1, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_1_3 : ∀ op ∈ (hostOps0_1 : List (HloOp τ sig (Elt F))), Proc.devRef .tc main_arg3 ∉ op.writes := by
  intro op hop
  simp only [hostOps0_1, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_2_0 : ∀ op ∈ (hostOps0_2 : List (HloOp τ sig (Elt F))), Proc.devRef .tc main_arg0 ∉ op.writes := by
  intro op hop
  simp only [hostOps0_2, List.mem_cons, List.mem_nil_iff, or_false] at hop
  rcases hop with rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_2_1 : ∀ op ∈ (hostOps0_2 : List (HloOp τ sig (Elt F))), Proc.devRef .tc main_arg1 ∉ op.writes := by
  intro op hop
  simp only [hostOps0_2, List.mem_cons, List.mem_nil_iff, or_false] at hop
  rcases hop with rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_2_2 : ∀ op ∈ (hostOps0_2 : List (HloOp τ sig (Elt F))), Proc.devRef .tc main_arg2 ∉ op.writes := by
  intro op hop
  simp only [hostOps0_2, List.mem_cons, List.mem_nil_iff, or_false] at hop
  rcases hop with rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_2_3 : ∀ op ∈ (hostOps0_2 : List (HloOp τ sig (Elt F))), Proc.devRef .tc main_arg3 ∉ op.writes := by
  intro op hop
  simp only [hostOps0_2, List.mem_cons, List.mem_nil_iff, or_false] at hop
  rcases hop with rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_3_0 : ∀ op ∈ (hostOps0_3 : List (HloOp τ sig (Elt F))), Proc.devRef .tc main_arg0 ∉ op.writes := by
  intro op hop
  simp only [hostOps0_3, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_3_1 : ∀ op ∈ (hostOps0_3 : List (HloOp τ sig (Elt F))), Proc.devRef .tc main_arg1 ∉ op.writes := by
  intro op hop
  simp only [hostOps0_3, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_3_2 : ∀ op ∈ (hostOps0_3 : List (HloOp τ sig (Elt F))), Proc.devRef .tc main_arg2 ∉ op.writes := by
  intro op hop
  simp only [hostOps0_3, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_3_3 : ∀ op ∈ (hostOps0_3 : List (HloOp τ sig (Elt F))), Proc.devRef .tc main_arg3 ∉ op.writes := by
  intro op hop
  simp only [hostOps0_3, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_4_0 : ∀ op ∈ (hostOps0_4 : List (HloOp τ sig (Elt F))), Proc.devRef .tc main_arg0 ∉ op.writes := by
  intro op hop
  simp only [hostOps0_4, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_4_1 : ∀ op ∈ (hostOps0_4 : List (HloOp τ sig (Elt F))), Proc.devRef .tc main_arg1 ∉ op.writes := by
  intro op hop
  simp only [hostOps0_4, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_4_2 : ∀ op ∈ (hostOps0_4 : List (HloOp τ sig (Elt F))), Proc.devRef .tc main_arg2 ∉ op.writes := by
  intro op hop
  simp only [hostOps0_4, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_4_3 : ∀ op ∈ (hostOps0_4 : List (HloOp τ sig (Elt F))), Proc.devRef .tc main_arg3 ∉ op.writes := by
  intro op hop
  simp only [hostOps0_4, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps1_0 : ∀ op ∈ (hostOps1 : List (HloOp τ sig (Elt F))), Proc.devRef .tc main_arg0 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps1_1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps1_2 : ∀ op ∈ (hostOps1 : List (HloOp τ sig (Elt F))), Proc.devRef .tc main_arg2 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps1_3 : ∀ op ∈ (hostOps1 : List (HloOp τ sig (Elt F))), Proc.devRef .tc main_arg3 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)

/-- Argument 0 ends as launched: no host operation writes it, and it is not the kernel's result. -/
theorem Wfin_arg0 (c : Dev nD) : Wfin m c (Proc.devRef .tc main_arg0) = m ((c.tc : Thread nD τ).loc main_arg0) := by
  show StableHlo.after hostOps1 (W1 m c) (Proc.devRef .tc main_arg0) = _
  rw [StableHlo.after_of_forall_not_mem hostOps1 _ nw_hostOps1_0]
  show Function.update (V0 m c) (Proc.devRef .tc main_v23) _ (Proc.devRef .tc main_arg0) = _
  rw [Function.update_of_ne (by decide)]
  show StableHlo.after hostOps0_4 _ (Proc.devRef .tc main_arg0) = _
  rw [StableHlo.after_of_forall_not_mem hostOps0_4 _ nw_hostOps0_4_0, StableHlo.after_of_forall_not_mem hostOps0_3 _ nw_hostOps0_3_0,
    StableHlo.after_of_forall_not_mem hostOps0_2 _ nw_hostOps0_2_0, StableHlo.after_of_forall_not_mem hostOps0_1 _ nw_hostOps0_1_0,
    StableHlo.after_of_forall_not_mem hostOps0 _ nw_hostOps0_0]

/-- Argument 1 ends as launched: no host operation writes it, and it is not the kernel's result. -/
theorem Wfin_arg1 (c : Dev nD) : Wfin m c (Proc.devRef .tc main_arg1) = m ((c.tc : Thread nD τ).loc main_arg1) := by
  show StableHlo.after hostOps1 (W1 m c) (Proc.devRef .tc main_arg1) = _
  rw [StableHlo.after_of_forall_not_mem hostOps1 _ nw_hostOps1_1]
  show Function.update (V0 m c) (Proc.devRef .tc main_v23) _ (Proc.devRef .tc main_arg1) = _
  rw [Function.update_of_ne (by decide)]
  show StableHlo.after hostOps0_4 _ (Proc.devRef .tc main_arg1) = _
  rw [StableHlo.after_of_forall_not_mem hostOps0_4 _ nw_hostOps0_4_1, StableHlo.after_of_forall_not_mem hostOps0_3 _ nw_hostOps0_3_1,
    StableHlo.after_of_forall_not_mem hostOps0_2 _ nw_hostOps0_2_1, StableHlo.after_of_forall_not_mem hostOps0_1 _ nw_hostOps0_1_1,
    StableHlo.after_of_forall_not_mem hostOps0 _ nw_hostOps0_1]

/-- Argument 2 ends as launched: no host operation writes it, and it is not the kernel's result. -/
theorem Wfin_arg2 (c : Dev nD) : Wfin m c (Proc.devRef .tc main_arg2) = m ((c.tc : Thread nD τ).loc main_arg2) := by
  show StableHlo.after hostOps1 (W1 m c) (Proc.devRef .tc main_arg2) = _
  rw [StableHlo.after_of_forall_not_mem hostOps1 _ nw_hostOps1_2]
  show Function.update (V0 m c) (Proc.devRef .tc main_v23) _ (Proc.devRef .tc main_arg2) = _
  rw [Function.update_of_ne (by decide)]
  show StableHlo.after hostOps0_4 _ (Proc.devRef .tc main_arg2) = _
  rw [StableHlo.after_of_forall_not_mem hostOps0_4 _ nw_hostOps0_4_2, StableHlo.after_of_forall_not_mem hostOps0_3 _ nw_hostOps0_3_2,
    StableHlo.after_of_forall_not_mem hostOps0_2 _ nw_hostOps0_2_2, StableHlo.after_of_forall_not_mem hostOps0_1 _ nw_hostOps0_1_2,
    StableHlo.after_of_forall_not_mem hostOps0 _ nw_hostOps0_2]

/-- Argument 3 ends as launched: no host operation writes it, and it is not the kernel's result. -/
theorem Wfin_arg3 (c : Dev nD) : Wfin m c (Proc.devRef .tc main_arg3) = m ((c.tc : Thread nD τ).loc main_arg3) := by
  show StableHlo.after hostOps1 (W1 m c) (Proc.devRef .tc main_arg3) = _
  rw [StableHlo.after_of_forall_not_mem hostOps1 _ nw_hostOps1_3]
  show Function.update (V0 m c) (Proc.devRef .tc main_v23) _ (Proc.devRef .tc main_arg3) = _
  rw [Function.update_of_ne (by decide)]
  show StableHlo.after hostOps0_4 _ (Proc.devRef .tc main_arg3) = _
  rw [StableHlo.after_of_forall_not_mem hostOps0_4 _ nw_hostOps0_4_3, StableHlo.after_of_forall_not_mem hostOps0_3 _ nw_hostOps0_3_3,
    StableHlo.after_of_forall_not_mem hostOps0_2 _ nw_hostOps0_2_3, StableHlo.after_of_forall_not_mem hostOps0_1 _ nw_hostOps0_1_3,
    StableHlo.after_of_forall_not_mem hostOps0 _ nw_hostOps0_3]

/-- Every weakly fair execution of @main terminates, nothing faulting, the four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c (Proc.devRef .tc main_arg0) (by decide)).trans (Wfin_arg0 m c),
     (h c (Proc.devRef .tc main_arg1) (by decide)).trans (Wfin_arg1 m c),
     (h c (Proc.devRef .tc main_arg2) (by decide)).trans (Wfin_arg2 m c),
     (h c (Proc.devRef .tc main_arg3) (by decide)).trans (Wfin_arg3 m c)⟩) (run_main m ρ)

end Cert.KernelIdeal.Hand

end
-- ==== Proof.KbRuns.lean ====
/-
  What the three control cases of the kernel body share.

  The grid is (half b, query block qi, key block kv) = (2, 16, 8), kv fastest, so point t has kv = t mod 8. The body
  resets its three running buffers (value m, denominator l, numerator acc) when kv = 0 and writes the output block
  when kv = 7; both conditions are closed forms of t, decided once over the 256 points. The output window is idle and
  not written back at every other point.
-/
import proofs.«146094_j20349555048597_2_alg».proof.Proof.Gen.Kernel.Launch
import proofs.«146094_j20349555048597_2_alg».proof.Proof.Gen.Kernel.Skeleton
import proofs.«146094_j20349555048597_2_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: the first key block of a (half, query block) pair. -/
abbrev condFirst (i : grid0.Coords) : Prop :=
  (Scalar.cmpi .ne (Scalar.extui (Scalar.cmpi .eq (BitVec.ofNat 32 (i 2).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- The body's second branch is taken: the last key block. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- Off the last key block the output window is idle and its block is not written back. -/
theorem idle2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
/-- At the last key block it is live. -/
theorem live2 : ∀ t : Fin cfg0.N, condLast (grid0.coords t) → cfg0.idle 2 (grid0.coords t) = false := by decide +kernel

/-- Each window's current staging memref at point t, and that it is a whole buffer. -/
abbrev ms0 (t : Fin cfg0.N) : Memref sig .tc .vmem S1x512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8192x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x256 .f32 := win0_2.stage (cfg0.slots t 2)
abbrev hs2 (t : Fin cfg0.N) : (ms2 t).IsWhole := hstage0_2 ((cfg0.slots t 2).cast nbuf0_2)
/-- The three running buffers: m, l, acc. -/
abbrev scM : Memref sig .tc .vmem S512x1 .f32 := Memref.whole cc0_scratch0
abbrev scL : Memref sig .tc .vmem S512x1 .f32 := Memref.whole cc0_scratch1
abbrev scA : Memref sig .tc .vmem S512x256 .f32 := Memref.whole cc0_scratch2
/-- Views through which buffer contents are stated. -/
abbrev VO : View sig .tc .vmem S1x512x256 .f32 := (Memref.whole cc0_stg2_0 : Memref sig .tc .vmem S1x512x256 .f32).view
abbrev VM : View sig .tc .vmem S512x1 .f32 := scM.view
abbrev VL : View sig .tc .vmem S512x1 .f32 := scL.view
abbrev VA : View sig .tc .vmem S512x256 .f32 := scA.view

end Cert.Kernel.Hand

end
-- ==== Proof.KbRunB.lean ====
/-
  The kernel body at a middle key block (neither the first nor the last): it reads the query block, the key block at
  rows kv*1024 .. kv*1024+1023 of the resident half, and the three running buffers, and stores the three running
  buffers; the output block is not touched. What each running buffer ends with is recorded as the list of pieces stored
  into it (here one whole-buffer piece each), found when the run hands the buffers to the continuation.
-/
import proofs.«146094_j20349555048597_2_alg».proof.Proof.Gen.Kernel.Launch
import proofs.«146094_j20349555048597_2_alg».proof.Proof.Gen.Kernel.Skeleton
import proofs.«146094_j20349555048597_2_alg».proof.Proof.Gen.Kernel.Points
import Idealize.ShloMosaic.Lib.Pipeline.FrameBody
import Idealize.ShloMosaic.Lib.Pipeline.Regions
import Idealize.ShloMosaic.Lib.Tactic
import proofs.«146094_j20349555048597_2_alg».proof.Proof.KbRuns
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) :
    Σ' (L2 : List (View.Piece (Elt F) S1x512x256 .f32)) (LS0 : List (View.Piece (Elt F) S512x1 .f32)) (LS1 : List (View.Piece (Elt F) S512x1 .f32)), { LS2 : List (View.Piece (Elt F) S512x256 .f32) //
      ∀ (xi2 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1 ∗ owns (c : Thread nD τ) arg8 fullShare xs2
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__spec_smooth_kernel i arg3 harg3 arg4 harg4 arg5 harg5 arg6 harg6 arg7 harg7 arg8 harg8) K } := by
  refine ⟨[], ?_, ?_, ?_, fun xi2 E K => ?run⟩
  case run =>
    simp only [cc0__spec_smooth_kernel_eq_skeleton]; unfold cc0__spec_smooth_kernel_skel
    simp only [k0_part1_eq_skeleton]; unfold k0_part1_skel
    unfold owns
    iintro ⟨⟨%f0, %hf0, H0⟩, ⟨%f1, %hf1, H1⟩, ⟨%f2, %hf2, H2⟩, ⟨%g0, %hg0, HS0⟩, ⟨%g1, %hg1, HS1⟩, ⟨%g2, %hg2, HS2⟩, Hk⟩
    obtain rfl := harg3.eq_unread hf0; obtain rfl := harg4.eq_unread hf1; obtain rfl := harg5.eq_unread hf2
    obtain rfl := harg6.eq_unread hg0; obtain rfl := harg7.eq_unread hg1; obtain rfl := harg8.eq_unread hg2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.Kernel.Hand

end
-- ==== Proof.KbRunA.lean ====
/-
  The kernel body at the first key block of a (half, query block) pair: it overwrites the three running buffers with
  their starting values (-inf, 0, 0) before reading them, so what they held before does not matter; then it proceeds as
  at any block. The output block is not touched.
-/
import proofs.«146094_j20349555048597_2_alg».proof.Proof.Gen.Kernel.Launch
import proofs.«146094_j20349555048597_2_alg».proof.Proof.Gen.Kernel.Skeleton
import proofs.«146094_j20349555048597_2_alg».proof.Proof.Gen.Kernel.Points
import Idealize.ShloMosaic.Lib.Pipeline.FrameBody
import Idealize.ShloMosaic.Lib.Pipeline.Regions
import Idealize.ShloMosaic.Lib.Tactic
import proofs.«146094_j20349555048597_2_alg».proof.Proof.KbRunB
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) :
    Σ' (L2 : List (View.Piece (Elt F) S1x512x256 .f32)) (LS0 : List (View.Piece (Elt F) S512x1 .f32)) (LS1 : List (View.Piece (Elt F) S512x1 .f32)), { LS2 : List (View.Piece (Elt F) S512x256 .f32) //
      ∀ (xi2 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__spec_smooth_kernel i arg3 harg3 arg4 harg4 arg5 harg5 arg6 harg6 arg7 harg7 arg8 harg8) K } := by
  refine ⟨[], ?_, ?_, ?_, fun xi2 E K => ?run⟩
  case run =>
    simp only [cc0__spec_smooth_kernel_eq_skeleton]; unfold cc0__spec_smooth_kernel_skel
    simp only [k0_part1_eq_skeleton]; unfold k0_part1_skel
    unfold owns
    iintro ⟨⟨%f0, %hf0, H0⟩, ⟨%f1, %hf1, H1⟩, ⟨%f2, %hf2, H2⟩, ⟨%d0, %g0, -, HS0⟩, ⟨%d1, %g1, -, HS1⟩, ⟨%d2, %g2, -, HS2⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.Kernel.Hand

end
-- ==== Proof.KbRunC.lean ====
/-
  The kernel body at the last key block: after updating the three running buffers as at any block it divides the
  running numerator by the running denominator, forms y = x - 0.8 * (that quotient) and stores y * |y| as the output
  block; what the output's staging buffer held before does not matter.
-/
import proofs.«146094_j20349555048597_2_alg».proof.Proof.Gen.Kernel.Launch
import proofs.«146094_j20349555048597_2_alg».proof.Proof.Gen.Kernel.Skeleton
import proofs.«146094_j20349555048597_2_alg».proof.Proof.Gen.Kernel.Points
import Idealize.ShloMosaic.Lib.Pipeline.FrameBody
import Idealize.ShloMosaic.Lib.Pipeline.Regions
import Idealize.ShloMosaic.Lib.Tactic
import proofs.«146094_j20349555048597_2_alg».proof.Proof.KbRunA
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) :
    Σ' (L2 : List (View.Piece (Elt F) S1x512x256 .f32)) (LS0 : List (View.Piece (Elt F) S512x1 .f32)) (LS1 : List (View.Piece (Elt F) S512x1 .f32)), { LS2 : List (View.Piece (Elt F) S512x256 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__spec_smooth_kernel i arg3 harg3 arg4 harg4 arg5 harg5 arg6 harg6 arg7 harg7 arg8 harg8) K } := by
  refine ⟨?_, ?_, ?_, ?_, fun E K => ?run⟩
  case run =>
    simp only [cc0__spec_smooth_kernel_eq_skeleton]; unfold cc0__spec_smooth_kernel_skel
    simp only [k0_part1_eq_skeleton]; unfold k0_part1_skel
    unfold owns
    iintro ⟨⟨%f0, %hf0, H0⟩, ⟨%f1, %hf1, H1⟩, ⟨%d2, %f2, -, H2⟩, ⟨%g0, %hg0, HS0⟩, ⟨%g1, %hg1, HS1⟩, ⟨%g2, %hg2, HS2⟩, Hk⟩
    obtain rfl := harg3.eq_unread hf0; obtain rfl := harg4.eq_unread hf1
    obtain rfl := harg6.eq_unread hg0; obtain rfl := harg7.eq_unread hg1; obtain rfl := harg8.eq_unread hg2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    isplitl [HS1]; · iexists _; iexact HS1
    iexists _; iexact HS2

end Cert.Kernel.Hand

end
-- ==== Proof.KbOuts.lean ====
/-
  What the output's staging buffer and the three running buffers hold after the body at each grid point.

  Point t belongs to the (half, query block) pair t / 8 and processes key block t mod 8. At the first key block the body
  starts the running buffers afresh from the query block and that key block alone; at every later one it updates what
  the point before left; at the last it also stores the output block. So the four buffers after point t are given by
  recursion on t, the case selected by t mod 8 (first, last, or in between).
-/
import proofs.«146094_j20349555048597_2_alg».proof.Proof.Gen.Kernel.Launch
import proofs.«146094_j20349555048597_2_alg».proof.Proof.Gen.Kernel.Skeleton
import proofs.«146094_j20349555048597_2_alg».proof.Proof.Gen.Kernel.Points
import Idealize.ShloMosaic.Lib.Pipeline.FrameBody
import Idealize.ShloMosaic.Lib.Pipeline.Regions
import Idealize.ShloMosaic.Lib.Tactic
import Idealize.ShloMosaic.Lib.Ring
import proofs.«146094_j20349555048597_2_alg».proof.Proof.KbRunC
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as @main's host operations before the kernel leave them: the launch contents, then the five stretches
    of operations in order (index fix-up and row selection; the first norm; the first division; the second norm; the
    second division and the stacking of the two halves). -/
abbrev W0 (c : Dev nD) : Valuation τ sig (Elt F) := fun b => m (c, b)
abbrev V0 (c : Dev nD) : Valuation τ sig (Elt F) :=
  StableHlo.after hostOps0_4 (StableHlo.after hostOps0_3 (StableHlo.after hostOps0_2 (StableHlo.after hostOps0_1 (StableHlo.after hostOps0 (W0 m c)))))
/-- The same read at a TensorCore reference. -/
abbrev V (c : Dev nD) (b : Ref sig .tc) : Buf (Elt F) ((c : Thread nD τ).loc b) := V0 m c (Proc.devRef .tc b)

/-- Window w's block at point t, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Case A's pieces for the running buffer M cover it (one whole-buffer store). -/
theorem scover_A_M (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) (y : S512x1.Idx) :
    ∃ pc ∈ (kernelRun_A c i arg3 harg3 arg4 harg4 arg5 harg5 arg6 harg6 arg7 harg7 arg8 harg8 hc0 hc1 x0 x1).2.1, y ∈ pc.1.set :=
  View.cover_of_tiledL (kernelRun_A c i arg3 harg3 arg4 harg4 arg5 harg5 arg6 harg6 arg7 harg7 arg8 harg8 hc0 hc1 x0 x1).2.1 S512x1.size (by sl_kernel_rfl) y

/-- What case A leaves in the running buffer M: its pieces read back. -/
def sout_A_M (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) : Vec F S512x1 .f32 :=
  VM.read (Elt F) (VM.writes (Elt F) VM.junk (kernelRun_A c i arg3 harg3 arg4 harg4 arg5 harg5 arg6 harg6 arg7 harg7 arg8 harg8 hc0 hc1 x0 x1).2.1)

/-- Case A's pieces for the running buffer L cover it (one whole-buffer store). -/
theorem scover_A_L (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) (y : S512x1.Idx) :
    ∃ pc ∈ (kernelRun_A c i arg3 harg3 arg4 harg4 arg5 harg5 arg6 harg6 arg7 harg7 arg8 harg8 hc0 hc1 x0 x1).2.2.1, y ∈ pc.1.set :=
  View.cover_of_tiledL (kernelRun_A c i arg3 harg3 arg4 harg4 arg5 harg5 arg6 harg6 arg7 harg7 arg8 harg8 hc0 hc1 x0 x1).2.2.1 S512x1.size (by sl_kernel_rfl) y

/-- What case A leaves in the running buffer L: its pieces read back. -/
def sout_A_L (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) : Vec F S512x1 .f32 :=
  VL.read (Elt F) (VL.writes (Elt F) VL.junk (kernelRun_A c i arg3 harg3 arg4 harg4 arg5 harg5 arg6 harg6 arg7 harg7 arg8 harg8 hc0 hc1 x0 x1).2.2.1)

/-- Case A's pieces for the running buffer A cover it (one whole-buffer store). -/
theorem scover_A_A (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) (y : S512x256.Idx) :
    ∃ pc ∈ (kernelRun_A c i arg3 harg3 arg4 harg4 arg5 harg5 arg6 harg6 arg7 harg7 arg8 harg8 hc0 hc1 x0 x1).2.2.2.1, y ∈ pc.1.set :=
  View.cover_of_tiledL (kernelRun_A c i arg3 harg3 arg4 harg4 arg5 harg5 arg6 harg6 arg7 harg7 arg8 harg8 hc0 hc1 x0 x1).2.2.2.1 S512x256.size (by sl_kernel_rfl) y

/-- What case A leaves in the running buffer A: its pieces read back. -/
def sout_A_A (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) : Vec F S512x256 .f32 :=
  VA.read (Elt F) (VA.writes (Elt F) VA.junk (kernelRun_A c i arg3 harg3 arg4 harg4 arg5 harg5 arg6 harg6 arg7 harg7 arg8 harg8 hc0 hc1 x0 x1).2.2.2.1)

/-- What case A leaves in the output's staging buffer — nothing is stored there; a placeholder nothing consults, the window being idle and not written back at these points. -/
def out_A_O (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i)
    (x0 : Vec F S1x512x256 .f32) (x1 : Vec F S1x8192x256 .f32) : Vec F S1x512x256 .f32 :=
  VO.read (Elt F) (VO.writes (Elt F) VO.junk (kernelRun_A c i arg3 harg3 arg4 harg4 arg5 harg5 arg6 harg6 arg7 harg7 arg8 harg8 hc0 hc1 x0 x1).1)

/-- Case B's pieces for the running buffer M cover it (one whole-buffer store). -/
theorem scover_B_M (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) (y : S512x1.Idx) :
    ∃ pc ∈ (kernelRun_B c i arg3 harg3 arg4 harg4 arg5 harg5 arg6 harg6 arg7 harg7 arg8 harg8 hc0 hc1 x0 x1 xs0 xs1 xs2).2.1, y ∈ pc.1.set :=
  View.cover_of_tiledL (kernelRun_B c i arg3 harg3 arg4 harg4 arg5 harg5 arg6 harg6 arg7 harg7 arg8 harg8 hc0 hc1 x0 x1 xs0 xs1 xs2).2.1 S512x1.size (by sl_kernel_rfl) y

/-- What case B leaves in the running buffer M: its pieces read back. -/
def sout_B_M (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) : Vec F S512x1 .f32 :=
  VM.read (Elt F) (VM.writes (Elt F) VM.junk (kernelRun_B c i arg3 harg3 arg4 harg4 arg5 harg5 arg6 harg6 arg7 harg7 arg8 harg8 hc0 hc1 x0 x1 xs0 xs1 xs2).2.1)

/-- Case B's pieces for the running buffer L cover it (one whole-buffer store). -/
theorem scover_B_L (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) (y : S512x1.Idx) :
    ∃ pc ∈ (kernelRun_B c i arg3 harg3 arg4 harg4 arg5 harg5 arg6 harg6 arg7 harg7 arg8 harg8 hc0 hc1 x0 x1 xs0 xs1 xs2).2.2.1, y ∈ pc.1.set :=
  View.cover_of_tiledL (kernelRun_B c i arg3 harg3 arg4 harg4 arg5 harg5 arg6 harg6 arg7 harg7 arg8 harg8 hc0 hc1 x0 x1 xs0 xs1 xs2).2.2.1 S512x1.size (by sl_kernel_rfl) y

/-- What case B leaves in the running buffer L: its pieces read back. -/
def sout_B_L (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) : Vec F S512x1 .f32 :=
  VL.read (Elt F) (VL.writes (Elt F) VL.junk (kernelRun_B c i arg3 harg3 arg4 harg4 arg5 harg5 arg6 harg6 arg7 harg7 arg8 harg8 hc0 hc1 x0 x1 xs0 xs1 xs2).2.2.1)

/-- Case B's pieces for the running buffer A cover it (one whole-buffer store). -/
theorem scover_B_A (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) (y : S512x256.Idx) :
    ∃ pc ∈ (kernelRun_B c i arg3 harg3 arg4 harg4 arg5 harg5 arg6 harg6 arg7 harg7 arg8 harg8 hc0 hc1 x0 x1 xs0 xs1 xs2).2.2.2.1, y ∈ pc.1.set :=
  View.cover_of_tiledL (kernelRun_B c i arg3 harg3 arg4 harg4 arg5 harg5 arg6 harg6 arg7 harg7 arg8 harg8 hc0 hc1 x0 x1 xs0 xs1 xs2).2.2.2.1 S512x256.size (by sl_kernel_rfl) y

/-- What case B leaves in the running buffer A: its pieces read back. -/
def sout_B_A (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) : Vec F S512x256 .f32 :=
  VA.read (Elt F) (VA.writes (Elt F) VA.junk (kernelRun_B c i arg3 harg3 arg4 harg4 arg5 harg5 arg6 harg6 arg7 harg7 arg8 harg8 hc0 hc1 x0 x1 xs0 xs1 xs2).2.2.2.1)

/-- What case B leaves in the output's staging buffer — nothing is stored there; a placeholder nothing consults, the window being idle and not written back at these points. -/
def out_B_O (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i)
    (x0 : Vec F S1x512x256 .f32) (x1 : Vec F S1x8192x256 .f32) (xs0 : Vec F S512x1 .f32) (xs1 : Vec F S512x1 .f32) (xs2 : Vec F S512x256 .f32) : Vec F S1x512x256 .f32 :=
  VO.read (Elt F) (VO.writes (Elt F) VO.junk (kernelRun_B c i arg3 harg3 arg4 harg4 arg5 harg5 arg6 harg6 arg7 harg7 arg8 harg8 hc0 hc1 x0 x1 xs0 xs1 xs2).1)

/-- Case C's pieces for the running buffer M cover it (one whole-buffer store). -/
theorem scover_C_M (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) (y : S512x1.Idx) :
    ∃ pc ∈ (kernelRun_C c i arg3 harg3 arg4 harg4 arg5 harg5 arg6 harg6 arg7 harg7 arg8 harg8 hc0 hc1 x0 x1 xs0 xs1 xs2).2.1, y ∈ pc.1.set :=
  View.cover_of_tiledL (kernelRun_C c i arg3 harg3 arg4 harg4 arg5 harg5 arg6 harg6 arg7 harg7 arg8 harg8 hc0 hc1 x0 x1 xs0 xs1 xs2).2.1 S512x1.size (by sl_kernel_rfl) y

/-- What case C leaves in the running buffer M: its pieces read back. -/
def sout_C_M (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) : Vec F S512x1 .f32 :=
  VM.read (Elt F) (VM.writes (Elt F) VM.junk (kernelRun_C c i arg3 harg3 arg4 harg4 arg5 harg5 arg6 harg6 arg7 harg7 arg8 harg8 hc0 hc1 x0 x1 xs0 xs1 xs2).2.1)

/-- Case C's pieces for the running buffer L cover it (one whole-buffer store). -/
theorem scover_C_L (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) (y : S512x1.Idx) :
    ∃ pc ∈ (kernelRun_C c i arg3 harg3 arg4 harg4 arg5 harg5 arg6 harg6 arg7 harg7 arg8 harg8 hc0 hc1 x0 x1 xs0 xs1 xs2).2.2.1, y ∈ pc.1.set :=
  View.cover_of_tiledL (kernelRun_C c i arg3 harg3 arg4 harg4 arg5 harg5 arg6 harg6 arg7 harg7 arg8 harg8 hc0 hc1 x0 x1 xs0 xs1 xs2).2.2.1 S512x1.size (by sl_kernel_rfl) y

/-- What case C leaves in the running buffer L: its pieces read back. -/
def sout_C_L (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) : Vec F S512x1 .f32 :=
  VL.read (Elt F) (VL.writes (Elt F) VL.junk (kernelRun_C c i arg3 harg3 arg4 harg4 arg5 harg5 arg6 harg6 arg7 harg7 arg8 harg8 hc0 hc1 x0 x1 xs0 xs1 xs2).2.2.1)

/-- Case C's pieces for the running buffer A cover it (one whole-buffer store). -/
theorem scover_C_A (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) (y : S512x256.Idx) :
    ∃ pc ∈ (kernelRun_C c i arg3 harg3 arg4 harg4 arg5 harg5 arg6 harg6 arg7 harg7 arg8 harg8 hc0 hc1 x0 x1 xs0 xs1 xs2).2.2.2.1, y ∈ pc.1.set :=
  View.cover_of_tiledL (kernelRun_C c i arg3 harg3 arg4 harg4 arg5 harg5 arg6 harg6 arg7 harg7 arg8 harg8 hc0 hc1 x0 x1 xs0 xs1 xs2).2.2.2.1 S512x256.size (by sl_kernel_rfl) y

/-- What case C leaves in the running buffer A: its pieces read back. -/
def sout_C_A (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) : Vec F S512x256 .f32 :=
  VA.read (Elt F) (VA.writes (Elt F) VA.junk (kernelRun_C c i arg3 harg3 arg4 harg4 arg5 harg5 arg6 harg6 arg7 harg7 arg8 harg8 hc0 hc1 x0 x1 xs0 xs1 xs2).2.2.2.1)

/-- Case C's pieces for the output block cover it (one whole-buffer store). -/
theorem cover_C_O (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) (y : S1x512x256.Idx) :
    ∃ pc ∈ (kernelRun_C c i arg3 harg3 arg4 harg4 arg5 harg5 arg6 harg6 arg7 harg7 arg8 harg8 hc0 hc1 x0 x1 xs0 xs1 xs2).1, y ∈ pc.1.set :=
  View.cover_of_tiledL (kernelRun_C c i arg3 harg3 arg4 harg4 arg5 harg5 arg6 harg6 arg7 harg7 arg8 harg8 hc0 hc1 x0 x1 xs0 xs1 xs2).1 S1x512x256.size (by sl_kernel_rfl) y

/-- What case C leaves in the output's staging buffer: its pieces read back. -/
def out_C_O (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i)
    (x0 : Vec F S1x512x256 .f32) (x1 : Vec F S1x8192x256 .f32) (xs0 : Vec F S512x1 .f32) (xs1 : Vec F S512x1 .f32) (xs2 : Vec F S512x256 .f32) : Vec F S1x512x256 .f32 :=
  VO.read (Elt F) (VO.writes (Elt F) VO.junk (kernelRun_C c i arg3 harg3 arg4 harg4 arg5 harg5 arg6 harg6 arg7 harg7 arg8 harg8 hc0 hc1 x0 x1 xs0 xs1 xs2).1)

/-- The four buffers after a point of the first key block. -/
def caseA (c : Dev nD) (t : Fin cfg0.N) (h0 : t.val % 8 = 0) (h1 : ¬t.val % 8 = 7) : (Vec F S1x512x256 .f32 × Vec F S512x1 .f32 × Vec F S512x1 .f32 × Vec F S512x256 .f32) :=
  (out_A_O c (grid0.coords t) (ms0 t) (hs0 t) (ms1 t) (hs1 t) (ms2 t) (hs2 t) scM (Memref.isWhole_whole _) scL (Memref.isWhole_whole _) scA (Memref.isWhole_whole _) ((hcondFirst t).mpr h0) (fun h => h1 ((hcondLast t).mp h)) (iblk m c 0 t) (iblk m c 1 t),
   sout_A_M c (grid0.coords t) (ms0 t) (hs0 t) (ms1 t) (hs1 t) (ms2 t) (hs2 t) scM (Memref.isWhole_whole _) scL (Memref.isWhole_whole _) scA (Memref.isWhole_whole _) ((hcondFirst t).mpr h0) (fun h => h1 ((hcondLast t).mp h)) (iblk m c 0 t) (iblk m c 1 t),
   sout_A_L c (grid0.coords t) (ms0 t) (hs0 t) (ms1 t) (hs1 t) (ms2 t) (hs2 t) scM (Memref.isWhole_whole _) scL (Memref.isWhole_whole _) scA (Memref.isWhole_whole _) ((hcondFirst t).mpr h0) (fun h => h1 ((hcondLast t).mp h)) (iblk m c 0 t) (iblk m c 1 t),
   sout_A_A c (grid0.coords t) (ms0 t) (hs0 t) (ms1 t) (hs1 t) (ms2 t) (hs2 t) scM (Memref.isWhole_whole _) scL (Memref.isWhole_whole _) scA (Memref.isWhole_whole _) ((hcondFirst t).mpr h0) (fun h => h1 ((hcondLast t).mp h)) (iblk m c 0 t) (iblk m c 1 t))

/-- The four buffers after a point of a middle key block, over what the point before left in the running buffers. -/
def caseB (c : Dev nD) (t : Fin cfg0.N) (h0 : ¬t.val % 8 = 0) (h1 : ¬t.val % 8 = 7) (p : (Vec F S1x512x256 .f32 × Vec F S512x1 .f32 × Vec F S512x1 .f32 × Vec F S512x256 .f32)) : (Vec F S1x512x256 .f32 × Vec F S512x1 .f32 × Vec F S512x1 .f32 × Vec F S512x256 .f32) :=
  (out_B_O c (grid0.coords t) (ms0 t) (hs0 t) (ms1 t) (hs1 t) (ms2 t) (hs2 t) scM (Memref.isWhole_whole _) scL (Memref.isWhole_whole _) scA (Memref.isWhole_whole _) (fun h => h0 ((hcondFirst t).mp h)) (fun h => h1 ((hcondLast t).mp h)) (iblk m c 0 t) (iblk m c 1 t) p.2.1 p.2.2.1 p.2.2.2,
   sout_B_M c (grid0.coords t) (ms0 t) (hs0 t) (ms1 t) (hs1 t) (ms2 t) (hs2 t) scM (Memref.isWhole_whole _) scL (Memref.isWhole_whole _) scA (Memref.isWhole_whole _) (fun h => h0 ((hcondFirst t).mp h)) (fun h => h1 ((hcondLast t).mp h)) (iblk m c 0 t) (iblk m c 1 t) p.2.1 p.2.2.1 p.2.2.2,
   sout_B_L c (grid0.coords t) (ms0 t) (hs0 t) (ms1 t) (hs1 t) (ms2 t) (hs2 t) scM (Memref.isWhole_whole _) scL (Memref.isWhole_whole _) scA (Memref.isWhole_whole _) (fun h => h0 ((hcondFirst t).mp h)) (fun h => h1 ((hcondLast t).mp h)) (iblk m c 0 t) (iblk m c 1 t) p.2.1 p.2.2.1 p.2.2.2,
   sout_B_A c (grid0.coords t) (ms0 t) (hs0 t) (ms1 t) (hs1 t) (ms2 t) (hs2 t) scM (Memref.isWhole_whole _) scL (Memref.isWhole_whole _) scA (Memref.isWhole_whole _) (fun h => h0 ((hcondFirst t).mp h)) (fun h => h1 ((hcondLast t).mp h)) (iblk m c 0 t) (iblk m c 1 t) p.2.1 p.2.2.1 p.2.2.2)

/-- The four buffers after a point of the last key block, over what the point before left in the running buffers. -/
def caseC (c : Dev nD) (t : Fin cfg0.N) (h0 : ¬t.val % 8 = 0) (h1 : t.val % 8 = 7) (p : (Vec F S1x512x256 .f32 × Vec F S512x1 .f32 × Vec F S512x1 .f32 × Vec F S512x256 .f32)) : (Vec F S1x512x256 .f32 × Vec F S512x1 .f32 × Vec F S512x1 .f32 × Vec F S512x256 .f32) :=
  (out_C_O c (grid0.coords t) (ms0 t) (hs0 t) (ms1 t) (hs1 t) (ms2 t) (hs2 t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2,
   sout_C_M c (grid0.coords t) (ms0 t) (hs0 t) (ms1 t) (hs1 t) (ms2 t) (hs2 t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2,
   sout_C_L c (grid0.coords t) (ms0 t) (hs0 t) (ms1 t) (hs1 t) (ms2 t) (hs2 t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2,
   sout_C_A c (grid0.coords t) (ms0 t) (hs0 t) (ms1 t) (hs1 t) (ms2 t) (hs2 t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2)

/-- The four buffers after the body at position n, by recursion on n. -/
def outsAt (c : Dev nD) : (n : ℕ) → n < cfg0.N → (Vec F S1x512x256 .f32 × Vec F S512x1 .f32 × Vec F S512x1 .f32 × Vec F S512x256 .f32)
  | 0, hn => caseA m c ⟨0, hn⟩ (Nat.zero_mod _) (by dsimp only; omega)
  | n + 1, hn =>
    if h0 : (n + 1) % 8 = 0 then caseA m c ⟨n + 1, hn⟩ h0 (by dsimp only; omega)
    else if h1 : (n + 1) % 8 = 7 then caseC m c ⟨n + 1, hn⟩ h0 h1 (outsAt c n (Nat.lt_of_succ_lt hn))
    else caseB m c ⟨n + 1, hn⟩ h0 h1 (outsAt c n (Nat.lt_of_succ_lt hn))

theorem outsAt_A (c : Dev nD) (t : Fin cfg0.N) (h0 : t.val % 8 = 0) (h1 : ¬t.val % 8 = 7) :
    outsAt m c t.val t.isLt = caseA m c t h0 h1 := by
  obtain ⟨n, hn⟩ := t
  cases n with
  | zero => rfl
  | succ n => exact (dif_pos h0).trans rfl

theorem outsAt_B (c : Dev nD) (t : Fin cfg0.N) (h0 : ¬t.val % 8 = 0) (h1 : ¬t.val % 8 = 7) :
    outsAt m c t.val t.isLt = caseB m c t h0 h1 (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt_C (c : Dev nD) (t : Fin cfg0.N) (h0 : ¬t.val % 8 = 0) (h1 : t.val % 8 = 7) :
    outsAt m c t.val t.isLt = caseC m c t h0 h1 (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

end Cert.Kernel.Hand

end
-- ==== Proof.KbFrame.lean ====
/-
  The pipeline's proof data for the kernel, and the body at a generic grid point.

  Between points the three running buffers hold what the point before left (at the very first point: anything; the
  body of a first key block never uses what it finds there). The two input windows hold their blocks at every point,
  fetched there or not; the output window's staging buffer is stored only at a last key block and is handed back
  untouched elsewhere. At each point the case is selected by t mod 8 and that case's run applies.
-/
import proofs.«146094_j20349555048597_2_alg».proof.Proof.Gen.Kernel.Launch
import proofs.«146094_j20349555048597_2_alg».proof.Proof.Gen.Kernel.Skeleton
import proofs.«146094_j20349555048597_2_alg».proof.Proof.Gen.Kernel.Points
import Idealize.ShloMosaic.Lib.Pipeline.FrameBody
import Idealize.ShloMosaic.Lib.Pipeline.Regions
import Idealize.ShloMosaic.Lib.Tactic
import Idealize.ShloMosaic.Lib.Ring
import proofs.«146094_j20349555048597_2_alg».proof.Proof.KbOuts
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scoped buffers no window stages are the three running buffers, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ (∃ d, owns (c : Thread nD τ) scL fullShare d) ∗ (∃ d, owns (c : Thread nD τ) scA fullShare d)) := by
  rw [scopedRest0_eq]; simp only [scM, scL, scA, owns_whole]; try rfl

/-- The invariant before position n: before the first point the running buffers at anything; afterwards each at what
    the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM fullShare (outsAt m c n hn).2.1 ∗ owns (c : Thread nD τ) scL fullShare (outsAt m c n hn).2.2.1
      ∗ owns (c : Thread nD τ) scA fullShare (outsAt m c n hn).2.2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM fullShare (outsAt m c n hn).2.1 ∗ owns (c : Thread nD τ) scL fullShare (outsAt m c n hn).2.2.1
      ∗ owns (c : Thread nD τ) scA fullShare (outsAt m c n hn).2.2.2) := rfl

theorem PhiS_pos (c : Dev nD) (n : ℕ) (h : n ≤ cfg0.N) (hz : n ≠ 0) :
    PhiS m c n h = iprop(owns (c : Thread nD τ) scM fullShare (outsAt m c (n - 1) (by omega)).2.1 ∗ owns (c : Thread nD τ) scL fullShare (outsAt m c (n - 1) (by omega)).2.2.1
      ∗ owns (c : Thread nD τ) scA fullShare (outsAt m c (n - 1) (by omega)).2.2.2) := by
  cases n with
  | zero => exact absurd rfl hz
  | succ n => rfl

/-- The proof data on core c: the arrays as the kernel finds them; after the body each input's buffer at its block and
    the output's at the recursion's first component; the invariant above; the stacked rows' array lent in two halves
    to the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 8 = 0
  · have h1 : ¬t.val % 8 = 7 := by omega
    rw [show (dats m 0 c).leavesExact 0 t = owns (c : Thread nD τ) (ms0 t) fullShare ((dats m 0 c).after 0 t) from (by unfold Dat.leavesExact; rw [live0 t]), after0]
    rw [show (dats m 0 c).leavesExact 1 t = owns (c : Thread nD τ) (ms1 t) fullShare ((dats m 0 c).after 1 t) from (by unfold Dat.leavesExact; rw [live1 t]), after1]
    rw [Dat.leavesExact_idle (dats m 0 c) 2 t (idle2 t (fun h => h1 ((hcondLast t).mp h))) (noFlush2 t (fun h => h1 ((hcondLast t).mp h)))]
    rw [outsAt_A m c t h0 h1]
    unfold caseA sout_A_M sout_A_L sout_A_A; (try dsimp only)
    by_cases hz : t.val = 0
    · rw [PhiS_castSucc m c t, PhiS_zero m c _ _ hz, scoped_eq]
      iintro ⟨⟨HS0, HS1, HS2⟩, Ho, ⟨%d0, H0⟩, ⟨%d1, H1⟩, ⟨%d2, H2⟩⟩
      iapply ((kernelRun_A c (grid0.coords t) _ _ _ _ _ _ _ _ _ _ _ _ ((hcondFirst t).mpr h0) (fun h => h1 ((hcondLast t).mp h)) (iblk m c 0 t) (iblk m c 1 t)).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (scover_A_M c _ _ _ _ _ _ _ _ _ _ _ _ _ _ _ _ _)
        isplitl [HS1]
        · unfold owns; iexists _; isplitr
          swap; · iexact HS1
          ipureintro; exact View.read_writes_of_cover _ _ _ _ _ (scover_A_L c _ _ _ _ _ _ _ _ _ _ _ _ _ _ _ _ _)
        unfold owns; iexists _; isplitr
        swap; · iexact HS2
        ipureintro; exact View.read_writes_of_cover _ _ _ _ _ (scover_A_A c _ _ _ _ _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨⟨HS0, HS1, HS2⟩, Ho, ⟨%d0, H0⟩, ⟨%d1, H1⟩, ⟨%d2, H2⟩⟩
      iapply ((kernelRun_A c (grid0.coords t) _ _ _ _ _ _ _ _ _ _ _ _ ((hcondFirst t).mpr h0) (fun h => h1 ((hcondLast t).mp h)) (iblk m c 0 t) (iblk m c 1 t)).2.2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (scover_A_M c _ _ _ _ _ _ _ _ _ _ _ _ _ _ _ _ _)
        isplitl [HS1]
        · unfold owns; iexists _; isplitr
          swap; · iexact HS1
          ipureintro; exact View.read_writes_of_cover _ _ _ _ _ (scover_A_L c _ _ _ _ _ _ _ _ _ _ _ _ _ _ _ _ _)
        unfold owns; iexists _; isplitr
        swap; · iexact HS2
        ipureintro; exact View.read_writes_of_cover _ _ _ _ _ (scover_A_A c _ _ _ _ _ _ _ _ _ _ _ _ _ _ _ _ _)
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dats m 0 c).leavesExact 0 t = owns (c : Thread nD τ) (ms0 t) fullShare ((dats m 0 c).after 0 t) from (by unfold Dat.leavesExact; rw [live0 t]), after0]
      rw [show (dats m 0 c).leavesExact 1 t = owns (c : Thread nD τ) (ms1 t) fullShare ((dats m 0 c).after 1 t) from (by unfold Dat.leavesExact; rw [live1 t]), after1]
      rw [show (dats m 0 c).leavesExact 2 t = owns (c : Thread nD τ) (ms2 t) fullShare ((dats m 0 c).after 2 t) from (by unfold Dat.leavesExact; rw [live2 t ((hcondLast t).mpr h1)]), after2]
      rw [outsAt_C m c t h0 h1]
      unfold caseC out_C_O sout_C_M sout_C_L sout_C_A; (try dsimp only)
      rw [PhiS_castSucc m c t, PhiS_pos m c _ _ hz]
      iintro ⟨⟨HS0, HS1, HS2⟩, Ho, ⟨%d0, H0⟩, ⟨%d1, H1⟩, ⟨%d2, H2⟩⟩
      iapply ((kernelRun_C c (grid0.coords t) _ _ _ _ _ _ _ _ _ _ _ _ (fun h => h0 ((hcondFirst t).mp h)) ((hcondLast t).mpr h1) (iblk m c 0 t) (iblk m c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e3, H2⟩, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (scover_C_M c _ _ _ _ _ _ _ _ _ _ _ _ _ _ _ _ _ _ _ _)
        isplitl [HS1]
        · unfold owns; iexists _; isplitr
          swap; · iexact HS1
          ipureintro; exact View.read_writes_of_cover _ _ _ _ _ (scover_C_L c _ _ _ _ _ _ _ _ _ _ _ _ _ _ _ _ _ _ _ _)
        unfold owns; iexists _; isplitr
        swap; · iexact HS2
        ipureintro; exact View.read_writes_of_cover _ _ _ _ _ (scover_C_A c _ _ _ _ _ _ _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover_C_O c _ _ _ _ _ _ _ _ _ _ _ _ _ _ _ _ _ _ _ _)
    · rw [show (dats m 0 c).leavesExact 0 t = owns (c : Thread nD τ) (ms0 t) fullShare ((dats m 0 c).after 0 t) from (by unfold Dat.leavesExact; rw [live0 t]), after0]
      rw [show (dats m 0 c).leavesExact 1 t = owns (c : Thread nD τ) (ms1 t) fullShare ((dats m 0 c).after 1 t) from (by unfold Dat.leavesExact; rw [live1 t]), after1]
      rw [Dat.leavesExact_idle (dats m 0 c) 2 t (idle2 t (fun h => h1 ((hcondLast t).mp h))) (noFlush2 t (fun h => h1 ((hcondLast t).mp h)))]
      rw [outsAt_B m c t h0 h1]
      unfold caseB sout_B_M sout_B_L sout_B_A; (try dsimp only)
      rw [PhiS_castSucc m c t, PhiS_pos m c _ _ hz]
      iintro ⟨⟨HS0, HS1, HS2⟩, Ho, ⟨%d0, H0⟩, ⟨%d1, H1⟩, ⟨%d2, H2⟩⟩
      iapply ((kernelRun_B c (grid0.coords t) _ _ _ _ _ _ _ _ _ _ _ _ (fun h => h0 ((hcondFirst t).mp h)) (fun h => h1 ((hcondLast t).mp h)) (iblk m c 0 t) (iblk m c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (scover_B_M c _ _ _ _ _ _ _ _ _ _ _ _ _ _ _ _ _ _ _ _)
        isplitl [HS1]
        · unfold owns; iexists _; isplitr
          swap; · iexact HS1
          ipureintro; exact View.read_writes_of_cover _ _ _ _ _ (scover_B_L c _ _ _ _ _ _ _ _ _ _ _ _ _ _ _ _ _ _ _ _)
        unfold owns; iexists _; isplitr
        swap; · iexact HS2
        ipureintro; exact View.read_writes_of_cover _ _ _ _ _ (scover_B_A c _ _ _ _ _ _ _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KbLaunch.lean ====
/-
  @main of the kernel program as segments: five stretches of host operations, the kernel, one stretch of host operations.

  Two of the kernel's three windows read ONE array (the stacked normalized rows: the query block and the resident keys
  of a half are slices of the same rows). The pipeline holds each window's array at a share, so on entry the points-to
  of that array is halved between the two input windows, and on exit — an input array is never written, so both halves
  still hold the entry contents — the halves are put together again. The result's array is held whole and comes back
  at what the write-backs made of it.
-/
import proofs.«146094_j20349555048597_2_alg».proof.Proof.Gen.Kernel.Launch
import proofs.«146094_j20349555048597_2_alg».proof.Proof.Gen.Kernel.Skeleton
import proofs.«146094_j20349555048597_2_alg».proof.Proof.Gen.Kernel.Points
import Idealize.ShloMosaic.Lib.Pipeline.FrameBody
import Idealize.ShloMosaic.Lib.Pipeline.Regions
import Idealize.ShloMosaic.Lib.Tactic
import Idealize.ShloMosaic.Lib.Ring
import proofs.«146094_j20349555048597_2_alg».proof.Proof.KbFrame
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two arrays behind the three windows. -/
theorem arr_image : (Finset.univ.image (Pipeline.arrRef spec0)) = ({main_v22, main_v23} : Finset (Ref sig .tc)) := by decide

/-- The windows' arrays at contents G, window by window at its share. -/
theorem arrays_form (c : Dev nD) (G : (w : Fin cfg0.W) → Buf (Elt F) ((cfg0.win w).arr.view.loc (c.tc : Thread nD τ))) :
    ((dats m 0 c).arrays G : sProp 𝕄)
      = iprop((((c.tc : Thread nD τ).loc main_v22) ↦{fullShare.left} G 0) ∗ (((c.tc : Thread nD τ).loc main_v22) ↦{fullShare.right} G 1)
          ∗ (((c.tc : Thread nD τ).loc main_v23) ↦{fullShare} G 2)) := by
  unfold Dat.arrays
  rw [bigSep_W0, (arr_whole0 0).set_eq_univ, (arr_whole0 2).set_eq_univ]
  rfl

/-- ENTRY: the unscoped buffers as the host operations left them are the windows' arrays at the entry contents — the
    stacked rows halved between the two windows that read them — and the rest. -/
theorem entry_split (c : Dev nD) :
    (unscopedBufs (Ix := Unit) (Name := ℕ) (U := UR sig nD τ) (Lvl := ℕ) c (V m c) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [Pipeline.unscopedBufs_split₀ cfgs 0 winFacts₀0.arr_unscoped c (V m c), arrays_form]
  refine sep_mono ?_ .rfl
  unfold Pipeline.arrBufs
  rw [arr_image, BI.bigSep_insert (by decide), BI.bigSep_singleton]
  refine (sep_mono (pointsTo_share (PosShare.mem_left_op_right fullShare)).1 .rfl).trans ?_
  exact sep_assoc.1

/-- The buffers after the kernel: as the host operations left them, the result's array at what the write-backs made
    of it. -/
abbrev W1 (c : Dev nD) : Valuation τ sig (Elt F) :=
  Function.update (V0 m c) (Proc.devRef .tc main_v23) ((dats m 0 c).arrAt 2 cfg0.N)

theorem W1_v22 (c : Dev nD) : W1 m c (Proc.devRef .tc main_v22) = V m c main_v22 :=
  Function.update_of_ne (by decide) _ _
theorem W1_v23 (c : Dev nD) : W1 m c (Proc.devRef .tc main_v23) = (dats m 0 c).arrAt 2 cfg0.N :=
  Function.update_self _ _ _
theorem W1_of_ne (c : Dev nD) (b : Ref sig .tc) (hb : b ≠ main_v23) : W1 m c (Proc.devRef .tc b) = V m c b :=
  Function.update_of_ne (StableHlo.devRef_ne_of_ne hb) _ _

/-- EXIT: the windows' arrays after every write-back — the two input windows' halves still at the entry contents — and
    the rest make the unscoped buffers at the valuation after the kernel. -/
theorem exit_join (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c.tc : Thread nD τ) (Pipeline.ucRefs τ sig) (W1 m c) : sProp 𝕄) := by
  rw [← Pipeline.unscopedBufs_held (Ix := Unit) (Name := ℕ) (U := UR sig nD τ) (Lvl := ℕ) c (W1 m c),
    Pipeline.unscopedBufs_split₀ cfgs 0 winFacts₀0.arr_unscoped c (fun b => W1 m c b), arrays_form]
  refine sep_mono ?_ (Entails.of_eq ?_)
  · unfold Pipeline.arrBufs
    rw [arr_image, BI.bigSep_insert (by decide), BI.bigSep_singleton]
    beta_reduce
    rw [W1_v22, W1_v23, (dats m 0 c).arrAt_in 0 rfl _, (dats m 0 c).arrAt_in 1 rfl _]
    refine sep_assoc.2.trans (sep_mono ?_ .rfl)
    exact (pointsTo_share (PosShare.mem_left_op_right fullShare)).2
  · unfold Pipeline.unscopedRest
    refine bigSep_congr fun b hb => ?_
    beta_reduce
    rw [W1_of_ne m c b (fun h => by subst h; exact (Finset.mem_sdiff.mp hb).2 (by rw [arr_image]; decide))]

/-- After any point but the first the invariant gives the running buffers back at some contents. -/
theorem Phi_out (c : Dev nD) (t : Fin (cfg0.N + 1)) (ht : t.val ≠ 0) :
    (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, scoped_eq]
  iintro ⟨HS0, HS1, HS2⟩
  isplitl [HS0]; · iexists _; iexact HS0
  isplitl [HS1]; · iexists _; iexact HS1
  iexists _; iexact HS2

/-! ## The segments -/

abbrev EP : Emb (UR sig nD τ) (MT nD τ sig Unit (Elt F) ℕ (UR sig nD τ) ℕ) := emb₁

/-- No core owes another anything: no level is assigned; no prefetched table. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through the host operations: the core owing nothing. -/
abbrev R (c : Dev nD) : sProp 𝕄 := iprop(∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations over the unscoped buffers held at a valuation. -/
def hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The valuations between the stretches before the kernel. -/
abbrev Wa1 (c : Dev nD) : Valuation τ sig (Elt F) := StableHlo.after hostOps0 (W0 m c)
abbrev Wa2 (c : Dev nD) : Valuation τ sig (Elt F) := StableHlo.after hostOps0_1 (Wa1 m c)
abbrev Wa3 (c : Dev nD) : Valuation τ sig (Elt F) := StableHlo.after hostOps0_2 (Wa2 m c)
abbrev Wa4 (c : Dev nD) : Valuation τ sig (Elt F) := StableHlo.after hostOps0_3 (Wa3 m c)
/-- The buffers at the end of @main. -/
abbrev Wfin (c : Dev nD) : Valuation τ sig (Elt F) := StableHlo.after hostOps1 (W1 m c)

set_option backward.isDefEq.respectTransparency.types false in
/-- THE KERNEL REGION: entered from the buffers as the host operations left them, left with the result's array at
    what the write-backs made of it; the running buffers are the invariant's; everything else bypasses. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X _ := iprop(emp)
  Y _ := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm]
    iintro ⟨⟨Hub, HO⟩, -, -⟩
    ihave H := (entry_split m c) $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (dats m 0 c).Φ 0 = Pipeline.scopedRest spec0 c from rfl]
    iintro ⟨-, -, Hr⟩; iexact Hr
  hout c := by
    rw [Pipeline.ownSems0_none]
    have hΦ := Phi_out m c (Fin.last cfg0.N) (by rw [Fin.val_last]; have : cfg0.N = 256 := N_0; omega)
    iintro H
    ihave Hr := hΦ $$ H
    isplitr; · iempintro
    isplitr; · iempintro
    iexact Hr
  hexit c := by
    have hjoin := exit_join m c
    iintro ⟨Ha, HO, -, HZ⟩
    imodintro
    isplitr [HO]
    · iapply hjoin
      isplitl [Ha]; · iexact Ha
      iexact HZ
    · unfold Pipeline.Dat.owesAt Pipeline.owesWithin
      icases HO with ⟨%W, -, HO⟩; iexists W; iexact HO

/-- @main as its seven segments. -/
abbrev segs : List (Pipeline.Seg (pcfgs (F := F)) adm (dats m) () defs₀ Variants.none L lv) :=
  [.host (hostSeg hostOps0 hostOps0_sub hostOps0_fresh (W0 m)),
   .host (hostSeg hostOps0_1 hostOps0_1_sub hostOps0_1_fresh (Wa1 m)),
   .host (hostSeg hostOps0_2 hostOps0_2_sub hostOps0_2_fresh (Wa2 m)),
   .host (hostSeg hostOps0_3 hostOps0_3_sub hostOps0_3_fresh (Wa3 m)),
   .host (hostSeg hostOps0_4 hostOps0_4_sub hostOps0_4_fresh (Wa4 m)),
   .region (reg0 m),
   .host (hostSeg hostOps1 hostOps1_sub hostOps1_fresh (W1 m))]

/-- The launch element: the pipeline library's at the staging cells. -/
def u₀ : UR sig nD τ := initOf (Pipeline.cells (Pipeline.pin (pcfgs (F := F)) adm) cellOf_inj) (Pipeline.launchToks (Pipeline.pin (pcfgs (F := F)) adm) cellOf_inj)

/-- The physical post: every unscoped buffer at the final valuation. -/
def QC : PUnit × MemSt nD τ sig (Elt F) → Prop := fun r =>
  ∀ c : Dev nD, ∀ b ∈ Pipeline.ucRefs τ sig, r.2.mem ((c.tc : Thread nD τ).1, b) = Wfin m c b

set_option backward.isDefEq.respectTransparency.types false in
/-- From any memory with zero counters every weakly fair execution of @main terminates, nothing faulting, and every
    final state has every unscoped buffer at the final valuation: the host operations applied in order, the kernel's
    result in between at what the pipeline's write-backs made of it. -/
theorem run_main : θ_run defs (onTc (τ := τ) (main (F := F))) ⟨m, fun _ => 0, ρ⟩ (QC m) :=
  Pipeline.θ_run_regions_kit (pcfgs (F := F)) adm (dats m) () cellOf_inj EP defs₀ Variants.none L lv m ρ main (segs m)
    (fun c Q => by rw [main_chain, Pipeline.Seg.run_eq_chain]; exact Entails.of_eq rfl)
    (by simp only [Pipeline.Seg.pipes_host, Pipeline.Seg.pipes_region, Pipeline.Seg.pipes_nil]; decide) (O₀ := 0) (hL := fun _ _ => rfl) (G := fun _ => iprop(emp)) (u₀ := u₀ (F := F))
    (hu₀ := by
      unfold u₀
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (Wfin m c))
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem ((c.tc : Thread nD τ).1, b) = Wfin m c b)
    (hfin := fun c s' => by
      beta_reduce
      unfold StableHlo.held
      iintro ⟨Hh, HSI⟩
      ihave Hr := (pointsTo_read_all (Pipeline.ucRefs τ sig) (fun b => ((c.tc : Thread nD τ).1, b)) (Wfin m c) s') $$ [Hh HSI]
      · isplitl [Hh] <;> iassumption
      icases Hr with ⟨%h, HSI⟩
      imodintro
      isplitr; · ipureintro; exact h
      iexact HSI)
    (hQ := fun _ h => h)

end Cert.Kernel.Hand

end
-- ==== Proof.KbArgs.lean ====
/-
  The four argument arrays end as they were launched: none of @main's host operations writes an argument (each writes
  only its own result buffer), and the kernel's result is another buffer. With the run this is the frame claim.
-/
import proofs.«146094_j20349555048597_2_alg».proof.Proof.Gen.Kernel.Launch
import proofs.«146094_j20349555048597_2_alg».proof.Proof.Gen.Kernel.Skeleton
import proofs.«146094_j20349555048597_2_alg».proof.Proof.Gen.Kernel.Points
import Idealize.ShloMosaic.Lib.Pipeline.FrameBody
import Idealize.ShloMosaic.Lib.Pipeline.Regions
import Idealize.ShloMosaic.Lib.Tactic
import proofs.«146094_j20349555048597_2_alg».proof.Proof.KbLaunch
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem nw_hostOps0_0 : ∀ op ∈ (hostOps0 : List (HloOp τ sig (Elt F))), Proc.devRef .tc main_arg0 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_1 : ∀ op ∈ (hostOps0 : List (HloOp τ sig (Elt F))), Proc.devRef .tc main_arg1 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_2 : ∀ op ∈ (hostOps0 : List (HloOp τ sig (Elt F))), Proc.devRef .tc main_arg2 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_3 : ∀ op ∈ (hostOps0 : List (HloOp τ sig (Elt F))), Proc.devRef .tc main_arg3 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_1_0 : ∀ op ∈ (hostOps0_1 : List (HloOp τ sig (Elt F))), Proc.devRef .tc main_arg0 ∉ op.writes := by
  intro op hop
  simp only [hostOps0_1, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_1_1 : ∀ op ∈ (hostOps0_1 : List (HloOp τ sig (Elt F))), Proc.devRef .tc main_arg1 ∉ op.writes := by
  intro op hop
  simp only [hostOps0_1, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_1_2 : ∀ op ∈ (hostOps0_1 : List (HloOp τ sig (Elt F))), Proc.devRef .tc main_arg2 ∉ op.writes := by
  intro op hop
  simp only [hostOps0_1, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_1_3 : ∀ op ∈ (hostOps0_1 : List (HloOp τ sig (Elt F))), Proc.devRef .tc main_arg3 ∉ op.writes := by
  intro op hop
  simp only [hostOps0_1, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_2_0 : ∀ op ∈ (hostOps0_2 : List (HloOp τ sig (Elt F))), Proc.devRef .tc main_arg0 ∉ op.writes := by
  intro op hop
  simp only [hostOps0_2, List.mem_cons, List.mem_nil_iff, or_false] at hop
  rcases hop with rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_2_1 : ∀ op ∈ (hostOps0_2 : List (HloOp τ sig (Elt F))), Proc.devRef .tc main_arg1 ∉ op.writes := by
  intro op hop
  simp only [hostOps0_2, List.mem_cons, List.mem_nil_iff, or_false] at hop
  rcases hop with rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_2_2 : ∀ op ∈ (hostOps0_2 : List (HloOp τ sig (Elt F))), Proc.devRef .tc main_arg2 ∉ op.writes := by
  intro op hop
  simp only [hostOps0_2, List.mem_cons, List.mem_nil_iff, or_false] at hop
  rcases hop with rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_2_3 : ∀ op ∈ (hostOps0_2 : List (HloOp τ sig (Elt F))), Proc.devRef .tc main_arg3 ∉ op.writes := by
  intro op hop
  simp only [hostOps0_2, List.mem_cons, List.mem_nil_iff, or_false] at hop
  rcases hop with rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_3_0 : ∀ op ∈ (hostOps0_3 : List (HloOp τ sig (Elt F))), Proc.devRef .tc main_arg0 ∉ op.writes := by
  intro op hop
  simp only [hostOps0_3, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_3_1 : ∀ op ∈ (hostOps0_3 : List (HloOp τ sig (Elt F))), Proc.devRef .tc main_arg1 ∉ op.writes := by
  intro op hop
  simp only [hostOps0_3, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_3_2 : ∀ op ∈ (hostOps0_3 : List (HloOp τ sig (Elt F))), Proc.devRef .tc main_arg2 ∉ op.writes := by
  intro op hop
  simp only [hostOps0_3, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_3_3 : ∀ op ∈ (hostOps0_3 : List (HloOp τ sig (Elt F))), Proc.devRef .tc main_arg3 ∉ op.writes := by
  intro op hop
  simp only [hostOps0_3, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_4_0 : ∀ op ∈ (hostOps0_4 : List (HloOp τ sig (Elt F))), Proc.devRef .tc main_arg0 ∉ op.writes := by
  intro op hop
  simp only [hostOps0_4, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_4_1 : ∀ op ∈ (hostOps0_4 : List (HloOp τ sig (Elt F))), Proc.devRef .tc main_arg1 ∉ op.writes := by
  intro op hop
  simp only [hostOps0_4, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_4_2 : ∀ op ∈ (hostOps0_4 : List (HloOp τ sig (Elt F))), Proc.devRef .tc main_arg2 ∉ op.writes := by
  intro op hop
  simp only [hostOps0_4, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps0_4_3 : ∀ op ∈ (hostOps0_4 : List (HloOp τ sig (Elt F))), Proc.devRef .tc main_arg3 ∉ op.writes := by
  intro op hop
  simp only [hostOps0_4, List.mem_cons, List.mem_nil_iff, or_false] at hop
  rcases hop with rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps1_0 : ∀ op ∈ (hostOps1 : List (HloOp τ sig (Elt F))), Proc.devRef .tc main_arg0 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps1_1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps1_2 : ∀ op ∈ (hostOps1 : List (HloOp τ sig (Elt F))), Proc.devRef .tc main_arg2 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)
theorem nw_hostOps1_3 : ∀ op ∈ (hostOps1 : List (HloOp τ sig (Elt F))), Proc.devRef .tc main_arg3 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.TRef.binary, StableHlo.TRef.unary, StableHlo.TRef.nullary, StableHlo.TRef.of, StableHlo.nullary_writes, StableHlo.unary_writes, StableHlo.binary_writes, StableHlo.ternary_writes, StableHlo.reshape_writes, Finset.mem_singleton] <;>
    exact StableHlo.devRef_ne_of_ne (by decide)

/-- Argument 0 ends as launched: no host operation writes it, and it is not the kernel's result. -/
theorem Wfin_arg0 (c : Dev nD) : Wfin m c (Proc.devRef .tc main_arg0) = m ((c.tc : Thread nD τ).loc main_arg0) := by
  show StableHlo.after hostOps1 (W1 m c) (Proc.devRef .tc main_arg0) = _
  rw [StableHlo.after_of_forall_not_mem hostOps1 _ nw_hostOps1_0]
  show Function.update (V0 m c) (Proc.devRef .tc main_v23) _ (Proc.devRef .tc main_arg0) = _
  rw [Function.update_of_ne (by decide)]
  show StableHlo.after hostOps0_4 _ (Proc.devRef .tc main_arg0) = _
  rw [StableHlo.after_of_forall_not_mem hostOps0_4 _ nw_hostOps0_4_0, StableHlo.after_of_forall_not_mem hostOps0_3 _ nw_hostOps0_3_0,
    StableHlo.after_of_forall_not_mem hostOps0_2 _ nw_hostOps0_2_0, StableHlo.after_of_forall_not_mem hostOps0_1 _ nw_hostOps0_1_0,
    StableHlo.after_of_forall_not_mem hostOps0 _ nw_hostOps0_0]

/-- Argument 1 ends as launched: no host operation writes it, and it is not the kernel's result. -/
theorem Wfin_arg1 (c : Dev nD) : Wfin m c (Proc.devRef .tc main_arg1) = m ((c.tc : Thread nD τ).loc main_arg1) := by
  show StableHlo.after hostOps1 (W1 m c) (Proc.devRef .tc main_arg1) = _
  rw [StableHlo.after_of_forall_not_mem hostOps1 _ nw_hostOps1_1]
  show Function.update (V0 m c) (Proc.devRef .tc main_v23) _ (Proc.devRef .tc main_arg1) = _
  rw [Function.update_of_ne (by decide)]
  show StableHlo.after hostOps0_4 _ (Proc.devRef .tc main_arg1) = _
  rw [StableHlo.after_of_forall_not_mem hostOps0_4 _ nw_hostOps0_4_1, StableHlo.after_of_forall_not_mem hostOps0_3 _ nw_hostOps0_3_1,
    StableHlo.after_of_forall_not_mem hostOps0_2 _ nw_hostOps0_2_1, StableHlo.after_of_forall_not_mem hostOps0_1 _ nw_hostOps0_1_1,
    StableHlo.after_of_forall_not_mem hostOps0 _ nw_hostOps0_1]

/-- Argument 2 ends as launched: no host operation writes it, and it is not the kernel's result. -/
theorem Wfin_arg2 (c : Dev nD) : Wfin m c (Proc.devRef .tc main_arg2) = m ((c.tc : Thread nD τ).loc main_arg2) := by
  show StableHlo.after hostOps1 (W1 m c) (Proc.devRef .tc main_arg2) = _
  rw [StableHlo.after_of_forall_not_mem hostOps1 _ nw_hostOps1_2]
  show Function.update (V0 m c) (Proc.devRef .tc main_v23) _ (Proc.devRef .tc main_arg2) = _
  rw [Function.update_of_ne (by decide)]
  show StableHlo.after hostOps0_4 _ (Proc.devRef .tc main_arg2) = _
  rw [StableHlo.after_of_forall_not_mem hostOps0_4 _ nw_hostOps0_4_2, StableHlo.after_of_forall_not_mem hostOps0_3 _ nw_hostOps0_3_2,
    StableHlo.after_of_forall_not_mem hostOps0_2 _ nw_hostOps0_2_2, StableHlo.after_of_forall_not_mem hostOps0_1 _ nw_hostOps0_1_2,
    StableHlo.after_of_forall_not_mem hostOps0 _ nw_hostOps0_2]

/-- Argument 3 ends as launched: no host operation writes it, and it is not the kernel's result. -/
theorem Wfin_arg3 (c : Dev nD) : Wfin m c (Proc.devRef .tc main_arg3) = m ((c.tc : Thread nD τ).loc main_arg3) := by
  show StableHlo.after hostOps1 (W1 m c) (Proc.devRef .tc main_arg3) = _
  rw [StableHlo.after_of_forall_not_mem hostOps1 _ nw_hostOps1_3]
  show Function.update (V0 m c) (Proc.devRef .tc main_v23) _ (Proc.devRef .tc main_arg3) = _
  rw [Function.update_of_ne (by decide)]
  show StableHlo.after hostOps0_4 _ (Proc.devRef .tc main_arg3) = _
  rw [StableHlo.after_of_forall_not_mem hostOps0_4 _ nw_hostOps0_4_3, StableHlo.after_of_forall_not_mem hostOps0_3 _ nw_hostOps0_3_3,
    StableHlo.after_of_forall_not_mem hostOps0_2 _ nw_hostOps0_2_3, StableHlo.after_of_forall_not_mem hostOps0_1 _ nw_hostOps0_1_3,
    StableHlo.after_of_forall_not_mem hostOps0 _ nw_hostOps0_3]

/-- Every weakly fair execution of @main terminates, nothing faulting, the four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c (Proc.devRef .tc main_arg0) (by decide)).trans (Wfin_arg0 m c),
     (h c (Proc.devRef .tc main_arg1) (by decide)).trans (Wfin_arg1 m c),
     (h c (Proc.devRef .tc main_arg2) (by decide)).trans (Wfin_arg2 m c),
     (h c (Proc.devRef .tc main_arg3) (by decide)).trans (Wfin_arg3 m c)⟩) (run_main m ρ)

end Cert.Kernel.Hand

end
-- ==== Proof.KiIdx.lean ====
/-
  Where each block sits in its array.

  Point t is (half, query block, key block) = (t / 128, (t / 8) mod 16, t mod 8). The query block and the output block
  of point t are rows 512*((t/8) mod 16) .. +511 of half t/128; the resident keys are the whole half t/128; the key
  block the body loads starts at row 1024*(t mod 8) of it. These are closed forms of the printed index maps, decided
  once over the 256 points; a block's coordinate is its index times the block's extent plus the coordinate inside.
-/
import proofs.«146094_j20349555048597_2_alg».proof.Proof.Gen.KernelIdeal.Launch
import proofs.«146094_j20349555048597_2_alg».proof.Proof.Gen.KernelIdeal.Skeleton
import proofs.«146094_j20349555048597_2_alg».proof.Proof.Gen.KernelIdeal.Points
import Idealize.ShloMosaic.Lib.Pipeline.FrameBody
import Idealize.ShloMosaic.Lib.Pipeline.Regions
import Idealize.ShloMosaic.Lib.Tactic
import Idealize.ShloMosaic.Lib.Ring
import Idealize.ShloMosaic.Lib.ValueIdx
import proofs.«146094_j20349555048597_2_alg».proof.Proof.KiOuts
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem idx_facts : ∀ t : Fin cfg0.N,
    win0_0.index t (0 : Fin 3) = t.val / 128 ∧ win0_0.index t (1 : Fin 3) = t.val / 8 % 16 ∧ win0_0.index t (2 : Fin 3) = 0
    ∧ win0_1.index t (0 : Fin 3) = t.val / 128 ∧ win0_1.index t (1 : Fin 3) = 0 ∧ win0_1.index t (2 : Fin 3) = 0
    ∧ win0_2.index t (0 : Fin 3) = t.val / 128 ∧ win0_2.index t (1 : Fin 3) = t.val / 8 % 16 ∧ win0_2.index t (2 : Fin 3) = 0
    ∧ k0_off1 (grid0.coords t) (0 : Fin 3) = 0 ∧ k0_off1 (grid0.coords t) (1 : Fin 3) = 1024 * (t.val % 8) ∧ k0_off1 (grid0.coords t) (2 : Fin 3) = 0 :=
  (by decide +kernel : ∀ t : Fin grid0.N, _)

theorem t_lt (t : Fin cfg0.N) : t.val < 256 := lt_of_lt_of_eq t.isLt (show cfg0.N = 256 from N_0)

/-- The half and the first row of point t's query block. -/
def halfOf (t : Fin cfg0.N) : Fin 2 := ⟨t.val / 128, by have := t_lt t; omega⟩
def qrow (t : Fin cfg0.N) (p : Fin 512) : Fin 8192 := ⟨512 * (t.val / 8 % 16) + p.val, by have := p.isLt; omega⟩
def krow (t : Fin cfg0.N) (j : Fin 1024) : Fin 8192 := ⟨1024 * (t.val % 8) + j.val, by have := j.isLt; omega⟩

/-- The query block of point t, entry (p, d): row qrow t p of half halfOf t of the stacked rows. -/
theorem iblk0_apply (c : Dev nD) (t : Fin cfg0.N) (p : Fin 512) (d : Fin 256) :
    iblk m c 0 t (ix3 (0 : Fin 1) p d) = V m c main_v22 (ix3 (halfOf t) (qrow t p) d) := by
  obtain ⟨e0, e1, e2, -⟩ := idx_facts t
  show V m c main_v22 (((cfg0.win 0).blk t).view.emb (ix3 (0 : Fin 1) p d)) = V m c main_v22 (ix3 (halfOf t) (qrow t p) d)
  refine congrArg _ ?_
  funext a; apply Fin.ext
  match a with
  | ⟨0, _⟩ => show win0_0.index t (0 : Fin 3) * 1 + 1 * 0 = t.val / 128; omega
  | ⟨1, _⟩ => show win0_0.index t (1 : Fin 3) * 512 + 1 * p.val = 512 * (t.val / 8 % 16) + p.val; omega
  | ⟨2, _⟩ => show win0_0.index t (2 : Fin 3) * 256 + 1 * d.val = d.val; omega

/-- The resident keys at point t, entry (j, d): row j of half halfOf t. -/
theorem iblk1_apply (c : Dev nD) (t : Fin cfg0.N) (j : Fin 8192) (d : Fin 256) :
    iblk m c 1 t (ix3 (0 : Fin 1) j d) = V m c main_v22 (ix3 (halfOf t) j d) := by
  obtain ⟨-, -, -, e0, e1, e2, -⟩ := idx_facts t
  show V m c main_v22 (((cfg0.win 1).blk t).view.emb (ix3 (0 : Fin 1) j d)) = V m c main_v22 (ix3 (halfOf t) j d)
  refine congrArg _ ?_
  funext a; apply Fin.ext
  match a with
  | ⟨0, _⟩ => show win0_1.index t (0 : Fin 3) * 1 + 1 * 0 = t.val / 128; omega
  | ⟨1, _⟩ => show win0_1.index t (1 : Fin 3) * 8192 + 1 * j.val = j.val; omega
  | ⟨2, _⟩ => show win0_1.index t (2 : Fin 3) * 256 + 1 * d.val = d.val; omega

end Cert.KernelIdeal.Hand

end
-- ==== Proof.KiPay.lean ====
/-
  What each case of the kernel body leaves in each buffer, as the body's arithmetic: the stored payloads over the query
  block, the key block (rows kv*1024 .. kv*1024+1023 of the resident half) and the running buffers as the case found
  them — at a first key block their starting values.
-/
import proofs.«146094_j20349555048597_2_alg».proof.Proof.Gen.KernelIdeal.Launch
import proofs.«146094_j20349555048597_2_alg».proof.Proof.Gen.KernelIdeal.Skeleton
import proofs.«146094_j20349555048597_2_alg».proof.Proof.Gen.KernelIdeal.Points
import Idealize.ShloMosaic.Lib.Pipeline.FrameBody
import Idealize.ShloMosaic.Lib.Pipeline.Regions
import Idealize.ShloMosaic.Lib.Tactic
import Idealize.ShloMosaic.Lib.Ring
import Idealize.ShloMosaic.Lib.Pipeline.Value
import proofs.«146094_j20349555048597_2_alg».proof.Proof.KiOuts
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

/-- The key block the body loads at grid coordinates i: 1024 rows of the resident half from row kv*1024. -/
def kblk (i : grid0.Coords) (x1 : Vec F S1x8192x256 .f32) : Vec F S1x1024x256 .f32 :=
  View.ld x1 (Rect.unit (s := S1x8192x256) (k0_off1 i) S1x1024x256.size (k0_off1_inb i))

theorem sout_B_M_eq (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i) (x0 : Vec F S1x512x256 .f32) (x1 : Vec F S1x8192x256 .f32) (xs0 : Vec F S512x1 .f32) (xs1 : Vec F S512x1 .f32) (xs2 : Vec F S512x256 .f32) :
    sout_B_M c i arg3 harg3 arg4 harg4 arg5 harg5 arg6 harg6 arg7 harg7 arg8 harg8 hc0 hc1 x0 x1 xs0 xs1 xs2 = k0_pay2 (k0_pay10 x0 (kblk i x1) xs0) := by
  unfold sout_B_M
  rw [View.read_writes_eq_canon _ _ _ (scover_B_M c i arg3 harg3 arg4 harg4 arg5 harg5 arg6 harg6 arg7 harg7 arg8 harg8 hc0 hc1 x0 x1 xs0 xs1 xs2)]
  unfold kernelRun_B
  dsimp only
  sl_unfold_words
  simp only [View.readAt_eq_ld, harg3.read_unread, harg4.read_unread, harg5.read_unread, harg6.read_unread, harg7.read_unread, harg8.read_unread,
    View.canon_unit_zero (S := S512x1) hz2, View.canon_cons_unit_zero (S := S512x1) hz2, View.readCov_unit_zero (S := S512x1) _ hz2, View.ld_unit_zero (S := S512x1) hz2,
    View.canon_unit_zero (S := S512x256) hz2, View.canon_cons_unit_zero (S := S512x256) hz2, View.readCov_unit_zero (S := S512x256) _ hz2, View.ld_unit_zero (S := S512x256) hz2,
    View.canon_unit_zero (S := S1x512x256) hz3, View.canon_cons_unit_zero (S := S1x512x256) hz3, View.readCov_unit_zero (S := S1x512x256) _ hz3, View.ld_unit_zero (S := S1x512x256) hz3]
  rfl

theorem sout_A_M_eq (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i) (x0 : Vec F S1x512x256 .f32) (x1 : Vec F S1x8192x256 .f32) :
    sout_A_M c i arg3 harg3 arg4 harg4 arg5 harg5 arg6 harg6 arg7 harg7 arg8 harg8 hc0 hc1 x0 x1 = k0_pay2 (k0_pay10 x0 (kblk i x1) k0_pay4) := by
  unfold sout_A_M
  rw [View.read_writes_eq_canon _ _ _ (scover_A_M c i arg3 harg3 arg4 harg4 arg5 harg5 arg6 harg6 arg7 harg7 arg8 harg8 hc0 hc1 x0 x1)]
  unfold kernelRun_A
  dsimp only
  sl_unfold_words
  simp only [View.readAt_eq_ld, harg3.read_unread, harg4.read_unread, harg5.read_unread, harg6.read_unread, harg7.read_unread, harg8.read_unread,
    View.canon_unit_zero (S := S512x1) hz2, View.canon_cons_unit_zero (S := S512x1) hz2, View.readCov_unit_zero (S := S512x1) _ hz2, View.ld_unit_zero (S := S512x1) hz2,
    View.canon_unit_zero (S := S512x256) hz2, View.canon_cons_unit_zero (S := S512x256) hz2, View.readCov_unit_zero (S := S512x256) _ hz2, View.ld_unit_zero (S := S512x256) hz2,
    View.canon_unit_zero (S := S1x512x256) hz3, View.canon_cons_unit_zero (S := S1x512x256) hz3, View.readCov_unit_zero (S := S1x512x256) _ hz3, View.ld_unit_zero (S := S1x512x256) hz3]
  rfl

theorem out_C_O_eq (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i) (x0 : Vec F S1x512x256 .f32) (x1 : Vec F S1x8192x256 .f32) (xs0 : Vec F S512x1 .f32) (xs1 : Vec F S512x1 .f32) (xs2 : Vec F S512x256 .f32) :
    out_C_O c i arg3 harg3 arg4 harg4 arg5 harg5 arg6 harg6 arg7 harg7 arg8 harg8 hc0 hc1 x0 x1 xs0 xs1 xs2 = k0_pay3 (k0_pay7 x0) (k0_pay1 (k0_pay11 x0 (kblk i x1) xs0) (k0_pay14 x0 (kblk i x1) xs0) xs2) (k0_pay13 x0 (kblk i x1) xs0 xs1) := by
  unfold out_C_O
  rw [View.read_writes_eq_canon _ _ _ (cover_C_O c i arg3 harg3 arg4 harg4 arg5 harg5 arg6 harg6 arg7 harg7 arg8 harg8 hc0 hc1 x0 x1 xs0 xs1 xs2)]
  unfold kernelRun_C
  dsimp only
  sl_unfold_words
  simp only [View.readAt_eq_ld, harg3.read_unread, harg4.read_unread, harg5.read_unread, harg6.read_unread, harg7.read_unread, harg8.read_unread,
    View.canon_unit_zero (S := S512x1) hz2, View.canon_cons_unit_zero (S := S512x1) hz2, View.readCov_unit_zero (S := S512x1) _ hz2, View.ld_unit_zero (S := S512x1) hz2,
    View.canon_unit_zero (S := S512x256) hz2, View.canon_cons_unit_zero (S := S512x256) hz2, View.readCov_unit_zero (S := S512x256) _ hz2, View.ld_unit_zero (S := S512x256) hz2,
    View.canon_unit_zero (S := S1x512x256) hz3, View.canon_cons_unit_zero (S := S1x512x256) hz3, View.readCov_unit_zero (S := S1x512x256) _ hz3, View.ld_unit_zero (S := S1x512x256) hz3]
  rfl

theorem sout_B_L_eq (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i) (x0 : Vec F S1x512x256 .f32) (x1 : Vec F S1x8192x256 .f32) (xs0 : Vec F S512x1 .f32) (xs1 : Vec F S512x1 .f32) (xs2 : Vec F S512x256 .f32) :
    sout_B_L c i arg3 harg3 arg4 harg4 arg5 harg5 arg6 harg6 arg7 harg7 arg8 harg8 hc0 hc1 x0 x1 xs0 xs1 xs2 = k0_pay13 x0 (kblk i x1) xs0 xs1 := by
  unfold sout_B_L
  rw [View.read_writes_eq_canon _ _ _ (scover_B_L c i arg3 harg3 arg4 harg4 arg5 harg5 arg6 harg6 arg7 harg7 arg8 harg8 hc0 hc1 x0 x1 xs0 xs1 xs2)]
  unfold kernelRun_B
  dsimp only
  sl_unfold_words
  simp only [View.readAt_eq_ld, harg3.read_unread, harg4.read_unread, harg5.read_unread, harg6.read_unread, harg7.read_unread, harg8.read_unread,
    View.canon_unit_zero (S := S512x1) hz2, View.canon_cons_unit_zero (S := S512x1) hz2, View.readCov_unit_zero (S := S512x1) _ hz2, View.ld_unit_zero (S := S512x1) hz2,
    View.canon_unit_zero (S := S512x256) hz2, View.canon_cons_unit_zero (S := S512x256) hz2, View.readCov_unit_zero (S := S512x256) _ hz2, View.ld_unit_zero (S := S512x256) hz2,
    View.canon_unit_zero (S := S1x512x256) hz3, View.canon_cons_unit_zero (S := S1x512x256) hz3, View.readCov_unit_zero (S := S1x512x256) _ hz3, View.ld_unit_zero (S := S1x512x256) hz3]
  rfl

theorem sout_B_A_eq (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : ¬condLast i) (x0 : Vec F S1x512x256 .f32) (x1 : Vec F S1x8192x256 .f32) (xs0 : Vec F S512x1 .f32) (xs1 : Vec F S512x1 .f32) (xs2 : Vec F S512x256 .f32) :
    sout_B_A c i arg3 harg3 arg4 harg4 arg5 harg5 arg6 harg6 arg7 harg7 arg8 harg8 hc0 hc1 x0 x1 xs0 xs1 xs2 = k0_pay1 (k0_pay11 x0 (kblk i x1) xs0) (k0_pay14 x0 (kblk i x1) xs0) xs2 := by
  unfold sout_B_A
  rw [View.read_writes_eq_canon _ _ _ (scover_B_A c i arg3 harg3 arg4 harg4 arg5 harg5 arg6 harg6 arg7 harg7 arg8 harg8 hc0 hc1 x0 x1 xs0 xs1 xs2)]
  unfold kernelRun_B
  dsimp only
  sl_unfold_words
  simp only [View.readAt_eq_ld, harg3.read_unread, harg4.read_unread, harg5.read_unread, harg6.read_unread, harg7.read_unread, harg8.read_unread,
    View.canon_unit_zero (S := S512x1) hz2, View.canon_cons_unit_zero (S := S512x1) hz2, View.readCov_unit_zero (S := S512x1) _ hz2, View.ld_unit_zero (S := S512x1) hz2,
    View.canon_unit_zero (S := S512x256) hz2, View.canon_cons_unit_zero (S := S512x256) hz2, View.readCov_unit_zero (S := S512x256) _ hz2, View.ld_unit_zero (S := S512x256) hz2,
    View.canon_unit_zero (S := S1x512x256) hz3, View.canon_cons_unit_zero (S := S1x512x256) hz3, View.readCov_unit_zero (S := S1x512x256) _ hz3, View.ld_unit_zero (S := S1x512x256) hz3]
  rfl

theorem sout_A_L_eq (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i) (x0 : Vec F S1x512x256 .f32) (x1 : Vec F S1x8192x256 .f32) :
    sout_A_L c i arg3 harg3 arg4 harg4 arg5 harg5 arg6 harg6 arg7 harg7 arg8 harg8 hc0 hc1 x0 x1 = k0_pay13 x0 (kblk i x1) k0_pay4 k0_pay5 := by
  unfold sout_A_L
  rw [View.read_writes_eq_canon _ _ _ (scover_A_L c i arg3 harg3 arg4 harg4 arg5 harg5 arg6 harg6 arg7 harg7 arg8 harg8 hc0 hc1 x0 x1)]
  unfold kernelRun_A
  dsimp only
  sl_unfold_words
  simp only [View.readAt_eq_ld, harg3.read_unread, harg4.read_unread, harg5.read_unread, harg6.read_unread, harg7.read_unread, harg8.read_unread,
    View.canon_unit_zero (S := S512x1) hz2, View.canon_cons_unit_zero (S := S512x1) hz2, View.readCov_unit_zero (S := S512x1) _ hz2, View.ld_unit_zero (S := S512x1) hz2,
    View.canon_unit_zero (S := S512x256) hz2, View.canon_cons_unit_zero (S := S512x256) hz2, View.readCov_unit_zero (S := S512x256) _ hz2, View.ld_unit_zero (S := S512x256) hz2,
    View.canon_unit_zero (S := S1x512x256) hz3, View.canon_cons_unit_zero (S := S1x512x256) hz3, View.readCov_unit_zero (S := S1x512x256) _ hz3, View.ld_unit_zero (S := S1x512x256) hz3]
  rfl

theorem sout_A_A_eq (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : condFirst i) (hc1 : ¬condLast i) (x0 : Vec F S1x512x256 .f32) (x1 : Vec F S1x8192x256 .f32) :
    sout_A_A c i arg3 harg3 arg4 harg4 arg5 harg5 arg6 harg6 arg7 harg7 arg8 harg8 hc0 hc1 x0 x1 = k0_pay1 (k0_pay11 x0 (kblk i x1) k0_pay4) (k0_pay14 x0 (kblk i x1) k0_pay4) k0_pay6 := by
  unfold sout_A_A
  rw [View.read_writes_eq_canon _ _ _ (scover_A_A c i arg3 harg3 arg4 harg4 arg5 harg5 arg6 harg6 arg7 harg7 arg8 harg8 hc0 hc1 x0 x1)]
  unfold kernelRun_A
  dsimp only
  sl_unfold_words
  simp only [View.readAt_eq_ld, harg3.read_unread, harg4.read_unread, harg5.read_unread, harg6.read_unread, harg7.read_unread, harg8.read_unread,
    View.canon_unit_zero (S := S512x1) hz2, View.canon_cons_unit_zero (S := S512x1) hz2, View.readCov_unit_zero (S := S512x1) _ hz2, View.ld_unit_zero (S := S512x1) hz2,
    View.canon_unit_zero (S := S512x256) hz2, View.canon_cons_unit_zero (S := S512x256) hz2, View.readCov_unit_zero (S := S512x256) _ hz2, View.ld_unit_zero (S := S512x256) hz2,
    View.canon_unit_zero (S := S1x512x256) hz3, View.canon_cons_unit_zero (S := S1x512x256) hz3, View.readCov_unit_zero (S := S1x512x256) _ hz3, View.ld_unit_zero (S := S1x512x256) hz3]
  rfl

theorem sout_C_M_eq (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i) (x0 : Vec F S1x512x256 .f32) (x1 : Vec F S1x8192x256 .f32) (xs0 : Vec F S512x1 .f32) (xs1 : Vec F S512x1 .f32) (xs2 : Vec F S512x256 .f32) :
    sout_C_M c i arg3 harg3 arg4 harg4 arg5 harg5 arg6 harg6 arg7 harg7 arg8 harg8 hc0 hc1 x0 x1 xs0 xs1 xs2 = k0_pay2 (k0_pay10 x0 (kblk i x1) xs0) := by
  unfold sout_C_M
  rw [View.read_writes_eq_canon _ _ _ (scover_C_M c i arg3 harg3 arg4 harg4 arg5 harg5 arg6 harg6 arg7 harg7 arg8 harg8 hc0 hc1 x0 x1 xs0 xs1 xs2)]
  unfold kernelRun_C
  dsimp only
  sl_unfold_words
  simp only [View.readAt_eq_ld, harg3.read_unread, harg4.read_unread, harg5.read_unread, harg6.read_unread, harg7.read_unread, harg8.read_unread,
    View.canon_unit_zero (S := S512x1) hz2, View.canon_cons_unit_zero (S := S512x1) hz2, View.readCov_unit_zero (S := S512x1) _ hz2, View.ld_unit_zero (S := S512x1) hz2,
    View.canon_unit_zero (S := S512x256) hz2, View.canon_cons_unit_zero (S := S512x256) hz2, View.readCov_unit_zero (S := S512x256) _ hz2, View.ld_unit_zero (S := S512x256) hz2,
    View.canon_unit_zero (S := S1x512x256) hz3, View.canon_cons_unit_zero (S := S1x512x256) hz3, View.readCov_unit_zero (S := S1x512x256) _ hz3, View.ld_unit_zero (S := S1x512x256) hz3]
  rfl

theorem sout_C_L_eq (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i) (x0 : Vec F S1x512x256 .f32) (x1 : Vec F S1x8192x256 .f32) (xs0 : Vec F S512x1 .f32) (xs1 : Vec F S512x1 .f32) (xs2 : Vec F S512x256 .f32) :
    sout_C_L c i arg3 harg3 arg4 harg4 arg5 harg5 arg6 harg6 arg7 harg7 arg8 harg8 hc0 hc1 x0 x1 xs0 xs1 xs2 = k0_pay13 x0 (kblk i x1) xs0 xs1 := by
  unfold sout_C_L
  rw [View.read_writes_eq_canon _ _ _ (scover_C_L c i arg3 harg3 arg4 harg4 arg5 harg5 arg6 harg6 arg7 harg7 arg8 harg8 hc0 hc1 x0 x1 xs0 xs1 xs2)]
  unfold kernelRun_C
  dsimp only
  sl_unfold_words
  simp only [View.readAt_eq_ld, harg3.read_unread, harg4.read_unread, harg5.read_unread, harg6.read_unread, harg7.read_unread, harg8.read_unread,
    View.canon_unit_zero (S := S512x1) hz2, View.canon_cons_unit_zero (S := S512x1) hz2, View.readCov_unit_zero (S := S512x1) _ hz2, View.ld_unit_zero (S := S512x1) hz2,
    View.canon_unit_zero (S := S512x256) hz2, View.canon_cons_unit_zero (S := S512x256) hz2, View.readCov_unit_zero (S := S512x256) _ hz2, View.ld_unit_zero (S := S512x256) hz2,
    View.canon_unit_zero (S := S1x512x256) hz3, View.canon_cons_unit_zero (S := S1x512x256) hz3, View.readCov_unit_zero (S := S1x512x256) _ hz3, View.ld_unit_zero (S := S1x512x256) hz3]
  rfl

theorem sout_C_A_eq (c : Dev nD) (i : grid0.Coords) (arg3 : Memref sig .tc .vmem S1x512x256 .f32) (harg3 : arg3.IsWhole) (arg4 : Memref sig .tc .vmem S1x8192x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hc0 : ¬condFirst i) (hc1 : condLast i) (x0 : Vec F S1x512x256 .f32) (x1 : Vec F S1x8192x256 .f32) (xs0 : Vec F S512x1 .f32) (xs1 : Vec F S512x1 .f32) (xs2 : Vec F S512x256 .f32) :
    sout_C_A c i arg3 harg3 arg4 harg4 arg5 harg5 arg6 harg6 arg7 harg7 arg8 harg8 hc0 hc1 x0 x1 xs0 xs1 xs2 = k0_pay1 (k0_pay11 x0 (kblk i x1) xs0) (k0_pay14 x0 (kblk i x1) xs0) xs2 := by
  unfold sout_C_A
  rw [View.read_writes_eq_canon _ _ _ (scover_C_A c i arg3 harg3 arg4 harg4 arg5 harg5 arg6 harg6 arg7 harg7 arg8 harg8 hc0 hc1 x0 x1 xs0 xs1 xs2)]
  unfold kernelRun_C
  dsimp only
  sl_unfold_words
  simp only [View.readAt_eq_ld, harg3.read_unread, harg4.read_unread, harg5.read_unread, harg6.read_unread, harg7.read_unread, harg8.read_unread,
    View.canon_unit_zero (S := S512x1) hz2, View.canon_cons_unit_zero (S := S512x1) hz2, View.readCov_unit_zero (S := S512x1) _ hz2, View.ld_unit_zero (S := S512x1) hz2,
    View.canon_unit_zero (S := S512x256) hz2, View.canon_cons_unit_zero (S := S512x256) hz2, View.readCov_unit_zero (S := S512x256) _ hz2, View.ld_unit_zero (S := S512x256) hz2,
    View.canon_unit_zero (S := S1x512x256) hz3, View.canon_cons_unit_zero (S := S1x512x256) hz3, View.readCov_unit_zero (S := S1x512x256) _ hz3, View.ld_unit_zero (S := S1x512x256) hz3]
  rfl

end Cert.KernelIdeal.Hand

end
-- ==== Proof.KiValue.lean ====
/-
  The result array after the kernel, read at an index.

  The output block of point t is written back only at a last key block (t mod 8 = 7); those 32 blocks tile the result
  array: entry (b, r, d) lies in the block of the point t = 128*b + 8*(r / 512) + 7. So the array ends holding, at every
  entry, what that point stored — the body's final arithmetic over the running buffers of that point.
-/
import proofs.«146094_j20349555048597_2_alg».proof.Proof.Gen.KernelIdeal.Launch
import proofs.«146094_j20349555048597_2_alg».proof.Proof.Gen.KernelIdeal.Skeleton
import proofs.«146094_j20349555048597_2_alg».proof.Proof.Gen.KernelIdeal.Points
import Idealize.ShloMosaic.Lib.Pipeline.FrameBody
import Idealize.ShloMosaic.Lib.Pipeline.Regions
import Idealize.ShloMosaic.Lib.Tactic
import Idealize.ShloMosaic.Lib.Ring
import Idealize.ShloMosaic.Lib.ValueIdx
import Idealize.ShloMosaic.Lib.Pipeline.Value
import proofs.«146094_j20349555048597_2_alg».proof.Proof.KiIdx
import proofs.«146094_j20349555048597_2_alg».proof.Proof.KiPay
import proofs.«146094_j20349555048597_2_alg».proof.Proof.KiLaunch
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The key block the body loads at point t, entry (j, d): row krow t j of half halfOf t. -/
theorem kblk_apply (c : Dev nD) (t : Fin cfg0.N) (j : Fin 1024) (d : Fin 256) :
    kblk (grid0.coords t) (iblk m c 1 t) (ix3 (0 : Fin 1) j d) = V m c main_v22 (ix3 (halfOf t) (krow t j) d) := by
  obtain ⟨-, -, -, -, -, -, -, -, -, o0, o1, o2⟩ := idx_facts t
  have h := iblk1_apply m c t (krow t j) d
  rw [← h]
  show iblk m c 1 t ((Rect.unit (s := S1x8192x256) (k0_off1 (grid0.coords t)) S1x1024x256.size (k0_off1_inb (grid0.coords t))).emb (ix3 (0 : Fin 1) j d))
    = iblk m c 1 t (ix3 (0 : Fin 1) (krow t j) d)
  refine congrArg _ ?_
  funext a; apply Fin.ext
  match a with
  | ⟨0, _⟩ => show k0_off1 (grid0.coords t) (0 : Fin 3) + 1 * 0 = 0; omega
  | ⟨1, _⟩ => show k0_off1 (grid0.coords t) (1 : Fin 3) + 1 * j.val = 1024 * (t.val % 8) + j.val; omega
  | ⟨2, _⟩ => show k0_off1 (grid0.coords t) (2 : Fin 3) + 1 * d.val = d.val; omega

/-- The output block of point t read off an array G of the result's shape, entry (p, d). -/
theorem read_blk2 (c : Dev nD) (t : Fin cfg0.N) (G : Buf (Elt F) ((cfg0.win 2).arr.view.loc (c.tc : Thread nD τ))) (p : Fin 512) (d : Fin 256) :
    ((cfg0.win 2).blk t).view.read (Elt F) G (ix3 (0 : Fin 1) p d) = G (ix3 (halfOf t) (qrow t p) d) := by
  obtain ⟨-, -, -, -, -, -, e0, e1, e2, -⟩ := idx_facts t
  show G (((cfg0.win 2).blk t).view.emb (ix3 (0 : Fin 1) p d)) = G (ix3 (halfOf t) (qrow t p) d)
  refine congrArg _ ?_
  funext a; apply Fin.ext
  match a with
  | ⟨0, _⟩ => show win0_2.index t (0 : Fin 3) * 1 + 1 * 0 = t.val / 128; omega
  | ⟨1, _⟩ => show win0_2.index t (1 : Fin 3) * 512 + 1 * p.val = 512 * (t.val / 8 % 16) + p.val; omega
  | ⟨2, _⟩ => show win0_2.index t (2 : Fin 3) * 256 + 1 * d.val = d.val; omega

/-- An index of the result array is in point t's block iff each coordinate is in the block's range on its axis. -/
theorem mem_blk2 (t : Fin cfg0.N) (i : S2x8192x256.Idx) :
    i ∈ ((cfg0.win 2).blk t).view.set ↔ ∀ a : Fin 3, win0_2.index t a * S1x512x256.size a ≤ (i a).val ∧ (i a).val < win0_2.index t a * S1x512x256.size a + S1x512x256.size a := by
  show i ∈ ((View.whole main_v23).slice (win0_2.rect t)).set ↔ _
  rw [View.set_slice_whole, Rect.mem_set_unit]
  exact Iff.rfl

/-- The point that writes entry i back: the last key block of i's half and query block. -/
def ptOf (i : S2x8192x256.Idx) : Fin cfg0.N :=
  ⟨128 * (i 0).val + 8 * ((i 1).val / 512) + 7, by
    have h0 : (i 0).val < 2 := (i 0).isLt
    have h1 : (i 1).val < 8192 := (i 1).isLt
    rw [show cfg0.N = 256 from N_0]; omega⟩

/-- Every entry of the result array lies in the block of a point that writes its block back. -/
theorem cover2 (i : S2x8192x256.Idx) : ∃ t : Fin cfg0.N, (cfg0.win 2).flush t = true ∧ i ∈ ((cfg0.win 2).blk t).view.set := by
  have h0 : (i 0).val < 2 := (i 0).isLt
  have h1 : (i 1).val < 8192 := (i 1).isLt
  have h2 : (i 2).val < 256 := (i 2).isLt
  refine ⟨ptOf i, (flush0_2 _).mpr (by show (128 * (i 0).val + 8 * ((i 1).val / 512) + 7) % 8 = 7; omega), ?_⟩
  obtain ⟨-, -, -, -, -, -, e0, e1, e2, -⟩ := idx_facts (ptOf i)
  have hv : (ptOf i).val = 128 * (i 0).val + 8 * ((i 1).val / 512) + 7 := rfl
  rw [mem_blk2]
  intro a
  match a with
  | ⟨0, _⟩ => show win0_2.index (ptOf i) (0 : Fin 3) * 1 ≤ (i 0).val ∧ (i 0).val < win0_2.index (ptOf i) (0 : Fin 3) * 1 + 1; omega
  | ⟨1, _⟩ => show win0_2.index (ptOf i) (1 : Fin 3) * 512 ≤ (i 1).val ∧ (i 1).val < win0_2.index (ptOf i) (1 : Fin 3) * 512 + 512; omega
  | ⟨2, _⟩ => show win0_2.index (ptOf i) (2 : Fin 3) * 256 ≤ (i 2).val ∧ (i 2).val < win0_2.index (ptOf i) (2 : Fin 3) * 256 + 256; omega

end Cert.KernelIdeal.Hand

end
-- ==== Proof.LibOnlineSoftmax.lean ====
/-
  The blockwise ("online") softmax average is the whole-row softmax average, on the extended reals.

  For keys in a finite set with real scores s_j and real values v_j the softmax average is
    softmaxAvg S s v = (sum_j e^(s_j) v_j) / (sum_j e^(s_j)).
  It does not change when every score is shifted by one real M (softmaxAvg_shift): both sums pick up the factor e^(-M).

  A kernel that walks the keys block by block keeps three numbers: a running value m (started at -inf), a running
  denominator l and a running numerator acc (both started at 0). For a new block B and ANY real mb it moves to
    m' = max m mb,   a = exp (m - m'),   l' = a * l + sum_{j in B} exp (s_j - m'),   acc' = a * acc + sum_{j in B} exp (s_j - m') * v_j.
  OnlineInv S s v m l acc says what the three numbers are after the keys S: before any key m = -inf and l = acc = 0;
  afterwards m is some real M, l = sum_{j in S} e^(s_j - M) and acc = sum_{j in S} e^(s_j - M) v_j. The step keeps it
  (OnlineInv.step): at the first block a = exp (-inf - m') = exp (-inf) = 0 wipes the (zero) state, later
  a = e^(M - M') and e^(M - M') e^(s_j - M) = e^(s_j - M'). That mb is the block's maximum is never used: by shift
  invariance any real running value gives the same quotient, so the final acc / l is softmaxAvg S s v (OnlineInv.div_eq).
  The whole-row form — exp (s_j - M) / (sum_i exp (s_i - M)) times v_j, summed — is the same number for every real M
  (softmax_whole). A maximum of finitely many reals folded from -inf is a real (fold_max_coe), which supplies mb and M.

  Everything is stated with the extended-real operations Ideal.exp and Ideal.div, so that the two sides of a
  certificate meet these lemmas as they stand once their scores and values are known to be reals.
-/
import Idealize.ShloMosaic.PureOps.Ideal

noncomputable section

namespace Cert.Lib

open Idealize.ShloMosaic

variable {κ : Type*}

/-- The coercion of a finite real sum is the sum of the coercions. -/
theorem coe_finsum (S : Finset κ) (f : κ → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- The coercion of the larger of two reals is the larger of their coercions. -/
theorem coe_max_real (a b : ℝ) : ((max a b : ℝ) : EReal) = max (a : EReal) (b : EReal) :=
  EReal.coe_strictMono.monotone.map_max

/-- The softmax-weighted average of the values v over the keys S with scores s. -/
def softmaxAvg (S : Finset κ) (s v : κ → ℝ) : ℝ :=
  (∑ j ∈ S, Real.exp (s j) * v j) / ∑ j ∈ S, Real.exp (s j)

/-- Shifting every score by M changes neither sum's ratio: numerator and denominator both gain e^(-M). -/
theorem softmaxAvg_shift (S : Finset κ) (s v : κ → ℝ) (M : ℝ) :
    (∑ j ∈ S, Real.exp (s j - M) * v j) / (∑ j ∈ S, Real.exp (s j - M)) = softmaxAvg S s v := by
  unfold softmaxAvg
  have h1 : ∀ j, Real.exp (s j - M) = Real.exp (s j) * Real.exp (-M) := fun j => by
    rw [sub_eq_add_neg, Real.exp_add]
  have hn : ∑ j ∈ S, Real.exp (s j - M) * v j = (∑ j ∈ S, Real.exp (s j) * v j) * Real.exp (-M) := by
    rw [Finset.sum_mul]; refine Finset.sum_congr rfl fun j _ => ?_; rw [h1]; ring
  have hd : ∑ j ∈ S, Real.exp (s j - M) = (∑ j ∈ S, Real.exp (s j)) * Real.exp (-M) := by
    rw [Finset.sum_mul]; exact Finset.sum_congr rfl fun j _ => h1 j
  rw [hn, hd, mul_div_mul_right _ _ (Real.exp_pos _).ne']

/-- The online softmax's three numbers after the keys S: nothing seen yet (running value -inf, both sums 0), or
    a real running value M with the two sums taken relative to M. -/
def OnlineInv (S : Finset κ) (s v : κ → ℝ) (m l acc : EReal) : Prop :=
  (S = ∅ ∧ m = ⊥ ∧ l = 0 ∧ acc = 0) ∨
  ∃ M : ℝ, m = (M : EReal) ∧ l = ((∑ j ∈ S, Real.exp (s j - M) : ℝ) : EReal)
    ∧ acc = ((∑ j ∈ S, Real.exp (s j - M) * v j : ℝ) : EReal)

theorem OnlineInv.init (s v : κ → ℝ) : OnlineInv (∅ : Finset κ) s v ⊥ 0 0 := Or.inl ⟨rfl, rfl, rfl, rfl⟩

/-- A block's exponentials relative to a real, summed on the extended reals, are the real sum. -/
theorem sum_exp_sub_coe (B : Finset κ) (s : κ → ℝ) (M : ℝ) :
    (∑ j ∈ B, Ideal.exp ((s j : EReal) - (M : EReal))) = ((∑ j ∈ B, Real.exp (s j - M) : ℝ) : EReal) := by
  rw [coe_finsum]; refine Finset.sum_congr rfl fun j _ => ?_; rw [← EReal.coe_sub, Ideal.exp_coe]

theorem sum_exp_sub_mul_coe (B : Finset κ) (s v : κ → ℝ) (M : ℝ) :
    (∑ j ∈ B, Ideal.exp ((s j : EReal) - (M : EReal)) * (v j : EReal))
      = ((∑ j ∈ B, Real.exp (s j - M) * v j : ℝ) : EReal) := by
  rw [coe_finsum]; refine Finset.sum_congr rfl fun j _ => ?_; rw [← EReal.coe_sub, Ideal.exp_coe, ← EReal.coe_mul]

/-- One block of the online softmax keeps the invariant, for any real mb in the place of the block's maximum. -/
theorem OnlineInv.step [DecidableEq κ] {S B : Finset κ} {s v : κ → ℝ} {m l acc : EReal}
    (h : OnlineInv S s v m l acc) (hB : Disjoint S B) (mb : ℝ) :
    OnlineInv (S ∪ B) s v (max m (mb : EReal))
      (Ideal.exp (m - max m (mb : EReal)) * l + ∑ j ∈ B, Ideal.exp ((s j : EReal) - max m (mb : EReal)))
      (Ideal.exp (m - max m (mb : EReal)) * acc
        + ∑ j ∈ B, Ideal.exp ((s j : EReal) - max m (mb : EReal)) * (v j : EReal)) := by
  rcases h with ⟨hS, hm, hl, ha⟩ | ⟨M, hm, hl, ha⟩
  · -- nothing seen yet: the rescaling factor is exp (-inf) = 0 and the state it multiplies is 0
    subst hS; subst hm; subst hl; subst ha
    have hmax : max (⊥ : EReal) (mb : EReal) = (mb : EReal) := max_eq_right bot_le
    refine Or.inr ⟨mb, hmax, ?_, ?_⟩
    · rw [hmax, mul_zero, zero_add, sum_exp_sub_coe, Finset.empty_union]
    · rw [hmax, mul_zero, zero_add, sum_exp_sub_mul_coe, Finset.empty_union]
  · -- a real running value M moves to M' = max M mb: e^(M - M') e^(s_j - M) = e^(s_j - M')
    subst hm; subst hl; subst ha
    have hmax : max (M : EReal) (mb : EReal) = ((max M mb : ℝ) : EReal) := (coe_max_real M mb).symm
    have hre : ∀ j, Real.exp (M - max M mb) * Real.exp (s j - M) = Real.exp (s j - max M mb) := fun j => by
      rw [← Real.exp_add]; congr 1; ring
    refine Or.inr ⟨max M mb, hmax, ?_, ?_⟩
    · rw [hmax, ← EReal.coe_sub, Ideal.exp_coe, ← EReal.coe_mul, sum_exp_sub_coe, ← EReal.coe_add,
        Finset.sum_union hB, Finset.mul_sum]
      congr 2; exact Finset.sum_congr rfl fun j _ => hre j
    · rw [hmax, ← EReal.coe_sub, Ideal.exp_coe, ← EReal.coe_mul, sum_exp_sub_mul_coe, ← EReal.coe_add,
        Finset.sum_union hB, Finset.mul_sum]
      congr 2; exact Finset.sum_congr rfl fun j _ => by rw [← mul_assoc, hre]

/-- After at least one key, numerator over denominator is the softmax average. -/
theorem OnlineInv.div_eq {S : Finset κ} {s v : κ → ℝ} {m l acc : EReal}
    (h : OnlineInv S s v m l acc) (hS : S.Nonempty) :
    Ideal.div acc l = ((softmaxAvg S s v : ℝ) : EReal) := by
  rcases h with ⟨hS0, -⟩ | ⟨M, -, hl, ha⟩
  · exact absurd hS0 hS.ne_empty
  · have hpos : 0 < ∑ j ∈ S, Real.exp (s j - M) := Finset.sum_pos (fun j _ => Real.exp_pos _) hS
    rw [hl, ha, Ideal.div_coe hpos.ne', ← EReal.coe_mul, ← softmaxAvg_shift S s v M, mul_one_div]

/-- The whole-row form: each key's weight e^(s_j - M) / sum_i e^(s_i - M) times its value, summed, is the softmax
    average, for every real M. -/
theorem softmax_whole {S : Finset κ} (hS : S.Nonempty) (s v : κ → ℝ) (M : ℝ) :
    ∑ j ∈ S, Ideal.div (Ideal.exp ((s j : EReal) - (M : EReal)))
        (∑ i ∈ S, Ideal.exp ((s i : EReal) - (M : EReal))) * (v j : EReal)
      = ((softmaxAvg S s v : ℝ) : EReal) := by
  have hpos : 0 < ∑ j ∈ S, Real.exp (s j - M) := Finset.sum_pos (fun j _ => Real.exp_pos _) hS
  have hsplit : (∑ j ∈ S, Real.exp (s j - M) * v j) / (∑ j ∈ S, Real.exp (s j - M))
      = ∑ j ∈ S, Real.exp (s j - M) * (1 / ∑ i ∈ S, Real.exp (s i - M)) * v j := by
    rw [Finset.sum_div]; exact Finset.sum_congr rfl fun j _ => by ring
  rw [sum_exp_sub_coe, ← softmaxAvg_shift S s v M, hsplit,
    coe_finsum S (fun j => Real.exp (s j - M) * (1 / ∑ i ∈ S, Real.exp (s i - M)) * v j)]
  refine Finset.sum_congr rfl fun j _ => ?_
  rw [Ideal.div_coe hpos.ne', ← EReal.coe_sub, Ideal.exp_coe, ← EReal.coe_mul, ← EReal.coe_mul]

/-- The maximum of finitely many reals (at least one), folded from -inf on the extended reals, is a real. -/
theorem fold_max_coe [DecidableEq κ] (s : κ → ℝ) :
    ∀ S : Finset κ, S.Nonempty → ∃ M : ℝ, S.fold max (⊥ : EReal) (fun j => (s j : EReal)) = (M : EReal) := by
  intro S
  induction S using Finset.induction_on with
  | empty => intro h; exact absurd rfl h.ne_empty
  | insert a S ha ih =>
    intro _
    rw [Finset.fold_insert ha]
    rcases S.eq_empty_or_nonempty with h0 | h1
    · subst h0; exact ⟨s a, by rw [Finset.fold_empty]; exact max_eq_left bot_le⟩
    · obtain ⟨M, hM⟩ := ih h1; exact ⟨max (s a) M, by rw [hM, coe_max_real]⟩

end Cert.Lib

end
-- ==== Proof.LibRowNormalize.lean ====
/-
  A real row divided by its Euclidean norm is a real row, when the sum of its squares is positive.

  On the extended reals division by zero is not a real number (0 / 0 is the junk value -inf), so a row x / |x| is
  real only away from the zero row. With g real and 0 < sum_k g_k^2: the sum of the squares taken on the extended
  reals (from the initial value 0, as a host sum states it) is the real sum, its square root is the real square
  root, which is positive, and dividing by a nonzero real is multiplying by its reciprocal.
-/
import Idealize.ShloMosaic.PureOps.Ideal

noncomputable section

namespace Cert.Lib

open Idealize.ShloMosaic

/-- The sum of the squares of a real row, taken on the extended reals, is the real sum. -/
theorem sum_sq_coe {ι : Type*} (S : Finset ι) (g : ι → ℝ) :
    (∑ k ∈ S, (g k : EReal) * (g k : EReal)) = ((∑ k ∈ S, g k * g k : ℝ) : EReal) := by
  classical
  induction S using Finset.induction_on with
  | empty => simp
  | insert a S ha ih => rw [Finset.sum_insert ha, Finset.sum_insert ha, ih, EReal.coe_add, EReal.coe_mul]

/-- The norm of a real row as the programs compute it — the square root of the extended-real sum of squares taken
    from the initial value 0 — is the real square root of the real sum. (No positivity is claimed here.) -/
theorem sqrt_sum_sq_coe {ι : Type*} (S : Finset ι) (g : ι → ℝ) :
    Ideal.sqrt (0 + ∑ k ∈ S, (g k : EReal) * (g k : EReal)) = ((Real.sqrt (∑ k ∈ S, g k * g k) : ℝ) : EReal) := by
  rw [zero_add, sum_sq_coe, Ideal.sqrt_coe, if_neg (not_lt.2 (Finset.sum_nonneg fun k _ => mul_self_nonneg (g k)))]

/-- An entry of a real row over the row's norm is the real quotient, when the sum of the squares is positive. -/
theorem div_norm_coe {ι : Type*} (S : Finset ι) (g : ι → ℝ) (hpos : 0 < ∑ k ∈ S, g k * g k) (x : ℝ) :
    Ideal.div (x : EReal) (Ideal.sqrt (0 + ∑ k ∈ S, (g k : EReal) * (g k : EReal)))
      = ((x / Real.sqrt (∑ k ∈ S, g k * g k) : ℝ) : EReal) := by
  rw [sqrt_sum_sq_coe, Ideal.div_coe (Real.sqrt_pos.2 hpos).ne', ← EReal.coe_mul, mul_one_div]

end Cert.Lib

end
-- ==== Proof.Spec.lean ====
/-
  The function both programs compute, on the extended reals, index by index.

  X is one half's normalized rows (8192 rows of 256 entries). For a query row i:
    score i j   = (sum_d X i d * X j d) * 3                       the scaled inner product with key row j
    rowMax i    = the largest score of the row (folded from -inf)
    expo i j    = exp (score i j - rowMax i)
    denom i     = sum_j expo i j
    attn i d    = sum_j (expo i j / denom i) * X j d               the softmax-weighted average of the rows
    y i d       = X i d - 0.8 * attn i d
    smooth i d  = y i d * (sqrt (sum_d y i d ^ 2) * 1)
  and for the two smoothed halves Y0, Y1 the result is
    tail = - (sum_i log (1 / (1 + exp (-(sum_d Y0 i d * Y1 i d))))) / 8192.
  Sums start from the initial value 0 as the programs' reductions do; the constants are the words the programs print
  (3.0, 0.8, 1.0, 8192.0 in single precision), read as the exact numbers those words denote.
-/
import Idealize.ShloMosaic.PureOps.Ideal

noncomputable section

namespace Cert.Spec

open Idealize.ShloMosaic

/-- The printed constants. -/
def c3 : EReal := Ideal.ofBits .f32 0x40400000#32
def c08 : EReal := Ideal.ofBits .f32 0x3F4CCCCD#32
def c1 : EReal := Ideal.ofBits .f32 0x3F800000#32
def c8192 : EReal := Ideal.ofBits .f32 0x46000000#32

abbrev Rows := Fin 8192 → Fin 256 → EReal

def score (X : Rows) (i j : Fin 8192) : EReal := (0 + ∑ d : Fin 256, X i d * X j d) * c3
def rowMax (X : Rows) (i : Fin 8192) : EReal := max ⊥ (Finset.univ.fold max ⊥ fun j : Fin 8192 => score X i j)
def expo (X : Rows) (i j : Fin 8192) : EReal := Ideal.exp (score X i j - rowMax X i)
def denom (X : Rows) (i : Fin 8192) : EReal := 0 + ∑ j : Fin 8192, expo X i j
def attn (X : Rows) (i : Fin 8192) (d : Fin 256) : EReal := 0 + ∑ j : Fin 8192, Ideal.div (expo X i j) (denom X i) * X j d
def y (X : Rows) (i : Fin 8192) (d : Fin 256) : EReal := X i d - c08 * attn X i d
def smooth (X : Rows) (i : Fin 8192) (d : Fin 256) : EReal :=
  y X i d * (Ideal.sqrt (0 + ∑ d' : Fin 256, y X i d' * y X i d') * c1)

def tail (Y0 Y1 : Rows) : EReal :=
  Ideal.div (-(0 + ∑ i : Fin 8192, Ideal.log (Ideal.div c1 (c1 + Ideal.exp (-(0 + ∑ d : Fin 256, Y0 i d * Y1 i d)))))) c8192

/-- A row x / |x| of a table row g, as both programs' heads compute it. -/
def normalize (g : Rows) (i : Fin 8192) (d : Fin 256) : EReal :=
  Ideal.div (g i d) (Ideal.sqrt (0 + ∑ k : Fin 256, g i k * g i k))

end Cert.Spec

end
-- ==== Proof.KiStep.lean ====
/-
  The kernel's arithmetic at one grid point, read at an index and joined to the blockwise-softmax invariant.

  At a grid point the kernel holds 512 query rows and 1024 key rows of one half's normalized rows, and three running
  buffers: a running value m, a running denominator l (one entry per query row) and a running numerator acc (one row
  of 256 entries per query row). Each stored value is read here at an index as a formula over the extended reals:
  the scores are the inner products of a query row (times 3) with the key rows; the new running value is the larger of
  the old one and the scores' row maximum; the denominator and the numerator are rescaled by exp (m - m') and gain the
  block's exponentials, resp. the exponentials times the key rows' entries. With real rows these are exactly the
  update of Cert.Lib.OnlineInv.step, so one grid point keeps the invariant, for the keys of its block. After the last
  block, numerator over denominator is the softmax average, and the output block y * |y| with y = x - 0.8 * average
  is Spec.smooth of the half's rows, whose whole-row form is the same average (Cert.Lib.softmax_whole).
-/
import proofs.«146094_j20349555048597_2_alg».proof.Proof.Gen.KernelIdeal.Skeleton
import proofs.«146094_j20349555048597_2_alg».proof.Proof.LibOnlineSoftmax
import proofs.«146094_j20349555048597_2_alg».proof.Proof.LibRowNormalize
import proofs.«146094_j20349555048597_2_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.Step

open Idealize.ShloMosaic Idealize.ShloMosaic.ValueIdx
open Cert.KernelIdeal Cert.KernelIdeal.Gen Cert.Lib

/-! ## Layout operations of a keepdims column, read at an index -/

section Layout
variable {α : Type} {a b : ℕ}

/-- An [a] array cast to [a, 1] reads, at (p, u), the operand at p. -/
theorem shapeCast_a_a1_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column's entry p. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index (p) with the coordinate k put back on the second axis is (p, k). -/
theorem lift_last2 (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float maximum over the second axis of an [a, b] array, at row p: the fold of max over the row. -/
theorem rowMax_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction (F := Ideal) .maximumf [1] (⟨1, ![a]⟩ : Shape) src acc h hφ hacc (ix1 p)
      = (Finset.univ : Finset (Fin b)).fold max (Ideal.ofBits φ acc) (fun k => src (ix2 p k)) := by
  refine (Ideal.multiReduction_maximumf_single src acc h hφ hacc (ix1 p)).trans ?_
  have hf : (src ∘ h.lift (ix1 p)) = fun k : Fin b => src (ix2 p k) :=
    funext fun k => congrArg src (lift_last2 h p k)
  exact congrArg (fun f => Finset.fold max (Ideal.ofBits φ acc) f (Finset.univ : Finset (Fin b))) hf

/-- A float sum over the second axis of an [a, b] array, at row p: the sum of the row. -/
theorem rowSum_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction (F := Ideal) .add [1] (⟨1, ![a]⟩ : Shape) src acc h hφ hacc (ix1 p)
      = ∑ k : Fin b, src (ix2 p k) := by
  refine (Ideal.multiReduction_add_single src acc h hφ hacc (ix1 p)).trans ?_
  exact Finset.sum_congr rfl fun k _ => congrArg src (lift_last2 h p k)

end Layout

/-! ## The printed constants -/

/-- The single-precision word of minus infinity is the bottom of the extended reals. -/
theorem neg_inf_f32 : Ideal.ofBits .f32 0xFF800000#32 = (⊥ : EReal) := by simp [Ideal.ofBits, Ideal.ieee]

/-- The single-precision word 0x40400000 is the real 3. -/
theorem three_f32 : Ideal.ofBits .f32 0x40400000#32 = ((3 : ℝ) : EReal) := by
  simp [Ideal.ofBits, Ideal.ieee, -EReal.coe_mul]; norm_num

theorem c3_eq : Cert.Spec.c3 = ((3 : ℝ) : EReal) := three_f32
theorem c1_eq : Cert.Spec.c1 = (1 : EReal) := Ideal.ofBits_one_f32

/-! ## The reset values -/

theorem pay4_apply (i : S512x1.Idx) : k0_pay4 (F := Ideal) i = (⊥ : EReal) := by
  unfold k0_pay4
  refine (congrFun (shapeCast_self _ _) i).trans ?_
  exact neg_inf_f32

theorem pay5_apply (i : S512x1.Idx) : k0_pay5 (F := Ideal) i = (0 : EReal) := by
  unfold k0_pay5
  refine (congrFun (shapeCast_self _ _) i).trans ?_
  exact Ideal.ofBits_zero_f32

theorem pay6_apply (i : S512x256.Idx) : k0_pay6 (F := Ideal) i = (0 : EReal) := by
  unfold k0_pay6
  refine (congrFun (shapeCast_self _ _) i).trans ?_
  exact Ideal.ofBits_zero_f32

/-! ## The scores: a query row (times 3) against the key rows -/

/-- The query block viewed [512, 256]. -/
theorem pay7_apply (x0 : Vec Ideal S1x512x256 .f32) (p : Fin 512) (d : Fin 256) :
    k0_pay7 (F := Ideal) x0 (ix2 p d) = x0 (ix3 (0 : Fin 1) p d) := by
  unfold k0_pay7
  exact shapeCast_1ab_ab_apply x0 _ p d

/-- The key block viewed [1024, 256] (the format change is the identity on the extended reals). -/
theorem pay8_apply (v11 : Vec Ideal S1x1024x256 .f32) (j : Fin 1024) (d : Fin 256) :
    k0_pay8 (F := Ideal) v11 (ix2 j d) = v11 (ix3 (0 : Fin 1) j d) := by
  unfold k0_pay8
  exact shapeCast_1ab_ab_apply v11 _ j d

/-- The first contraction's dimension numbers: [512, 256] with [1024, 256] over the 256 entries. -/
abbrev D1 := dot_S512x256_S1024x256_S512x1024_1_1_0_0_n_n
/-- The second contraction's: [512, 1024] with [1024, 256] over the 1024 keys. -/
abbrev D2 := dot_S512x1024_S1024x256_S512x256_1_0_0_1_n_n

theorem D1_lhs_0 (i : S512x1024.Idx) (q : D1.contr.Idx) : (D1.lhsIdx i q 0).val = (i 0).val := by
  unfold DotDims.lhsIdx
  rw [dif_neg (show ¬(0 : Fin S512x256.rank) ∈ D1.lhsBatch by decide), dif_pos (show (0 : Fin S512x256.rank) ∈ D1.lhsNonContracting by decide)]
  rfl
theorem D1_lhs_1 (i : S512x1024.Idx) (q : D1.contr.Idx) : (D1.lhsIdx i q 1).val = (q ⟨0, by decide⟩).val :=
  D1.lhsIdx_val_of_single rfl i q
theorem D1_rhs_0 (i : S512x1024.Idx) (q : D1.contr.Idx) : (D1.rhsIdx i q 0).val = (i 1).val := by
  unfold DotDims.rhsIdx
  rw [dif_neg (show ¬(0 : Fin S1024x256.rank) ∈ D1.rhsBatch by decide), dif_pos (show (0 : Fin S1024x256.rank) ∈ D1.rhsNonContracting by decide)]
  rfl
theorem D1_rhs_1 (i : S512x1024.Idx) (q : D1.contr.Idx) : (D1.rhsIdx i q 1).val = (q ⟨0, by decide⟩).val :=
  D1.rhsIdx_val_of_single rfl i q

/-- At output (p, j) and entry d the first contraction reads the query row p and the key row j at d. -/
theorem D1_lhs (p : Fin 512) (j : Fin 1024) (d : Fin 256) :
    D1.lhsIdx (ix2 p j) ((contrEquiv1 D1 256 rfl rfl).symm d) = ix2 p d :=
  funext fun a => Fin.ext (by
    have hk := contrEquiv1_symm_val D1 256 rfl rfl d
    match a with
    | ⟨0, _⟩ => exact D1_lhs_0 _ _
    | ⟨1, _⟩ => exact (D1_lhs_1 _ _).trans hk)
theorem D1_rhs (p : Fin 512) (j : Fin 1024) (d : Fin 256) :
    D1.rhsIdx (ix2 p j) ((contrEquiv1 D1 256 rfl rfl).symm d) = ix2 j d :=
  funext fun a => Fin.ext (by
    have hk := contrEquiv1_symm_val D1 256 rfl rfl d
    match a with
    | ⟨0, _⟩ => exact D1_rhs_0 _ _
    | ⟨1, _⟩ => exact (D1_rhs_1 _ _).trans hk)

/-- The score of query row p against key row j: the sum over the entries of (query * 3) * key. -/
theorem pay9_apply (x0 : Vec Ideal S1x512x256 .f32) (v11 : Vec Ideal S1x1024x256 .f32) (p : Fin 512) (j : Fin 1024) :
    k0_pay9 (F := Ideal) x0 v11 (ix2 p j)
      = ∑ d : Fin 256, (x0 (ix3 (0 : Fin 1) p d) * Ideal.ofBits .f32 0x40400000#32) * v11 (ix3 (0 : Fin 1) j d) := by
  unfold k0_pay9
  refine (Ideal.matmul_constant_zero_apply D1 none _ _ (ix2 p j)).trans ?_
  refine (Equiv.sum_comp (contrEquiv1 D1 256 rfl rfl).symm _).symm.trans ?_
  refine Finset.sum_congr rfl fun d _ => ?_
  rw [D1_lhs, D1_rhs]
  show (k0_pay7 x0 (ix2 p d) * _) * k0_pay8 v11 (ix2 j d) = _
  rw [pay7_apply, pay8_apply]
  rfl

/-! ## The running buffers' updates at an index -/

/-- The new running value of query row p: the larger of the old one and the row maximum of the scores. -/
theorem pay10_apply (x0 : Vec Ideal S1x512x256 .f32) (v11 : Vec Ideal S1x1024x256 .f32) (mv : Vec Ideal S512x1 .f32)
    (p : Fin 512) :
    k0_pay10 (F := Ideal) x0 v11 mv (ix2 p (0 : Fin 1))
      = max (mv (ix2 p (0 : Fin 1)))
          ((Finset.univ : Finset (Fin 1024)).fold max (⊥ : EReal) fun j => k0_pay9 (F := Ideal) x0 v11 (ix2 p j)) := by
  unfold k0_pay10
  refine (maximumf_apply mv _ (ix2 p (0 : Fin 1))).trans ?_
  refine congrArg (max (mv (ix2 p (0 : Fin 1)))) (((shapeCast_a_a1_apply _ _ p (0 : Fin 1)).trans
    (rowMax_apply (k0_pay9 (F := Ideal) x0 v11) _ _ _ _ p)).trans ?_)
  rw [neg_inf_f32]

/-- The rescaling factor of query row p: exp (old running value - new running value). -/
theorem pay11_apply (x0 : Vec Ideal S1x512x256 .f32) (v11 : Vec Ideal S1x1024x256 .f32) (mv : Vec Ideal S512x1 .f32)
    (i : S512x1.Idx) :
    k0_pay11 (F := Ideal) x0 v11 mv i = Ideal.exp (mv i - k0_pay10 (F := Ideal) x0 v11 mv i) := rfl

/-- The weight of key j for query row p: exp (score - new running value). -/
theorem pay12_apply (x0 : Vec Ideal S1x512x256 .f32) (v11 : Vec Ideal S1x1024x256 .f32) (mv : Vec Ideal S512x1 .f32)
    (p : Fin 512) (j : Fin 1024) :
    k0_pay12 (F := Ideal) x0 v11 mv (ix2 p j)
      = Ideal.exp (k0_pay9 (F := Ideal) x0 v11 (ix2 p j) - k0_pay10 (F := Ideal) x0 v11 mv (ix2 p (0 : Fin 1))) := by
  unfold k0_pay12
  show Ideal.exp (k0_pay9 x0 v11 (ix2 p j) - broadcastTo S512x1024 (k0_pay10 x0 v11 mv) _ (ix2 p j)) = _
  rw [broadcastTo_a1_ab_apply]

/-- The new denominator of query row p: the old one rescaled plus the block's weights. -/
theorem pay13_apply (x0 : Vec Ideal S1x512x256 .f32) (v11 : Vec Ideal S1x1024x256 .f32) (mv lv : Vec Ideal S512x1 .f32)
    (p : Fin 512) :
    k0_pay13 (F := Ideal) x0 v11 mv lv (ix2 p (0 : Fin 1))
      = k0_pay11 (F := Ideal) x0 v11 mv (ix2 p (0 : Fin 1)) * lv (ix2 p (0 : Fin 1))
          + ∑ j : Fin 1024, k0_pay12 (F := Ideal) x0 v11 mv (ix2 p j) := by
  unfold k0_pay13
  refine (congrFun (shapeCast_self _ _) (ix2 p (0 : Fin 1))).trans ?_
  show k0_pay11 x0 v11 mv (ix2 p (0 : Fin 1)) * lv (ix2 p (0 : Fin 1))
    + shapeCast S512x1 (multiReduction (F := Ideal) .add [1] S512 (k0_pay12 x0 v11 mv) 0x00000000#32 _ _ _) _ (ix2 p (0 : Fin 1)) = _
  rw [shapeCast_a_a1_apply]
  exact congrArg (k0_pay11 (F := Ideal) x0 v11 mv (ix2 p (0 : Fin 1)) * lv (ix2 p (0 : Fin 1)) + ·)
    (rowSum_apply (k0_pay12 (F := Ideal) x0 v11 mv) _ _ _ _ p)

theorem D2_lhs_0 (i : S512x256.Idx) (q : D2.contr.Idx) : (D2.lhsIdx i q 0).val = (i 0).val := by
  unfold DotDims.lhsIdx
  rw [dif_neg (show ¬(0 : Fin S512x1024.rank) ∈ D2.lhsBatch by decide), dif_pos (show (0 : Fin S512x1024.rank) ∈ D2.lhsNonContracting by decide)]
  rfl
theorem D2_lhs_1 (i : S512x256.Idx) (q : D2.contr.Idx) : (D2.lhsIdx i q 1).val = (q ⟨0, by decide⟩).val :=
  D2.lhsIdx_val_of_single rfl i q
theorem D2_rhs_0 (i : S512x256.Idx) (q : D2.contr.Idx) : (D2.rhsIdx i q 0).val = (q ⟨0, by decide⟩).val :=
  D2.rhsIdx_val_of_single rfl i q
theorem D2_rhs_1 (i : S512x256.Idx) (q : D2.contr.Idx) : (D2.rhsIdx i q 1).val = (i 1).val := by
  unfold DotDims.rhsIdx
  rw [dif_neg (show ¬(1 : Fin S1024x256.rank) ∈ D2.rhsBatch by decide), dif_pos (show (1 : Fin S1024x256.rank) ∈ D2.rhsNonContracting by decide)]
  rfl

/-- At output (p, d) and key j the second contraction reads the weight (p, j) and the key row j at d. -/
theorem D2_lhs (p : Fin 512) (d : Fin 256) (j : Fin 1024) :
    D2.lhsIdx (ix2 p d) ((contrEquiv1 D2 1024 rfl rfl).symm j) = ix2 p j :=
  funext fun a => Fin.ext (by
    have hk := contrEquiv1_symm_val D2 1024 rfl rfl j
    match a with
    | ⟨0, _⟩ => exact D2_lhs_0 _ _
    | ⟨1, _⟩ => exact (D2_lhs_1 _ _).trans hk)
theorem D2_rhs (p : Fin 512) (d : Fin 256) (j : Fin 1024) :
    D2.rhsIdx (ix2 p d) ((contrEquiv1 D2 1024 rfl rfl).symm j) = ix2 j d :=
  funext fun a => Fin.ext (by
    have hk := contrEquiv1_symm_val D2 1024 rfl rfl j
    match a with
    | ⟨0, _⟩ => exact (D2_rhs_0 _ _).trans hk
    | ⟨1, _⟩ => exact D2_rhs_1 _ _)

/-- The block's weighted sum of the key rows' entries d, for query row p. -/
theorem pay14_apply (x0 : Vec Ideal S1x512x256 .f32) (v11 : Vec Ideal S1x1024x256 .f32) (mv : Vec Ideal S512x1 .f32)
    (p : Fin 512) (d : Fin 256) :
    k0_pay14 (F := Ideal) x0 v11 mv (ix2 p d)
      = ∑ j : Fin 1024, k0_pay12 (F := Ideal) x0 v11 mv (ix2 p j) * v11 (ix3 (0 : Fin 1) j d) := by
  unfold k0_pay14
  refine (Ideal.matmul_constant_zero_apply D2 none _ _ (ix2 p d)).trans ?_
  refine (Equiv.sum_comp (contrEquiv1 D2 1024 rfl rfl).symm _).symm.trans ?_
  refine Finset.sum_congr rfl fun j _ => ?_
  rw [D2_lhs, D2_rhs]
  show k0_pay12 x0 v11 mv (ix2 p j) * k0_pay8 v11 (ix2 j d) = _
  rw [pay8_apply]

/-- The new numerator at (p, d): the old one rescaled plus the block's weighted sum. -/
theorem pay1_apply (v20 : FVec Ideal S512x1 .f32) (v33 : FVec Ideal S512x256 .f32) (av : Vec Ideal S512x256 .f32)
    (p : Fin 512) (d : Fin 256) :
    k0_pay1 (F := Ideal) v20 v33 av (ix2 p d) = v20 (ix2 p (0 : Fin 1)) * av (ix2 p d) + v33 (ix2 p d) := by
  unfold k0_pay1
  refine (congrFun (shapeCast_self _ _) (ix2 p d)).trans ?_
  show broadcastTo S512x256 v20 _ (ix2 p d) * av (ix2 p d) + v33 (ix2 p d) = _
  rw [broadcastTo_a1_ab_apply]

/-- What is stored in the running-value buffer is the new running value itself. -/
theorem pay2_eq (v18 : FVec Ideal S512x1 .f32) : k0_pay2 (F := Ideal) v18 = v18 := by
  unfold k0_pay2
  exact shapeCast_self _ _

/-! ## With real rows the score is a real number -/

/-- The score of a real query row q (row p of the block) against the real key row j: (the inner product) * 3. -/
theorem pay9_real (x0 : Vec Ideal S1x512x256 .f32) (v11 : Vec Ideal S1x1024x256 .f32) (p : Fin 512)
    (q : Fin 256 → ℝ) (k : Fin 1024 → Fin 256 → ℝ)
    (hq : ∀ d, x0 (ix3 (0 : Fin 1) p d) = ((q d : ℝ) : EReal))
    (hk : ∀ j d, v11 (ix3 (0 : Fin 1) j d) = ((k j d : ℝ) : EReal)) (j : Fin 1024) :
    k0_pay9 (F := Ideal) x0 v11 (ix2 p j) = (((∑ d : Fin 256, q d * k j d) * 3 : ℝ) : EReal) := by
  rw [pay9_apply, three_f32]
  simp only [hq, hk]
  rw [Finset.sum_mul, coe_finsum]
  refine Finset.sum_congr rfl fun d _ => ?_
  rw [← EReal.coe_mul, ← EReal.coe_mul]
  congr 1; ring

/-! ## One grid point keeps the blockwise-softmax invariant -/

/-- THE STEP, for keys of any type κ into which the block's 1024 key rows embed by e: if the three running numbers of
    query row p (at entry d of the numerator) satisfy the invariant after the keys S, and the block's keys are new,
    then what the grid point stores satisfies it after S and the block's keys. The scores s and values v are only
    constrained on the block: s (e j) is the real score of row p against key row j, v (e j) the key row's entry d. -/
theorem step_emb {κ : Type*} [DecidableEq κ]
    (x0 : Vec Ideal S1x512x256 .f32) (v11 : Vec Ideal S1x1024x256 .f32) (mv lv : Vec Ideal S512x1 .f32)
    (av : Vec Ideal S512x256 .f32) (p : Fin 512) (d : Fin 256)
    (q : Fin 256 → ℝ) (k : Fin 1024 → Fin 256 → ℝ)
    (hq : ∀ d', x0 (ix3 (0 : Fin 1) p d') = ((q d' : ℝ) : EReal))
    (hk : ∀ j d', v11 (ix3 (0 : Fin 1) j d') = ((k j d' : ℝ) : EReal))
    (e : Fin 1024 ↪ κ) (S : Finset κ) (s v : κ → ℝ)
    (hs : ∀ j, s (e j) = (∑ d' : Fin 256, q d' * k j d') * 3) (hv : ∀ j, v (e j) = k j d)
    (hS : Disjoint S (Finset.univ.map e))
    (h : OnlineInv S s v (mv (ix2 p (0 : Fin 1))) (lv (ix2 p (0 : Fin 1))) (av (ix2 p d))) :
    OnlineInv (S ∪ Finset.univ.map e) s v
      (k0_pay10 (F := Ideal) x0 v11 mv (ix2 p (0 : Fin 1)))
      (k0_pay13 (F := Ideal) x0 v11 mv lv (ix2 p (0 : Fin 1)))
      (k0_pay1 (F := Ideal) (k0_pay11 (F := Ideal) x0 v11 mv) (k0_pay14 (F := Ideal) x0 v11 mv) av (ix2 p d)) := by
  have hsc : ∀ j, k0_pay9 (F := Ideal) x0 v11 (ix2 p j) = ((s (e j) : ℝ) : EReal) := fun j => by
    rw [pay9_real x0 v11 p q k hq hk j, hs]
  obtain ⟨mb, hmb⟩ := fold_max_coe (fun j : Fin 1024 => s (e j)) Finset.univ Finset.univ_nonempty
  have h10 : k0_pay10 (F := Ideal) x0 v11 mv (ix2 p (0 : Fin 1)) = max (mv (ix2 p (0 : Fin 1))) (mb : EReal) := by
    rw [pay10_apply]; simp only [hsc]; rw [hmb]
  have h13 : k0_pay13 (F := Ideal) x0 v11 mv lv (ix2 p (0 : Fin 1))
      = Ideal.exp (mv (ix2 p (0 : Fin 1)) - max (mv (ix2 p (0 : Fin 1))) (mb : EReal)) * lv (ix2 p (0 : Fin 1))
        + ∑ c ∈ Finset.univ.map e, Ideal.exp ((s c : EReal) - max (mv (ix2 p (0 : Fin 1))) (mb : EReal)) := by
    rw [pay13_apply, pay11_apply, h10, Finset.sum_map]
    simp only [pay12_apply, hsc, h10]
  have h1 : k0_pay1 (F := Ideal) (k0_pay11 (F := Ideal) x0 v11 mv) (k0_pay14 (F := Ideal) x0 v11 mv) av (ix2 p d)
      = Ideal.exp (mv (ix2 p (0 : Fin 1)) - max (mv (ix2 p (0 : Fin 1))) (mb : EReal)) * av (ix2 p d)
        + ∑ c ∈ Finset.univ.map e, Ideal.exp ((s c : EReal) - max (mv (ix2 p (0 : Fin 1))) (mb : EReal)) * (v c : EReal) := by
    rw [pay1_apply, pay11_apply, pay14_apply, h10, Finset.sum_map]
    simp only [pay12_apply, hsc, h10, hk, hv]
  rw [h10, h13, h1]
  exact h.step hS mb

/-- The keys as (block, row in block); block n's keys. -/
def blockEmb (n : Fin 8) : Fin 1024 ↪ Fin 8 × Fin 1024 := ⟨fun j => (n, j), fun _ _ h => (Prod.mk.inj h).2⟩

theorem map_blockEmb (n : Fin 8) :
    Finset.univ.map (blockEmb n) = ({n} : Finset (Fin 8)) ×ˢ (Finset.univ : Finset (Fin 1024)) := by
  ext ⟨a, b⟩
  constructor
  · intro h
    obtain ⟨j, -, hj⟩ := Finset.mem_map.1 h
    have hab : (n, j) = (a, b) := hj
    obtain ⟨rfl, rfl⟩ := Prod.mk.inj hab
    exact Finset.mem_product.2 ⟨Finset.mem_singleton_self _, Finset.mem_univ _⟩
  · intro h
    obtain ⟨ha, -⟩ := Finset.mem_product.1 h
    have han : a = n := Finset.mem_singleton.1 ha
    subst han
    exact Finset.mem_map.2 ⟨b, Finset.mem_univ _, rfl⟩

/-- THE STEP with the keys indexed by (block, row in block): block n's keys are {n} × everything. -/
theorem step (x0 : Vec Ideal S1x512x256 .f32) (v11 : Vec Ideal S1x1024x256 .f32) (mv lv : Vec Ideal S512x1 .f32)
    (av : Vec Ideal S512x256 .f32) (p : Fin 512) (d : Fin 256)
    (q : Fin 256 → ℝ) (k : Fin 1024 → Fin 256 → ℝ)
    (hq : ∀ d', x0 (ix3 (0 : Fin 1) p d') = ((q d' : ℝ) : EReal))
    (hk : ∀ j d', v11 (ix3 (0 : Fin 1) j d') = ((k j d' : ℝ) : EReal))
    (n : Fin 8) (S : Finset (Fin 8 × Fin 1024)) (s v : Fin 8 × Fin 1024 → ℝ)
    (hs : ∀ j, s (n, j) = (∑ d' : Fin 256, q d' * k j d') * 3) (hv : ∀ j, v (n, j) = k j d)
    (hS : Disjoint S (({n} : Finset (Fin 8)) ×ˢ (Finset.univ : Finset (Fin 1024))))
    (h : OnlineInv S s v (mv (ix2 p (0 : Fin 1))) (lv (ix2 p (0 : Fin 1))) (av (ix2 p d))) :
    OnlineInv (S ∪ ({n} : Finset (Fin 8)) ×ˢ (Finset.univ : Finset (Fin 1024))) s v
      (k0_pay10 (F := Ideal) x0 v11 mv (ix2 p (0 : Fin 1)))
      (k0_pay13 (F := Ideal) x0 v11 mv lv (ix2 p (0 : Fin 1)))
      (k0_pay1 (F := Ideal) (k0_pay11 (F := Ideal) x0 v11 mv) (k0_pay14 (F := Ideal) x0 v11 mv) av (ix2 p d)) := by
  rw [← map_blockEmb] at hS ⊢
  exact step_emb x0 v11 mv lv av p d q k hq hk (blockEmb n) S s v hs hv hS h

/-! ## The end: the output block -/

/-- The kernel's y at (p, d): the query entry less 0.8 times numerator over denominator. -/
def yK (v4 : FVec Ideal S512x256 .f32) (accv : Vec Ideal S512x256 .f32) (lvv : Vec Ideal S512x1 .f32)
    (p : Fin 512) (d : Fin 256) : EReal :=
  v4 (ix2 p d) - Cert.Spec.c08 * Ideal.div (accv (ix2 p d)) (lvv (ix2 p (0 : Fin 1)))

/-- A [512, 256] array times the norms of its rows, at (p, d). -/
theorem timesRowNorm_apply (Y : FVec Ideal S512x256 .f32) (hr : S512x256.Reduces [1] S512) (hφ : FKind.Formats .f32)
    (hacc : (0x00000000#32 : BitVec 32) = FKind.add.neutral .f32 hφ) (hc : S512.ShapeCasts S512x1)
    (hb : S512x1.Broadcasts S512x256) (p : Fin 512) (d : Fin 256) :
    mulf Y (broadcastTo S512x256 (sqrt (shapeCast S512x1
        (multiReduction (F := Ideal) .add [1] S512 (mulf Y Y) 0x00000000#32 hr hφ hacc) hc)) hb) (ix2 p d)
      = Y (ix2 p d) * Ideal.sqrt (∑ d' : Fin 256, Y (ix2 p d') * Y (ix2 p d')) := by
  show Y (ix2 p d) * broadcastTo S512x256 _ hb (ix2 p d) = _
  rw [broadcastTo_a1_ab_apply]
  show Y (ix2 p d) * Ideal.sqrt (shapeCast S512x1 _ hc (ix2 p (0 : Fin 1))) = _
  rw [shapeCast_a_a1_apply]
  exact congrArg (fun t => Y (ix2 p d) * Ideal.sqrt t) (rowSum_apply (mulf Y Y) _ hr hφ hacc p)

/-- The output block at (u, p, d): y times the norm of y's row. -/
theorem pay3_apply (v4 : FVec Ideal S512x256 .f32) (accv : Vec Ideal S512x256 .f32) (lvv : Vec Ideal S512x1 .f32)
    (u : Fin 1) (p : Fin 512) (d : Fin 256) :
    k0_pay3 (F := Ideal) v4 accv lvv (ix3 u p d)
      = yK v4 accv lvv p d * Ideal.sqrt (∑ d' : Fin 256, yK v4 accv lvv p d' * yK v4 accv lvv p d') := by
  unfold k0_pay3
  refine (shapeCast_ab_1ab_apply _ _ u p d).trans ?_
  refine (timesRowNorm_apply _ _ _ _ _ _ p d).trans ?_
  have hy : ∀ d' : Fin 256,
      (subf v4 (mulf (broadcast S512x256 (Scalar.ofBits (F := Ideal) .f32 0x3F4CCCCD#32))
        (divf accv (broadcastTo S512x256 lvv Facts₀.broadcasts_S512x1_S512x256))) : FVec Ideal S512x256 .f32) (ix2 p d')
        = yK v4 accv lvv p d' := fun d' => by
    show v4 (ix2 p d') - _ * Ideal.div (accv (ix2 p d')) (broadcastTo S512x256 lvv _ (ix2 p d')) = _
    rw [broadcastTo_a1_ab_apply]
    rfl
  simp only [hy]

/-! ### The function of Spec.lean at real rows -/

/-- The real score of rows i and j: (the inner product) * 3. -/
def sReal (xr : Fin 8192 → Fin 256 → ℝ) (i j : Fin 8192) : ℝ := (∑ d : Fin 256, xr i d * xr j d) * 3

theorem score_real (X : Cert.Spec.Rows) (xr : Fin 8192 → Fin 256 → ℝ) (hX : ∀ r d, X r d = ((xr r d : ℝ) : EReal))
    (i j : Fin 8192) : Cert.Spec.score X i j = ((sReal xr i j : ℝ) : EReal) := by
  unfold Cert.Spec.score sReal
  rw [zero_add, c3_eq, EReal.coe_mul, coe_finsum]
  simp only [hX, EReal.coe_mul]

theorem rowMax_real (X : Cert.Spec.Rows) (xr : Fin 8192 → Fin 256 → ℝ) (hX : ∀ r d, X r d = ((xr r d : ℝ) : EReal))
    (i : Fin 8192) : ∃ M : ℝ, Cert.Spec.rowMax X i = (M : EReal) := by
  obtain ⟨M, hM⟩ := fold_max_coe (fun j : Fin 8192 => sReal xr i j) Finset.univ Finset.univ_nonempty
  refine ⟨M, ?_⟩
  unfold Cert.Spec.rowMax
  simp only [score_real X xr hX]
  rw [hM]
  exact max_eq_right bot_le

/-- The whole-row softmax average of Spec.lean at real rows is the softmax average of the real scores. -/
theorem attn_real (X : Cert.Spec.Rows) (xr : Fin 8192 → Fin 256 → ℝ) (hX : ∀ r d, X r d = ((xr r d : ℝ) : EReal))
    (i : Fin 8192) (d : Fin 256) :
    Cert.Spec.attn X i d = ((softmaxAvg Finset.univ (sReal xr i) (fun j => xr j d) : ℝ) : EReal) := by
  obtain ⟨M, hM⟩ := rowMax_real X xr hX i
  unfold Cert.Spec.attn Cert.Spec.denom Cert.Spec.expo
  simp only [score_real X xr hX, hM, hX, zero_add]
  exact softmax_whole Finset.univ_nonempty (sReal xr i) (fun j => xr j d) M

/-- A softmax average over all keys does not depend on how the keys are named. -/
theorem softmaxAvg_equiv {κ : Type*} [Fintype κ] (e : κ ≃ Fin 8192) (s v : Fin 8192 → ℝ) :
    softmaxAvg Finset.univ (fun c => s (e c)) (fun c => v (e c)) = softmaxAvg Finset.univ s v := by
  unfold softmaxAvg
  rw [Equiv.sum_comp e (fun j => Real.exp (s j) * v j), Equiv.sum_comp e (fun j => Real.exp (s j))]

/-- THE END. Query row p of the block is row i of the half's real rows X; the keys are named by κ through e (for the
    kernel κ = Fin 8 × Fin 1024), with s c the real score of row i against row e c and v d c the entry d of row e c.
    If for every entry d the numerator at (p, d) and the denominator at p satisfy the invariant after ALL keys, the
    output block at (u, p, d) is Spec.smooth X i d. -/
theorem finish {κ : Type*} [Fintype κ] [DecidableEq κ]
    (x0 : Vec Ideal S1x512x256 .f32) (accv : Vec Ideal S512x256 .f32) (lvv : Vec Ideal S512x1 .f32)
    (X : Cert.Spec.Rows) (xr : Fin 8192 → Fin 256 → ℝ) (hX : ∀ r d, X r d = ((xr r d : ℝ) : EReal))
    (i : Fin 8192) (p : Fin 512) (hx0 : ∀ d, x0 (ix3 (0 : Fin 1) p d) = X i d)
    (e : κ ≃ Fin 8192) (s : κ → ℝ) (v : Fin 256 → κ → ℝ)
    (hs : ∀ c, s c = sReal xr i (e c)) (hv : ∀ d c, v d c = xr (e c) d)
    (hinv : ∀ d, ∃ m : EReal, OnlineInv Finset.univ s (v d) m (lvv (ix2 p (0 : Fin 1))) (accv (ix2 p d)))
    (u : Fin 1) (d : Fin 256) :
    k0_pay3 (F := Ideal) (k0_pay7 (F := Ideal) x0) accv lvv (ix3 u p d) = Cert.Spec.smooth X i d := by
  haveI : Nonempty κ := ⟨e.symm ⟨0, by norm_num⟩⟩
  have hdiv : ∀ d', Ideal.div (accv (ix2 p d')) (lvv (ix2 p (0 : Fin 1))) = Cert.Spec.attn X i d' := fun d' => by
    obtain ⟨m, h⟩ := hinv d'
    rw [h.div_eq Finset.univ_nonempty, attn_real X xr hX i d', ← softmaxAvg_equiv e]
    congr 2
    · exact funext hs
    · exact funext (hv d')
  have hyK : ∀ d', yK (k0_pay7 (F := Ideal) x0) accv lvv p d' = Cert.Spec.y X i d' := fun d' => by
    unfold yK Cert.Spec.y
    rw [pay7_apply, hx0, hdiv]
  rw [pay3_apply]
  simp only [hyK]
  unfold Cert.Spec.smooth
  rw [c1_eq, mul_one, zero_add]

end Cert.KernelIdeal.Step

end
-- ==== Proof.KiInd.lean ====
/-
  The kernel's result array is the specification's smoothing of the stacked rows, when the stacked rows are real.

  Fix a half b and a query row i = 512*qi + p. The keys are the 8192 rows of the half, taken as (block n, row j in the
  block) ↦ row 1024*n + j. Over the eight points of the pair (b, qi) the three running buffers at row p (and entry d for
  the numerator) satisfy the online-softmax invariant for the blocks processed so far: at the first block from the
  starting values (-inf, 0, 0), at each later block from what the point before left — one step of the invariant each.
  After the eighth block all keys are processed, and the stored output y * |y| with y = x - 0.8 * (numerator /
  denominator) is the specification's value at (i, d). The 32 write-backs tile the result array.
-/
import proofs.«146094_j20349555048597_2_alg».proof.Proof.Gen.KernelIdeal.Launch
import proofs.«146094_j20349555048597_2_alg».proof.Proof.Gen.KernelIdeal.Skeleton
import proofs.«146094_j20349555048597_2_alg».proof.Proof.Gen.KernelIdeal.Points
import Idealize.ShloMosaic.Lib.Pipeline.FrameBody
import Idealize.ShloMosaic.Lib.Pipeline.Regions
import Idealize.ShloMosaic.Lib.Tactic
import Idealize.ShloMosaic.Lib.Ring
import Idealize.ShloMosaic.Lib.ValueIdx
import Idealize.ShloMosaic.Lib.Pipeline.Value
import proofs.«146094_j20349555048597_2_alg».proof.Proof.KiValue
import proofs.«146094_j20349555048597_2_alg».proof.Proof.KiStep
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Lib Cert.KernelIdeal.Step

/-- The keys of a half as (block, row in block). -/
def keyEquiv : Fin 8 × Fin 1024 ≃ Fin 8192 where
  toFun k := ⟨1024 * k.1.val + k.2.val, by have := k.1.isLt; have := k.2.isLt; omega⟩
  invFun r := (⟨r.val / 1024, by have := r.isLt; omega⟩, ⟨r.val % 1024, Nat.mod_lt _ (by decide)⟩)
  left_inv k := by
    have h1 := k.1.isLt; have h2 := k.2.isLt
    refine Prod.ext (Fin.ext ?_) (Fin.ext ?_)
    · show (1024 * k.1.val + k.2.val) / 1024 = k.1.val; omega
    · show (1024 * k.1.val + k.2.val) % 1024 = k.2.val; omega
  right_inv r := by
    refine Fin.ext ?_
    show 1024 * (r.val / 1024) + r.val % 1024 = r.val; omega

/-- The keys of the blocks before block n. -/
def Sset (n : ℕ) : Finset (Fin 8 × Fin 1024) := Finset.univ.filter fun k => k.1.val < n

theorem Sset_zero : Sset 0 = ∅ := by
  unfold Sset; exact Finset.filter_false_of_mem (fun k _ => Nat.not_lt_zero _)

theorem Sset_eight : Sset 8 = Finset.univ := by
  unfold Sset; exact Finset.filter_true_of_mem (fun k _ => k.1.isLt)

theorem Sset_succ (n : ℕ) (hn : n < 8) :
    Sset (n + 1) = Sset n ∪ (({(⟨n, hn⟩ : Fin 8)} : Finset (Fin 8)) ×ˢ (Finset.univ : Finset (Fin 1024))) := by
  ext k
  simp only [Sset, Finset.mem_filter, Finset.mem_univ, true_and, Finset.mem_union, Finset.mem_product, Finset.mem_singleton, and_true]
  constructor
  · intro h
    by_cases hk : k.1.val < n
    · exact Or.inl hk
    · exact Or.inr (Fin.ext (by show k.1.val = n; omega))
  · rintro (h | h)
    · omega
    · rw [h]; show n < n + 1; omega

theorem Sset_disjoint (n : ℕ) (hn : n < 8) :
    Disjoint (Sset n) (({(⟨n, hn⟩ : Fin 8)} : Finset (Fin 8)) ×ˢ (Finset.univ : Finset (Fin 1024))) := by
  rw [Finset.disjoint_left]
  intro k hk hk'
  simp only [Sset, Finset.mem_filter, Finset.mem_univ, true_and] at hk
  simp only [Finset.mem_product, Finset.mem_singleton, Finset.mem_univ, and_true] at hk'
  rw [hk'] at hk; exact Nat.lt_irrefl _ hk

variable (m : (ℓ : Loc nD τ sig) → Buf (Elt Ideal) ℓ) (c : Dev nD)
variable (Xr : Fin 2 → Fin 8192 → Fin 256 → ℝ)
variable (hX : ∀ b r d, (V m c main_v22 : S2x8192x256.Idx → EReal) (ix3 b r d) = ((Xr b r d : ℝ) : EReal))

/-- The scores of query row p of point t against the keys, and the keys' entries d. -/
def sOf (t : Fin cfg0.N) (p : Fin 512) (k : Fin 8 × Fin 1024) : ℝ := sReal (Xr (halfOf t)) (qrow t p) (keyEquiv k)
def vOf (t : Fin cfg0.N) (d : Fin 256) (k : Fin 8 × Fin 1024) : ℝ := Xr (halfOf t) (keyEquiv k) d

include hX in
theorem x0_real (t : Fin cfg0.N) (p : Fin 512) (d : Fin 256) :
    (iblk m c 0 t : S1x512x256.Idx → EReal) (ix3 (0 : Fin 1) p d) = ((Xr (halfOf t) (qrow t p) d : ℝ) : EReal) := by
  rw [iblk0_apply]; exact hX _ _ _

include hX in
theorem kb_real (t : Fin cfg0.N) (j : Fin 1024) (d : Fin 256) :
    (kblk (grid0.coords t) (iblk m c 1 t) : S1x1024x256.Idx → EReal) (ix3 (0 : Fin 1) j d) = ((Xr (halfOf t) (krow t j) d : ℝ) : EReal) := by
  rw [kblk_apply]; exact hX _ _ _

theorem key_of_block (t : Fin cfg0.N) (j : Fin 1024) :
    keyEquiv ((⟨t.val % 8, Nat.mod_lt _ (by decide)⟩ : Fin 8), j) = krow t j := Fin.ext rfl

/-- A point that is not a first key block belongs to the pair of the point before it. -/
theorem half_pred (n : ℕ) (hn : n < cfg0.N) (h0 : ¬n % 8 = 0) :
    halfOf ⟨n - 1, Nat.lt_of_le_of_lt (Nat.sub_le _ _) hn⟩ = halfOf ⟨n, hn⟩ := Fin.ext (by show (n - 1) / 128 = n / 128; omega)
theorem qrow_pred (n : ℕ) (hn : n < cfg0.N) (h0 : ¬n % 8 = 0) (p : Fin 512) :
    qrow ⟨n - 1, Nat.lt_of_le_of_lt (Nat.sub_le _ _) hn⟩ p = qrow ⟨n, hn⟩ p :=
  Fin.ext (by show 512 * ((n - 1) / 8 % 16) + p.val = 512 * (n / 8 % 16) + p.val; omega)

include hX in
/-- THE INVARIANT at every point: after the body at point t the running buffers at row p (entry d) satisfy the
    online-softmax invariant for the blocks 0 .. t mod 8. -/
theorem inv_at : ∀ (n : ℕ) (hn : n < cfg0.N) (p : Fin 512) (d : Fin 256),
    OnlineInv (Sset (n % 8 + 1)) (sOf Xr ⟨n, hn⟩ p) (vOf Xr ⟨n, hn⟩ d)
      ((outsAt m c n hn).2.1 (ix2 p (0 : Fin 1))) ((outsAt m c n hn).2.2.1 (ix2 p (0 : Fin 1))) ((outsAt m c n hn).2.2.2 (ix2 p d)) := by
  intro n
  induction n with
  | zero =>
    intro hn p d
    have h0 : (⟨0, hn⟩ : Fin cfg0.N).val % 8 = 0 := rfl
    have h1 : ¬(⟨0, hn⟩ : Fin cfg0.N).val % 8 = 7 := by show ¬(0 % 8 = 7); decide
    rw [outsAt_A m c ⟨0, hn⟩ h0 h1]
    unfold caseA; dsimp only
    rw [sout_A_M_eq, sout_A_L_eq, sout_A_A_eq, pay2_eq, show (0 % 8 + 1) = 0 + 1 from rfl, Sset_succ 0 (by decide), Sset_zero]
    refine step _ _ _ _ _ p d (fun d' => Xr (halfOf ⟨0, hn⟩) (qrow ⟨0, hn⟩ p) d') (fun j d' => Xr (halfOf ⟨0, hn⟩) (krow ⟨0, hn⟩ j) d')
      (fun d' => x0_real m c Xr hX _ p d') (fun j d' => kb_real m c Xr hX _ j d') ⟨0, by decide⟩ ∅ _ _ (fun j => ?_) (fun j => ?_)
      (Finset.disjoint_empty_left _) ?_
    · show sReal _ _ (keyEquiv (⟨0, _⟩, j)) = _; rfl
    · rfl
    · rw [pay4_apply, pay5_apply, pay6_apply]; exact OnlineInv.init _ _
  | succ n ih =>
    intro hn p d
    have hN : n + 1 < 256 := lt_of_lt_of_eq hn (show cfg0.N = 256 from N_0)
    have hprev := ih (Nat.lt_of_succ_lt hn) p d
    by_cases h0 : (n + 1) % 8 = 0
    · have h1 : ¬(n + 1) % 8 = 7 := by omega
      rw [outsAt_A m c ⟨n + 1, hn⟩ h0 h1]
      unfold caseA; dsimp only
      rw [sout_A_M_eq, sout_A_L_eq, sout_A_A_eq, pay2_eq, h0, Sset_succ 0 (by decide), Sset_zero]
      refine step _ _ _ _ _ p d (fun d' => Xr (halfOf ⟨n + 1, hn⟩) (qrow ⟨n + 1, hn⟩ p) d') (fun j d' => Xr (halfOf ⟨n + 1, hn⟩) (krow ⟨n + 1, hn⟩ j) d')
        (fun d' => x0_real m c Xr hX _ p d') (fun j d' => kb_real m c Xr hX _ j d') ⟨0, by decide⟩ ∅ _ _ (fun j => ?_) (fun j => ?_)
        (Finset.disjoint_empty_left _) ?_
      · show sReal _ _ (keyEquiv (⟨0, _⟩, j)) = _
        have : keyEquiv ((⟨0, by decide⟩ : Fin 8), j) = krow ⟨n + 1, hn⟩ j := Fin.ext (by show 1024 * 0 + j.val = 1024 * ((n + 1) % 8) + j.val; omega)
        rw [this]; rfl
      · show Xr _ (keyEquiv (⟨0, _⟩, j)) d = _
        have : keyEquiv ((⟨0, by decide⟩ : Fin 8), j) = krow ⟨n + 1, hn⟩ j := Fin.ext (by show 1024 * 0 + j.val = 1024 * ((n + 1) % 8) + j.val; omega)
        rw [this]
      · rw [pay4_apply, pay5_apply, pay6_apply]; exact OnlineInv.init _ _
    · have hk : (n + 1) % 8 < 8 := Nat.mod_lt _ (by decide)
      have hS : n % 8 + 1 = (n + 1) % 8 := by omega
      have hs : sOf Xr ⟨n, Nat.lt_of_succ_lt hn⟩ p = sOf Xr ⟨n + 1, hn⟩ p := by
        funext k; unfold sOf
        rw [show halfOf ⟨n, Nat.lt_of_succ_lt hn⟩ = halfOf ⟨n + 1, hn⟩ from half_pred (n + 1) hn h0,
          show qrow ⟨n, Nat.lt_of_succ_lt hn⟩ p = qrow ⟨n + 1, hn⟩ p from qrow_pred (n + 1) hn h0 p]
      have hv : vOf Xr ⟨n, Nat.lt_of_succ_lt hn⟩ d = vOf Xr ⟨n + 1, hn⟩ d := by
        funext k; unfold vOf
        rw [show halfOf ⟨n, Nat.lt_of_succ_lt hn⟩ = halfOf ⟨n + 1, hn⟩ from half_pred (n + 1) hn h0]
      rw [hs, hv, hS] at hprev
      have key : ∀ j : Fin 1024, keyEquiv ((⟨(n + 1) % 8, hk⟩ : Fin 8), j) = krow ⟨n + 1, hn⟩ j := fun j => Fin.ext rfl
      by_cases h1 : (n + 1) % 8 = 7
      · rw [outsAt_C m c ⟨n + 1, hn⟩ h0 h1]
        unfold caseC; dsimp only
        rw [sout_C_M_eq, sout_C_L_eq, sout_C_A_eq, pay2_eq, Sset_succ ((n + 1) % 8) hk]
        refine step _ _ _ _ _ p d (fun d' => Xr (halfOf ⟨n + 1, hn⟩) (qrow ⟨n + 1, hn⟩ p) d') (fun j d' => Xr (halfOf ⟨n + 1, hn⟩) (krow ⟨n + 1, hn⟩ j) d')
          (fun d' => x0_real m c Xr hX _ p d') (fun j d' => kb_real m c Xr hX _ j d') ⟨(n + 1) % 8, hk⟩ (Sset ((n + 1) % 8)) _ _ (fun j => ?_) (fun j => ?_)
          (Sset_disjoint _ hk) hprev
        · show sReal _ _ (keyEquiv (⟨(n + 1) % 8, hk⟩, j)) = _; rw [key]; rfl
        · show Xr _ (keyEquiv (⟨(n + 1) % 8, hk⟩, j)) d = _; rw [key]
      · rw [outsAt_B m c ⟨n + 1, hn⟩ h0 h1]
        unfold caseB; dsimp only
        rw [sout_B_M_eq, sout_B_L_eq, sout_B_A_eq, pay2_eq, Sset_succ ((n + 1) % 8) hk]
        refine step _ _ _ _ _ p d (fun d' => Xr (halfOf ⟨n + 1, hn⟩) (qrow ⟨n + 1, hn⟩ p) d') (fun j d' => Xr (halfOf ⟨n + 1, hn⟩) (krow ⟨n + 1, hn⟩ j) d')
          (fun d' => x0_real m c Xr hX _ p d') (fun j d' => kb_real m c Xr hX _ j d') ⟨(n + 1) % 8, hk⟩ (Sset ((n + 1) % 8)) _ _ (fun j => ?_) (fun j => ?_)
          (Sset_disjoint _ hk) hprev
        · show sReal _ _ (keyEquiv (⟨(n + 1) % 8, hk⟩, j)) = _; rw [key]; rfl
        · show Xr _ (keyEquiv (⟨(n + 1) % 8, hk⟩, j)) d = _; rw [key]

end Cert.KernelIdeal.Hand

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.LibPair.lean ====
/-
  Two arrays joined, read at an index; a scalar repeated, read at an index.

  Joining two arrays along an axis gives an array whose coordinate on that axis runs first through the first piece and
  then through the second: a coordinate below the first piece's extent reads the first piece at the same index, a
  coordinate `n₁ + j` reads the second piece with `j` on that axis. Stated for two matrices side by side (columns), two
  matrices one above the other (rows), and two vectors end to end. A scalar repeated over any shape reads the scalar
  everywhere.
-/
import Idealize.ShloMosaic.Lib.Pipeline.Value
import Idealize.ShloMosaic.Lib.ValueIdx

noncomputable section

namespace Cert.Lib

open Idealize.ShloMosaic Idealize.ShloMosaic.ValueIdx

variable {α : Type}

/-- A scalar repeated over a shape reads the scalar at every index. -/
theorem splat_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 fun a => a.elim0

/-- Two matrices side by side: a column of the first. -/
theorem pair_cols_left {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₁) (hj : j.val < C) :
    concatenate ⟨2, ![R, C]⟩ 1 [⟨⟨2, ![R, n₁]⟩, x₁⟩, ⟨⟨2, ![R, n₂]⟩, x₂⟩] h (ix2 r ⟨j.val, hj⟩) = x₁ (ix2 r j) :=
  concatenate_pair_apply_left 1 x₁ x₂ h _ rfl (ix2 r j) (fun b => match b with | ⟨0, _⟩ => rfl | ⟨1, _⟩ => rfl)

/-- Two matrices side by side: a column of the second. -/
theorem pair_cols_right {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₂) (hj : n₁ + j.val < C) :
    concatenate ⟨2, ![R, C]⟩ 1 [⟨⟨2, ![R, n₁]⟩, x₁⟩, ⟨⟨2, ![R, n₂]⟩, x₂⟩] h (ix2 r ⟨n₁ + j.val, hj⟩) = x₂ (ix2 r j) :=
  concatenate_pair_apply_right 1 x₁ x₂ h _ rfl rfl (ix2 r j)
    (fun b hb => match b with | ⟨0, _⟩ => rfl | ⟨1, _⟩ => absurd rfl hb)
    (by show j.val + n₁ = n₁ + j.val; omega)

/-- Two matrices one above the other: a row of the first. -/
theorem pair_rows_top {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₁) (c : Fin C) (hi : i.val < A) :
    concatenate ⟨2, ![A, C]⟩ 0 [⟨⟨2, ![a₁, C]⟩, x₁⟩, ⟨⟨2, ![a₂, C]⟩, x₂⟩] h (ix2 ⟨i.val, hi⟩ c) = x₁ (ix2 i c) :=
  concatenate_pair_apply_left 0 x₁ x₂ h _ rfl (ix2 i c) (fun b => match b with | ⟨0, _⟩ => rfl | ⟨1, _⟩ => rfl)

/-- Two matrices one above the other: a row of the second. -/
theorem pair_rows_bottom {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₂) (c : Fin C) (hi : a₁ + i.val < A) :
    concatenate ⟨2, ![A, C]⟩ 0 [⟨⟨2, ![a₁, C]⟩, x₁⟩, ⟨⟨2, ![a₂, C]⟩, x₂⟩] h (ix2 ⟨a₁ + i.val, hi⟩ c) = x₂ (ix2 i c) :=
  concatenate_pair_apply_right 0 x₁ x₂ h _ rfl rfl (ix2 i c)
    (fun b hb => match b with | ⟨0, _⟩ => absurd rfl hb | ⟨1, _⟩ => rfl)
    (by show i.val + a₁ = a₁ + i.val; omega)

/-- Two vectors end to end: an entry of the first. -/
theorem pair_vec_left {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₁) (hj : j.val < N) :
    concatenate ⟨1, ![N]⟩ 0 [⟨⟨1, ![n₁]⟩, x₁⟩, ⟨⟨1, ![n₂]⟩, x₂⟩] h (ix1 ⟨j.val, hj⟩) = x₁ (ix1 j) :=
  concatenate_pair_apply_left 0 x₁ x₂ h _ rfl (ix1 j) (fun b => match b with | ⟨0, _⟩ => rfl)

/-- Two vectors end to end: an entry of the second. -/
theorem pair_vec_right {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₂) (hj : n₁ + j.val < N) :
    concatenate ⟨1, ![N]⟩ 0 [⟨⟨1, ![n₁]⟩, x₁⟩, ⟨⟨1, ![n₂]⟩, x₂⟩] h (ix1 ⟨n₁ + j.val, hj⟩) = x₂ (ix1 j) :=
  concatenate_pair_apply_right 0 x₁ x₂ h _ rfl rfl (ix1 j)
    (fun b hb => match b with | ⟨0, _⟩ => absurd rfl hb)
    (by show j.val + n₁ = n₁ + j.val; omega)

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«146094_j20349555048597_2_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibSumColumn.lean ====
/-
  Row sums laid as a column, read at an index.

  The host sums each row of an `[R, K]` array from an initial value and lays the `R` sums out as an `[R, 1]` column. Read on
  the extended reals at `(r, 0)` this is the initial value plus the sum of row `r`'s `K` entries. The companion fact: an
  array of `R·K` numbers reshaped to `[R, K]`, from a flat vector or from a one-column matrix, has flat entry `K r + a` at
  `(r, a)`.
-/
import Idealize.ShloMosaic.PureOps.Ideal.Laws
import Idealize.ShloMosaic.Lib.ValueIdx
import Idealize.ShloMosaic.Lib.Pipeline.Value
import proofs.«146094_j20349555048597_2_alg».proof.Proof.LibRowSum

noncomputable section

namespace Cert.Lib

open Idealize.ShloMosaic Idealize.ShloMosaic.ValueIdx
open scoped BigOperators

variable {R K : ℕ}

/-- The column of row sums at `i`: the initial value plus the sum of row `i 0`. -/
theorem rowSums_column_apply {φ : FTy} {u : Shape} (O : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (hb : (⟨1, ![R]⟩ : Shape).BroadcastsInDim ⟨2, ![R, 1]⟩ (![0] : Fin 1 → Fin 2))
    (i : (⟨2, ![R, 1]⟩ : Shape).Idx) :
    broadcastInDim ⟨2, ![R, 1]⟩ ![0] hb (Host.reduceAdd O init h' hu) i
      = init (Shape.Idx.first hu) + ∑ k : Fin K, O (ix2 (i 0) k) := by
  refine (broadcastInDim_apply _ hb _ i (ix1 (i 0)) fun a => ?_).trans (hostReduceAdd_rows O init h' h hu (i 0))
  match a with
  | ⟨0, _⟩ =>
    show (i 0).val = if R = 1 then 0 else (i 0).val
    have hlt : (i 0).val < R := (i 0).isLt
    split
    · omega
    · rfl

/-- A flat vector of `R·K` entries reshaped to `[R, K]`: entry `(r, a)` is flat entry `K r + a`. -/
theorem reshape_flat_apply {α : Type} {n : ℕ} (x : (⟨1, ![n]⟩ : Shape).Idx → α)
    (h : (⟨1, ![n]⟩ : Shape).ShapeCasts ⟨2, ![R, K]⟩) (r : Fin R) (a : Fin K) (j : Fin n) (hj : j.val = r.val * K + a.val) :
    shapeCast ⟨2, ![R, K]⟩ x h (ix2 r a) = x (ix1 j) :=
  shapeCast_apply x h _ _ (by
    rw [Shape.rowMajor_val_two, Shape.rowMajor_val_one]
    exact hj)

/-- A one-column matrix of `R·K` rows reshaped to `[R, K]`: entry `(r, a)` is row `K r + a`. -/
theorem reshape_column_apply {α : Type} {n : ℕ} (x : (⟨2, ![n, 1]⟩ : Shape).Idx → α)
    (h : (⟨2, ![n, 1]⟩ : Shape).ShapeCasts ⟨2, ![R, K]⟩) (r : Fin R) (a : Fin K) (j : Fin n) (hj : j.val = r.val * K + a.val) :
    shapeCast ⟨2, ![R, K]⟩ x h (ix2 r a) = x (ix2 j (0 : Fin 1)) :=
  shapeCast_apply x h _ _ (by
    rw [Shape.rowMajor_val_two, Shape.rowMajor_val_two]
    show j.val * 1 + 0 = r.val * K + a.val
    omega)

end Cert.Lib

end
-- ==== Proof.KiHost.lean ====
/-
  The host operations around the kernel, read at an index on the extended reals.

  Before the kernel: two tables' rows are selected by index vectors; each selected row g is divided by its Euclidean
  norm sqrt (0 + sum_k g_k^2); the two normalized halves are stacked into one array of shape [2, 8192, 256]. So the
  stacked array at (b, r, d) is g_b(r, d) / sqrt (0 + sum_k g_b(r, k)^2), with g_0, g_1 the selected rows.
  After the kernel: the two halves Y0, Y1 of the kernel's output are multiplied entry by entry and summed along each
  row, and the result is -(sum_r log (1 / (1 + exp (-(Y0 r . Y1 r))))) / 8192.
  The precondition says that every table entry is a real number and that every selected row has a positive sum of
  squares; so the selected rows are real with nonzero norm, and the stacked normalized rows are real.
-/
import proofs.«146094_j20349555048597_2_alg».proof.Proof.KiOuts
import proofs.«146094_j20349555048597_2_alg».proof.Proof.Spec
import proofs.«146094_j20349555048597_2_alg».proof.Proof.LibRowNormalize
import proofs.«146094_j20349555048597_2_alg».proof.Proof.LibSlabs
import proofs.«146094_j20349555048597_2_alg».proof.Proof.LibRealEntries
import proofs.«146094_j20349555048597_2_alg».proof.Proof.LibPair
import proofs.«146094_j20349555048597_2_alg».proof.Proof.LibSumColumn
import proofs.«146094_j20349555048597_2_alg».proof.Defs
import proofs.«146094_j20349555048597_2_alg».proof.Proof.Gen.Pre_finite_inputs
import Idealize.ShloMosaic.Lib.ReduceAll
import Idealize.ShloMosaic.Lib.ValueIdx
import Idealize.ShloMosaic.Lib.IdealHost
import Idealize.ShloMosaic.Lib.Pipeline.Value
import Idealize.ShloMosaic.Lib.ValueLayout
import Idealize.ShloMosaic.Lib.StableHlo.Run
set_option maxRecDepth 16384

noncomputable section

namespace Cert.KernelIdeal.Host

open Cert.KernelIdeal Cert.KernelIdeal.Gen
open Idealize.ShloMosaic Idealize.ShloMosaic.TcCoe Idealize.ShloMosaic.ValueIdx
open Idealize.ShloMosaic.StableHlo (after_cons after_nil)
open scoped BigOperators

/-! ## Host operations read at an index -/

theorem hostNegf_apply {s : Shape} {φ : FTy} (a : FVec Ideal s φ) (i : s.Idx) : Host.negf a i = -(a i) := rfl
theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl
theorem hostSqrt_apply {s : Shape} {φ : FTy} (a : FVec Ideal s φ) (i : s.Idx) : Host.sqrt a i = Ideal.sqrt (a i) := rfl

/-- The indices of a vector are its coordinates. -/
def idxEquiv1 {N : ℕ} : (⟨1, ![N]⟩ : Shape).Idx ≃ Fin N where
  toFun j := j 0
  invFun k := ix1 k
  left_inv j := (eq_ix1 j).symm
  right_inv k := rfl

/-- A sum over a vector's indices is the sum over its coordinates. -/
theorem sum_idx1 {M : Type*} [AddCommMonoid M] {N : ℕ} (f : (⟨1, ![N]⟩ : Shape).Idx → M) :
    ∑ j, f j = ∑ k : Fin N, f (ix1 k) :=
  Fintype.sum_equiv idxEquiv1 f (fun k => f (ix1 k)) (fun j => congrArg f (eq_ix1 j))

/-- The host's sum of a whole vector: the initial value plus the sum of its entries. -/
theorem hostReduceAdd_vec {φ : FTy} {u : Shape} {N : ℕ} (x : FVec Ideal ⟨1, ![N]⟩ φ) (init : u.Idx → Ideal φ)
    (h' : (⟨1, ![N]⟩ : Shape).ReducesTo [0] (⟨0, ![]⟩ : Shape)) (hu : 0 < u.numel) :
    Host.reduceAdd x init h' hu ix0 = init (Shape.Idx.first hu) + ∑ k : Fin N, x (ix1 k) := by
  unfold Host.reduceAdd
  rw [Ideal.hostReduceAdd_def, Ideal.hostReduceAdd_total h' (fun b => b.elim0), sum_idx1]

/-! ## The operations before the kernel -/

/-- Rows and columns of a matrix-shaped array. -/
def rows2 (g : S8192x256.Idx → EReal) : Cert.Spec.Rows := fun r d => g (ix2 r d)

/-- A one-column array broadcast along its rows (axes kept in place) reads, at `(r, n)`, the column's entry `r`. -/
theorem cols_of_oneCol {α : Type} {R N : ℕ}
    (hb : (⟨2, ![R, 1]⟩ : Shape).BroadcastsInDim ⟨2, ![R, N]⟩ (![0, 1] : Fin 2 → Fin 2))
    (v : (⟨2, ![R, 1]⟩ : Shape).Idx → α) (r : Fin R) (n : Fin N) :
    broadcastInDim ⟨2, ![R, N]⟩ ![0, 1] hb v (ix2 r n) = v (ix2 r (0 : Fin 1)) :=
  broadcastInDim_apply _ hb v (ix2 r n) (ix2 r (0 : Fin 1)) (fun a => match a with
    | ⟨0, _⟩ => by
      show r.val = if R = 1 then 0 else r.val
      have h1 : r.val < R := r.isLt
      split
      · omega
      · rfl
    | ⟨1, _⟩ => by
      show (0 : ℕ) = if (1 : ℕ) = 1 then 0 else n.val
      rw [if_pos rfl])

/-- The column of row norms of an array of rows, as the norm function's operations compute it. -/
def normTerm (g : FVec Ideal S8192x256 .f32) : FVec Ideal S8192x1 .f32 :=
  Host.sqrt (broadcastInDim S8192x1 ![0] bcast_S8192_S8192x1_0
    (Host.reduceAdd (mulf g g) (constant (F := Ideal) S_ .f32 0x00000000#32) reducesTo_S8192x256_S8192_d1 h_S_))

/-- Rows divided, entry by entry, by a column of divisors spread along the rows. -/
def quotTerm (g : FVec Ideal S8192x256 .f32) (n : FVec Ideal S8192x1 .f32) : FVec Ideal S8192x256 .f32 :=
  Host.divf g (broadcastInDim S8192x256 ![0, 1] bcast_S8192x1_S8192x256_0_1 n)

/-- Two arrays of rows stacked under a new leading axis, the second divided by a column of divisors first. -/
def stackTerm (a b : FVec Ideal S8192x256 .f32) (n : FVec Ideal S8192x1 .f32) : FVec Ideal S2x8192x256 .f32 :=
  concatenate S2x8192x256 0
    [⟨S1x8192x256, broadcastInDim S1x8192x256 ![1, 2] bcast_S8192x256_S1x8192x256_1_2 a⟩,
     ⟨S1x8192x256, broadcastInDim S1x8192x256 ![1, 2] bcast_S8192x256_S1x8192x256_1_2 (quotTerm b n)⟩]
    concatenates_S1x8192x256_S1x8192x256_S2x8192x256_d0

/-- One half of the stacked array: the rows divided by their norms, under a new leading unit axis. -/
def halfTerm (g : FVec Ideal S8192x256 .f32) : FVec Ideal S1x8192x256 .f32 :=
  broadcastInDim S1x8192x256 ![1, 2] bcast_S8192x256_S1x8192x256_1_2 (quotTerm g (normTerm g))

/-- The stacked array, as a term of the two arrays of selected rows. -/
def headTerm (g0 g1 : FVec Ideal S8192x256 .f32) : FVec Ideal S2x8192x256 .f32 :=
  concatenate S2x8192x256 0 [⟨S1x8192x256, halfTerm g0⟩, ⟨S1x8192x256, halfTerm g1⟩]
    concatenates_S1x8192x256_S1x8192x256_S2x8192x256_d0

/-- The norm of row `r`: the square root of the sum, from 0, of the squares of its entries. -/
theorem normTerm_apply (g : FVec Ideal S8192x256 .f32) (r : Fin 8192) :
    normTerm g (ix2 r (0 : Fin 1)) = Ideal.sqrt (0 + ∑ k : Fin 256, g (ix2 r k) * g (ix2 r k)) := by
  unfold normTerm
  rw [hostSqrt_apply, Cert.Lib.rowSums_column_apply _ _ _ (by decide) _ _ (ix2 r (0 : Fin 1)), constant_apply,
    Ideal.ofBits_zero_f32]
  rfl

/-- A half at `(0, r, d)`: entry `d` of row `r` over the row's norm. -/
theorem halfTerm_apply (g : FVec Ideal S8192x256 .f32) (u : Fin 1) (r : Fin 8192) (d : Fin 256) :
    halfTerm g (ix3 u r d) = Cert.Spec.normalize (rows2 g) r d := by
  unfold halfTerm quotTerm
  rw [Cert.Lib.addUnit_bcast_at, hostDivf_apply, cols_of_oneCol, normTerm_apply]
  rfl

/-- The stacked array's first half is the first array's normalized rows. -/
theorem headTerm_zero (g0 g1 : FVec Ideal S8192x256 .f32) (r : Fin 8192) (d : Fin 256) :
    headTerm g0 g1 (ix3 (0 : Fin 2) r d) = Cert.Spec.normalize (rows2 g0) r d := by
  unfold headTerm
  rw [concatenate_pair_apply_left (t := S2x8192x256) (s₁ := S1x8192x256) (s₂ := S1x8192x256) 0 _ _ _ (ix3 (0 : Fin 2) r d) rfl (ix3 (0 : Fin 1) r d)
    (fun b => match b with | ⟨0, _⟩ => rfl | ⟨1, _⟩ => rfl | ⟨2, _⟩ => rfl)]
  exact halfTerm_apply g0 0 r d

/-- The stacked array's second half is the second array's normalized rows. -/
theorem headTerm_one (g0 g1 : FVec Ideal S8192x256 .f32) (r : Fin 8192) (d : Fin 256) :
    headTerm g0 g1 (ix3 (1 : Fin 2) r d) = Cert.Spec.normalize (rows2 g1) r d := by
  unfold headTerm
  rw [concatenate_pair_apply_right (t := S2x8192x256) (s₁ := S1x8192x256) (s₂ := S1x8192x256) 0 _ _ _ (ix3 (1 : Fin 2) r d) rfl rfl (ix3 (0 : Fin 1) r d)
    (fun b hb => match b with | ⟨0, _⟩ => absurd rfl hb | ⟨1, _⟩ => rfl | ⟨2, _⟩ => rfl) rfl]
  exact halfTerm_apply g1 0 r d

/-! ## The stretches of operations before the kernel, one at a time, from any buffer contents -/

section Passes
variable {F : FTy → Type} [FloatOps F] (W : Valuation τ sig (Elt F))

/-! A buffer a stretch does not write keeps its contents. -/
theorem s4_v6 : StableHlo.after (hostOps0_4 (F := F)) W (Proc.devRef .tc main_v6) = W (Proc.devRef .tc main_v6) := by
  after_results
theorem s4_v13 : StableHlo.after (hostOps0_4 (F := F)) W (Proc.devRef .tc main_v13) = W (Proc.devRef .tc main_v13) := by
  after_results
theorem s3_v16 : StableHlo.after (hostOps0_3 (F := F)) W (Proc.devRef .tc main_v16) = W (Proc.devRef .tc main_v16) := by
  after_results
theorem s3_v13 : StableHlo.after (hostOps0_3 (F := F)) W (Proc.devRef .tc main_v13) = W (Proc.devRef .tc main_v13) := by
  after_results
theorem s3_v6 : StableHlo.after (hostOps0_3 (F := F)) W (Proc.devRef .tc main_v6) = W (Proc.devRef .tc main_v6) := by
  after_results
theorem s2_v13 : StableHlo.after (hostOps0_2 (F := F)) W (Proc.devRef .tc main_v13) = W (Proc.devRef .tc main_v13) := by
  after_results
theorem s2_v6 : StableHlo.after (hostOps0_2 (F := F)) W (Proc.devRef .tc main_v6) = W (Proc.devRef .tc main_v6) := by
  after_results
theorem s1_v13 : StableHlo.after (hostOps0_1 (F := F)) W (Proc.devRef .tc main_v13) = W (Proc.devRef .tc main_v13) := by
  after_results
theorem s1_v6 : StableHlo.after (hostOps0_1 (F := F)) W (Proc.devRef .tc main_v6) = W (Proc.devRef .tc main_v6) := by
  after_results
theorem s4_arg0 : StableHlo.after (hostOps0_4 (F := F)) W (Proc.devRef .tc main_arg0) = W (Proc.devRef .tc main_arg0) := by
  after_results
theorem s3_arg0 : StableHlo.after (hostOps0_3 (F := F)) W (Proc.devRef .tc main_arg0) = W (Proc.devRef .tc main_arg0) := by
  after_results
theorem s2_arg0 : StableHlo.after (hostOps0_2 (F := F)) W (Proc.devRef .tc main_arg0) = W (Proc.devRef .tc main_arg0) := by
  after_results
theorem s1_arg0 : StableHlo.after (hostOps0_1 (F := F)) W (Proc.devRef .tc main_arg0) = W (Proc.devRef .tc main_arg0) := by
  after_results
theorem s0_arg0 : StableHlo.after (hostOps0 (F := F)) W (Proc.devRef .tc main_arg0) = W (Proc.devRef .tc main_arg0) := by
  after_results
theorem s4_arg1 : StableHlo.after (hostOps0_4 (F := F)) W (Proc.devRef .tc main_arg1) = W (Proc.devRef .tc main_arg1) := by
  after_results
theorem s3_arg1 : StableHlo.after (hostOps0_3 (F := F)) W (Proc.devRef .tc main_arg1) = W (Proc.devRef .tc main_arg1) := by
  after_results
theorem s2_arg1 : StableHlo.after (hostOps0_2 (F := F)) W (Proc.devRef .tc main_arg1) = W (Proc.devRef .tc main_arg1) := by
  after_results
theorem s1_arg1 : StableHlo.after (hostOps0_1 (F := F)) W (Proc.devRef .tc main_arg1) = W (Proc.devRef .tc main_arg1) := by
  after_results
theorem s0_arg1 : StableHlo.after (hostOps0 (F := F)) W (Proc.devRef .tc main_arg1) = W (Proc.devRef .tc main_arg1) := by
  after_results
theorem s4_arg2 : StableHlo.after (hostOps0_4 (F := F)) W (Proc.devRef .tc main_arg2) = W (Proc.devRef .tc main_arg2) := by
  after_results
theorem s3_arg2 : StableHlo.after (hostOps0_3 (F := F)) W (Proc.devRef .tc main_arg2) = W (Proc.devRef .tc main_arg2) := by
  after_results
theorem s2_arg2 : StableHlo.after (hostOps0_2 (F := F)) W (Proc.devRef .tc main_arg2) = W (Proc.devRef .tc main_arg2) := by
  after_results
theorem s1_arg2 : StableHlo.after (hostOps0_1 (F := F)) W (Proc.devRef .tc main_arg2) = W (Proc.devRef .tc main_arg2) := by
  after_results
theorem s0_arg2 : StableHlo.after (hostOps0 (F := F)) W (Proc.devRef .tc main_arg2) = W (Proc.devRef .tc main_arg2) := by
  after_results
theorem s4_arg3 : StableHlo.after (hostOps0_4 (F := F)) W (Proc.devRef .tc main_arg3) = W (Proc.devRef .tc main_arg3) := by
  after_results
theorem s3_arg3 : StableHlo.after (hostOps0_3 (F := F)) W (Proc.devRef .tc main_arg3) = W (Proc.devRef .tc main_arg3) := by
  after_results
theorem s2_arg3 : StableHlo.after (hostOps0_2 (F := F)) W (Proc.devRef .tc main_arg3) = W (Proc.devRef .tc main_arg3) := by
  after_results
theorem s1_arg3 : StableHlo.after (hostOps0_1 (F := F)) W (Proc.devRef .tc main_arg3) = W (Proc.devRef .tc main_arg3) := by
  after_results
theorem s0_arg3 : StableHlo.after (hostOps0 (F := F)) W (Proc.devRef .tc main_arg3) = W (Proc.devRef .tc main_arg3) := by
  after_results
theorem s5_arg0 : StableHlo.after (hostOps1 (F := F)) W (Proc.devRef .tc main_arg0) = W (Proc.devRef .tc main_arg0) := by
  after_results
theorem s5_arg1 : StableHlo.after (hostOps1 (F := F)) W (Proc.devRef .tc main_arg1) = W (Proc.devRef .tc main_arg1) := by
  after_results
theorem s5_arg2 : StableHlo.after (hostOps1 (F := F)) W (Proc.devRef .tc main_arg2) = W (Proc.devRef .tc main_arg2) := by
  after_results
theorem s5_arg3 : StableHlo.after (hostOps1 (F := F)) W (Proc.devRef .tc main_arg3) = W (Proc.devRef .tc main_arg3) := by
  after_results

end Passes

section Stages
variable (W : Valuation τ sig (Elt Ideal))

theorem s4_v22 : (StableHlo.after (hostOps0_4 (F := Ideal)) W (Proc.devRef .tc main_v22) : S2x8192x256.Idx → EReal)
    = stackTerm (W (Proc.devRef .tc main_v16)) (W (Proc.devRef .tc main_v13)) (W (Proc.devRef .tc main_v17)) := by
  after_results; rfl

theorem s3_v17 : (StableHlo.after (hostOps0_3 (F := Ideal)) W (Proc.devRef .tc main_v17) : S8192x1.Idx → EReal)
    = normTerm (W (Proc.devRef .tc main_v13)) := by
  after_results; rfl

theorem s2_v16 : (StableHlo.after (hostOps0_2 (F := Ideal)) W (Proc.devRef .tc main_v16) : S8192x256.Idx → EReal)
    = quotTerm (W (Proc.devRef .tc main_v6)) (W (Proc.devRef .tc main_v14)) := by
  after_results; rfl

theorem s1_v14 : (StableHlo.after (hostOps0_1 (F := Ideal)) W (Proc.devRef .tc main_v14) : S8192x1.Idx → EReal)
    = normTerm (W (Proc.devRef .tc main_v6)) := by
  after_results; rfl

end Stages

/-! ## The selected rows, and the arguments -/

section Selected
variable {F : FTy → Type} [FloatOps F]

/-- Rows of the first table selected by an index vector, a negative index wrapped first by adding the table's height. -/
def gatherU (tbl : FVec F S100000x256 .f32) (idx : IVec S8192 32) : FVec F S8192x256 .f32 :=
  Host.gather gather_S100000x256_S8192x1_S8192x256_1_0_n_n_0_1_1256 tbl
    (broadcastInDim S8192x1 ![0] bcast_S8192_S8192x1_0
      (select (cmpi .slt idx (broadcastInDim S8192 ![] bcast_S_S8192 (constantI S_ 32 0#32)))
        (addi idx (broadcastInDim S8192 ![] bcast_S_S8192 (constantI S_ 32 100000#32))) idx))

/-- Rows of the second table selected by an index vector, likewise. -/
def gatherP (tbl : FVec F S50000x256 .f32) (idx : IVec S8192 32) : FVec F S8192x256 .f32 :=
  Host.gather gather_S50000x256_S8192x1_S8192x256_1_0_n_n_0_1_1256 tbl
    (broadcastInDim S8192x1 ![0] bcast_S8192_S8192x1_0
      (select (cmpi .slt idx (broadcastInDim S8192 ![] bcast_S_S8192 (constantI S_ 32 0#32)))
        (addi idx (broadcastInDim S8192 ![] bcast_S_S8192 (constantI S_ 32 50000#32))) idx))

/-- A selected entry is an entry of the table. -/
theorem gather_mem {α : Type} {s si t : Shape} {w : ℕ} (d : GatherDims s si t) (x : s.Idx → α) (idx : IVec si w)
    (y : t.Idx) : ∃ i, Host.gather d x idx y = x i := ⟨_, rfl⟩
theorem gatherU_mem (tbl : FVec F S100000x256 .f32) (idx : IVec S8192 32) (y : S8192x256.Idx) :
    ∃ i, gatherU tbl idx y = tbl i := gather_mem _ _ _ y
theorem gatherP_mem (tbl : FVec F S50000x256 .f32) (idx : IVec S8192 32) (y : S8192x256.Idx) :
    ∃ i, gatherP tbl idx y = tbl i := gather_mem _ _ _ y

variable (m : (ℓ : Loc nD τ sig) → Buf (Elt F) ℓ)

/-- The first array of selected rows is what the first stretch of operations left. -/
theorem V_v6 (c : Dev nD) :
    Hand.V m c main_v6 = StableHlo.after (hostOps0 (F := F)) (Hand.W0 m c) (Proc.devRef .tc main_v6) := by
  dsimp only [Hand.V, Hand.V0]
  rw [s4_v6, s3_v6, s2_v6, s1_v6]

/-- The second array of selected rows is what the first stretch of operations left. -/
theorem V_v13 (c : Dev nD) :
    Hand.V m c main_v13 = StableHlo.after (hostOps0 (F := F)) (Hand.W0 m c) (Proc.devRef .tc main_v13) := by
  dsimp only [Hand.V, Hand.V0]
  rw [s4_v13, s3_v13, s2_v13, s1_v13]

/-- The first array of selected rows, as a term of the launch memory's first table and first index vector. -/
theorem V_v6_eq (c : Dev nD) :
    (Hand.V m c main_v6 : S8192x256.Idx → F .f32)
      = gatherU (m ((c.tc : Thread nD τ).loc main_arg0)) (m ((c.tc : Thread nD τ).loc main_arg2)) := by
  rw [V_v6]; after_results; rfl

/-- The second array of selected rows, as a term of the launch memory's second table and second index vector. -/
theorem V_v13_eq (c : Dev nD) :
    (Hand.V m c main_v13 : S8192x256.Idx → F .f32)
      = gatherP (m ((c.tc : Thread nD τ).loc main_arg1)) (m ((c.tc : Thread nD τ).loc main_arg3)) := by
  rw [V_v13]; after_results; rfl

/-! No host operation writes an argument array: when the kernel starts, and at the end whatever the kernel wrote. -/
theorem V0_arg0 (c : Dev nD) : Hand.V0 m c (Proc.devRef .tc main_arg0) = m ((c.tc : Thread nD τ).loc main_arg0) := by
  dsimp only [Hand.V0]
  rw [s4_arg0, s3_arg0, s2_arg0, s1_arg0, s0_arg0]
theorem end_arg0 (c : Dev nD) (X : Buf (Elt F) ((c.tc : Thread nD τ).loc main_v23)) :
    StableHlo.after (hostOps1 (F := F)) (Function.update (Hand.V0 m c) (Proc.devRef .tc main_v23) X) (Proc.devRef .tc main_arg0)
      = m ((c.tc : Thread nD τ).loc main_arg0) := by
  rw [s5_arg0, Function.update_of_ne (StableHlo.devRef_ne_of_ne (by decide)), V0_arg0]
theorem V0_arg1 (c : Dev nD) : Hand.V0 m c (Proc.devRef .tc main_arg1) = m ((c.tc : Thread nD τ).loc main_arg1) := by
  dsimp only [Hand.V0]
  rw [s4_arg1, s3_arg1, s2_arg1, s1_arg1, s0_arg1]
theorem end_arg1 (c : Dev nD) (X : Buf (Elt F) ((c.tc : Thread nD τ).loc main_v23)) :
    StableHlo.after (hostOps1 (F := F)) (Function.update (Hand.V0 m c) (Proc.devRef .tc main_v23) X) (Proc.devRef .tc main_arg1)
      = m ((c.tc : Thread nD τ).loc main_arg1) := by
  rw [s5_arg1, Function.update_of_ne (StableHlo.devRef_ne_of_ne (by decide)), V0_arg1]
theorem V0_arg2 (c : Dev nD) : Hand.V0 m c (Proc.devRef .tc main_arg2) = m ((c.tc : Thread nD τ).loc main_arg2) := by
  dsimp only [Hand.V0]
  rw [s4_arg2, s3_arg2, s2_arg2, s1_arg2, s0_arg2]
theorem end_arg2 (c : Dev nD) (X : Buf (Elt F) ((c.tc : Thread nD τ).loc main_v23)) :
    StableHlo.after (hostOps1 (F := F)) (Function.update (Hand.V0 m c) (Proc.devRef .tc main_v23) X) (Proc.devRef .tc main_arg2)
      = m ((c.tc : Thread nD τ).loc main_arg2) := by
  rw [s5_arg2, Function.update_of_ne (StableHlo.devRef_ne_of_ne (by decide)), V0_arg2]
theorem V0_arg3 (c : Dev nD) : Hand.V0 m c (Proc.devRef .tc main_arg3) = m ((c.tc : Thread nD τ).loc main_arg3) := by
  dsimp only [Hand.V0]
  rw [s4_arg3, s3_arg3, s2_arg3, s1_arg3, s0_arg3]
theorem end_arg3 (c : Dev nD) (X : Buf (Elt F) ((c.tc : Thread nD τ).loc main_v23)) :
    StableHlo.after (hostOps1 (F := F)) (Function.update (Hand.V0 m c) (Proc.devRef .tc main_v23) X) (Proc.devRef .tc main_arg3)
      = m ((c.tc : Thread nD τ).loc main_arg3) := by
  rw [s5_arg3, Function.update_of_ne (StableHlo.devRef_ne_of_ne (by decide)), V0_arg3]

end Selected

/-! ## The stacked array the kernel reads -/

section Head
variable (m : (ℓ : Loc nD τ sig) → Buf (Elt Ideal) ℓ)

/-- The stacked array as a term of the two arrays of selected rows. -/
theorem head_term (c : Dev nD) :
    (Hand.V m c main_v22 : S2x8192x256.Idx → EReal) = headTerm (Hand.V m c main_v6) (Hand.V m c main_v13) := by
  rw [V_v6, V_v13]
  dsimp only [Hand.V, Hand.V0]
  rw [s4_v22, s3_v16, s3_v13, s3_v17, s2_v16, s2_v13, s1_v6, s1_v14, s1_v13]
  rfl

/-- The two arrays of selected rows, by half. -/
def G (c : Dev nD) (b : Fin 2) : S8192x256.Idx → EReal :=
  match b with
  | 0 => Hand.V m c main_v6
  | 1 => Hand.V m c main_v13

/-- The stacked array at `(b, r, d)` is entry `d` of selected row `r` of half `b` over that row's norm. -/
theorem head_eq (c : Dev nD) (b : Fin 2) (r : Fin 8192) (d : Fin 256) :
    (Hand.V m c main_v22 : S2x8192x256.Idx → EReal) (ix3 b r d) = Cert.Spec.normalize (rows2 (G m c b)) r d := by
  rw [head_term]
  match b with
  | 0 => exact headTerm_zero _ _ r d
  | 1 => exact headTerm_one _ _ r d

end Head

/-! ## The precondition -/

section Pre
variable (m : (ℓ : Loc nD τ sig) → Buf (Elt Ideal) ℓ)

instance : Subsingleton S_.Idx := ⟨fun a b => funext fun d => d.elim0⟩
instance : Subsingleton Cert.Pre_finite_inputs.S_.Idx := ⟨fun a b => funext fun d => d.elim0⟩

/-- A comparison "greater than" that answers one says so. -/
theorem lt_of_cmp_ogt {x y : EReal} (h : Ideal.cmp .ogt x y = 1#1) : y < x := by
  by_contra hn
  have h0 : Ideal.cmp .ogt x y = 0#1 := by
    show BitVec.ofBool (decide (y < x)) = 0#1
    rw [decide_eq_false hn]; rfl
  rw [h0] at h; exact absurd h (by decide)

/-- An array of rows every one of which passes "the sum of its squares, from 0, is greater than 0" — the host's
    reduction by `and` of the comparison answers one — has every such sum positive. -/
theorem rows_pos_of_all_gt {u : Shape} (g : FVec Ideal ⟨2, ![8192, 256]⟩ .f32)
    (zero1 zero2 : FVec Ideal ⟨0, ![]⟩ .f32) (hz1 : zero1 ix0 = 0) (hz2 : zero2 ix0 = 0)
    (h' : (⟨2, ![8192, 256]⟩ : Shape).ReducesTo [1] (⟨1, ![8192]⟩ : Shape)) (hu : 0 < (⟨0, ![]⟩ : Shape).numel)
    (hb : (⟨0, ![]⟩ : Shape).BroadcastsInDim ⟨1, ![8192]⟩ (![] : Fin 0 → Fin 1))
    (hr : (⟨1, ![8192]⟩ : Shape).ReducesTo [0] (⟨0, ![]⟩ : Shape)) (init : u.Idx → BitVec 1) (hu' : 0 < u.numel)
    (e : Host.reduce IntOp.andi
          (cmpf .ogt (Host.reduceAdd (mulf g g) zero1 h' hu) (broadcastInDim ⟨1, ![8192]⟩ ![] hb zero2)) init hr hu' ix0 = 1#1)
    (r : Fin 8192) : (0 : EReal) < 0 + ∑ k : Fin 256, g (ix2 r k) * g (ix2 r k) := by
  have hr1 := Host.reduce_andi_all _ init hr hu' ix0 e (ix1 r)
  have hlt := lt_of_cmp_ogt hr1
  rw [broadcastInDim_scalar_apply, hz2, Cert.Lib.hostReduceAdd_rows _ _ _ (by decide) _ r] at hlt
  rw [show zero1 (Shape.Idx.first hu) = 0 from (congrArg zero1 (eq_ix0 _)).trans hz1] at hlt
  exact hlt

/-- What the precondition says of the launch memory: every entry of the two tables is a real number, and every
    selected row of either table has a positive sum of squares. -/
theorem pre_read (hpre : Cert.Pre_KernelIdeal m) (c : Dev nD) :
    Cert.Lib.AllReal (m ((c.tc : Thread nD τ).loc main_arg0) : S100000x256.Idx → EReal)
    ∧ Cert.Lib.AllReal (m ((c.tc : Thread nD τ).loc main_arg1) : S50000x256.Idx → EReal)
    ∧ (∀ r : Fin 8192, (0 : EReal) < 0 + ∑ k : Fin 256,
        rows2 (Hand.V m c main_v6) r k * rows2 (Hand.V m c main_v6) r k)
    ∧ (∀ r : Fin 8192, (0 : EReal) < 0 + ∑ k : Fin 256,
        rows2 (Hand.V m c main_v13) r k * rows2 (Hand.V m c main_v13) r k) := by
  have h := congrFun (hpre c) ix0
  unfold Cert.Pre_finite_inputs.fn Cert.Pre_finite_inputs.fn_part1 Cert.Pre_finite_inputs.fn_part2 at h
  dsimp only at h
  obtain ⟨h123, h4⟩ := IntOp.andi_eq_one.1 h
  obtain ⟨h12, h3⟩ := IntOp.andi_eq_one.1 h123
  obtain ⟨h1, h2⟩ := IntOp.andi_eq_one.1 h12
  refine ⟨?_, ?_, ?_, ?_⟩
  · exact Cert.Lib.allReal_of_all_abs_lt _ _ (fun i => by rw [broadcastInDim_scalar_apply]; rfl) _ _ _ ix0 h1
  · exact Cert.Lib.allReal_of_all_abs_lt _ _ (fun i => by rw [broadcastInDim_scalar_apply]; rfl) _ _ _ ix0 h2
  · rw [V_v6_eq]
    exact rows_pos_of_all_gt _ _ _ Ideal.ofBits_zero_f32 Ideal.ofBits_zero_f32 _ _ _ _ _ _ h3
  · rw [V_v13_eq]
    exact rows_pos_of_all_gt _ _ _ Ideal.ofBits_zero_f32 Ideal.ofBits_zero_f32 _ _ _ _ _ _ h4

/-- Real rows with positive sums of squares, normalized, are real. -/
theorem normalize_real (g : S8192x256.Idx → EReal) (gr : Fin 8192 → Fin 256 → ℝ)
    (hg : ∀ r d, g (ix2 r d) = ((gr r d : ℝ) : EReal)) (hpos : ∀ r, 0 < ∑ d, gr r d * gr r d)
    (r : Fin 8192) (d : Fin 256) :
    Cert.Spec.normalize (rows2 g) r d = ((gr r d / Real.sqrt (∑ k, gr r k * gr r k) : ℝ) : EReal) := by
  show Ideal.div (g (ix2 r d)) (Ideal.sqrt (0 + ∑ k : Fin 256, g (ix2 r k) * g (ix2 r k))) = _
  rw [hg r d, show (∑ k : Fin 256, g (ix2 r k) * g (ix2 r k))
      = ∑ k : Fin 256, ((gr r k : ℝ) : EReal) * ((gr r k : ℝ) : EReal) from
    Finset.sum_congr rfl fun k _ => by rw [hg r k]]
  exact Cert.Lib.div_norm_coe Finset.univ (gr r) (hpos r) (gr r d)

/-- An array all of whose entries are real, with every row's sum of squares (from 0) positive on the extended
    reals, is an array of real rows with positive real sums of squares. -/
theorem real_rows (g : S8192x256.Idx → EReal) (hreal : ∀ y, ∃ x : ℝ, g y = (x : EReal))
    (hpos : ∀ r : Fin 8192, (0 : EReal) < 0 + ∑ k : Fin 256, rows2 g r k * rows2 g r k) :
    ∃ gr : Fin 8192 → Fin 256 → ℝ, (∀ r d, g (ix2 r d) = ((gr r d : ℝ) : EReal)) ∧ (∀ r, 0 < ∑ d, gr r d * gr r d) := by
  choose f hf using hreal
  refine ⟨fun r d => f (ix2 r d), fun r d => hf _, fun r => ?_⟩
  have h := hpos r
  rw [show (∑ k : Fin 256, rows2 g r k * rows2 g r k)
      = ∑ k : Fin 256, ((f (ix2 r k) : ℝ) : EReal) * ((f (ix2 r k) : ℝ) : EReal) from
    Finset.sum_congr rfl fun k _ => by show g (ix2 r k) * g (ix2 r k) = _; rw [hf]] at h
  rw [zero_add, Cert.Lib.sum_sq_coe Finset.univ (fun k => f (ix2 r k))] at h
  exact EReal.coe_pos.1 h

/-- Under the precondition the two arrays of selected rows are arrays of real rows, each row with a positive
    sum of squares. -/
theorem gathered_real (hpre : Cert.Pre_KernelIdeal m) (c : Dev nD) :
    ∃ g0 g1 : Fin 8192 → Fin 256 → ℝ,
      (∀ r d, rows2 (Hand.V m c main_v6) r d = ((g0 r d : ℝ) : EReal)) ∧ (∀ r, 0 < ∑ d, g0 r d * g0 r d)
      ∧ (∀ r d, rows2 (Hand.V m c main_v13) r d = ((g1 r d : ℝ) : EReal)) ∧ (∀ r, 0 < ∑ d, g1 r d * g1 r d) := by
  obtain ⟨ha0, ha1, hp0, hp1⟩ := pre_read m hpre c
  have hr0 : ∀ y, ∃ x : ℝ, (Hand.V m c main_v6 : S8192x256.Idx → EReal) y = (x : EReal) := fun y => by
    rw [V_v6_eq]
    obtain ⟨i, hi⟩ := gatherU_mem (F := Ideal) (m ((c.tc : Thread nD τ).loc main_arg0)) (m ((c.tc : Thread nD τ).loc main_arg2)) y
    rw [hi]; exact ha0 i
  have hr1 : ∀ y, ∃ x : ℝ, (Hand.V m c main_v13 : S8192x256.Idx → EReal) y = (x : EReal) := fun y => by
    rw [V_v13_eq]
    obtain ⟨i, hi⟩ := gatherP_mem (F := Ideal) (m ((c.tc : Thread nD τ).loc main_arg1)) (m ((c.tc : Thread nD τ).loc main_arg3)) y
    rw [hi]; exact ha1 i
  obtain ⟨g0, h0, p0⟩ := real_rows _ hr0 hp0
  obtain ⟨g1, h1, p1⟩ := real_rows _ hr1 hp1
  exact ⟨g0, g1, h0, p0, h1, p1⟩

/-- Under the precondition the stacked array the kernel reads is an array of reals. -/
theorem stacked_real (hpre : Cert.Pre_KernelIdeal m) (c : Dev nD) :
    ∃ xr : Fin 2 → Fin 8192 → Fin 256 → ℝ, ∀ b r d,
      (Hand.V m c main_v22 : S2x8192x256.Idx → EReal) (ix3 b r d) = ((xr b r d : ℝ) : EReal) := by
  obtain ⟨g0, g1, h0, p0, h1, p1⟩ := gathered_real m hpre c
  refine ⟨fun b r d => match b with
      | 0 => g0 r d / Real.sqrt (∑ k, g0 r k * g0 r k)
      | 1 => g1 r d / Real.sqrt (∑ k, g1 r k * g1 r k), fun b r d => ?_⟩
  rw [head_eq]
  match b with
  | 0 => exact normalize_real _ g0 h0 p0 r d
  | 1 => exact normalize_real _ g1 h1 p1 r d

end Pre
/-! ## The operations after the kernel -/

/-- The operations after the kernel as one term of the kernel's output array. -/
def tailTerm (X : FVec Ideal S2x8192x256 .f32) : FVec Ideal S_ .f32 :=
  Host.divf
    (Host.negf
      (Host.reduceAdd
        (Host.log
          (Host.divf (broadcastInDim S8192 ![] bcast_S_S8192 (constant (F := Ideal) S_ .f32 0x3F800000#32))
            (addf (broadcastInDim S8192 ![] bcast_S_S8192 (constant (F := Ideal) S_ .f32 0x3F800000#32))
              (Host.exp
                (Host.negf
                  (Host.reduceAdd
                    (mulf
                      (shapeCast S8192x256 (extractStridedSlice S1x8192x256 ![0, 0, 0] X slices_S2x8192x256_S1x8192x256_0_0_0) shapeCasts_S1x8192x256_S8192x256)
                      (shapeCast S8192x256 (extractStridedSlice S1x8192x256 ![1, 0, 0] X slices_S2x8192x256_S1x8192x256_1_0_0) shapeCasts_S1x8192x256_S8192x256))
                    (constant (F := Ideal) S_ .f32 0x00000000#32) reducesTo_S8192x256_S8192_d1 h_S_))))))
        (constant (F := Ideal) S_ .f32 0x00000000#32) reducesTo_S8192_S_d0 h_S_))
    (constant (F := Ideal) S_ .f32 0x46000000#32)

/-- What the result buffer holds after the operations that follow the kernel, from any buffer contents. -/
theorem tail_term (W : Valuation τ sig (Elt Ideal)) :
    (StableHlo.after (hostOps1 (F := Ideal)) W (Proc.devRef .tc main_v39) : S_.Idx → EReal)
      = tailTerm (W (Proc.devRef .tc main_v23)) := by
  after_results
  rfl

/-- The result of the operations after the kernel: with Y0, Y1 the two halves of the kernel's output,
    minus the sum over the rows of log (1 / (1 + exp (-(Y0 row · Y1 row)))), over 8192. -/
theorem tail_value (X : FVec Ideal S2x8192x256 .f32) :
    tailTerm X ix0 = Cert.Spec.tail (fun r d => X (ix3 (0 : Fin 2) r d)) (fun r d => X (ix3 (1 : Fin 2) r d)) := by
  unfold tailTerm Cert.Spec.tail
  rw [hostDivf_apply, hostNegf_apply, hostReduceAdd_vec, constant_apply, constant_apply, Ideal.ofBits_zero_f32]
  refine congrArg (fun s => Ideal.div (-(0 + s)) Cert.Spec.c8192) (Finset.sum_congr rfl fun i _ => ?_)
  rw [hostLog_apply, hostDivf_apply, addf_apply, hostExp_apply, hostNegf_apply,
      broadcastInDim_scalar_apply, constant_apply,
      Cert.Lib.hostReduceAdd_rows _ _ _ (by decide) _ i, constant_apply, Ideal.ofBits_zero_f32]
  refine congrArg (fun s => Ideal.log (Ideal.div Cert.Spec.c1 (Cert.Spec.c1 + Ideal.exp (-(0 + s))))) (Finset.sum_congr rfl fun d _ => ?_)
  rw [mulf_apply, Cert.Lib.hostSlab3 (by decide) X, Cert.Lib.hostSlab3 (by decide) X]
  rfl

/-- The result buffer after the operations that follow the kernel, from any buffer contents W, is the
    tail function of the two halves of W's kernel output array. -/
theorem tail_eq (W : Valuation τ sig (Elt Ideal)) :
    (StableHlo.after (hostOps1 (F := Ideal)) W (Proc.devRef .tc main_v39) : S_.Idx → EReal) ix0
      = Cert.Spec.tail (fun r d => (W (Proc.devRef .tc main_v23) : S2x8192x256.Idx → EReal) (ix3 (0 : Fin 2) r d))
          (fun r d => (W (Proc.devRef .tc main_v23) : S2x8192x256.Idx → EReal) (ix3 (1 : Fin 2) r d)) := by
  rw [tail_term W]; exact tail_value _

end Cert.KernelIdeal.Host
end
-- ==== Proof.KiFinal.lean ====
/-
  The kernel program's result is the specification's tail of the smoothing of the two normalized halves.

  At a last key block all eight key blocks of the pair have been processed, so the running buffers hold the sums over
  ALL 8192 keys and the stored block is the specification's smoothing of the half's rows at the block's query rows.
  The 32 stored blocks tile the result array, the host operations after the kernel are the specification's tail, and
  the stacked rows are the two normalized halves.
-/
import proofs.«146094_j20349555048597_2_alg».proof.Proof.Gen.KernelIdeal.Launch
import proofs.«146094_j20349555048597_2_alg».proof.Proof.Gen.KernelIdeal.Skeleton
import proofs.«146094_j20349555048597_2_alg».proof.Proof.Gen.KernelIdeal.Points
import Idealize.ShloMosaic.Lib.Pipeline.FrameBody
import Idealize.ShloMosaic.Lib.Pipeline.Regions
import Idealize.ShloMosaic.Lib.Tactic
import Idealize.ShloMosaic.Lib.Ring
import Idealize.ShloMosaic.Lib.ValueIdx
import Idealize.ShloMosaic.Lib.Pipeline.Value
import proofs.«146094_j20349555048597_2_alg».proof.Proof.KiInd
import proofs.«146094_j20349555048597_2_alg».proof.Proof.KiHost
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Lib Cert.KernelIdeal.Step

variable (m : (ℓ : Loc nD τ sig) → Buf (Elt Ideal) ℓ) (c : Dev nD)

/-- The result array as a function of the stacked rows: entry (b, r, d) is the specification's smoothing of half b. -/
def Gout : Buf (Elt Ideal) ((cfg0.win 2).arr.view.loc (c.tc : Thread nD τ)) := fun idx =>
  Cert.Spec.smooth (fun r d' => (V m c main_v22 : S2x8192x256.Idx → EReal) (ix3 (idx 0 : Fin 2) r d')) (idx 1 : Fin 8192) (idx 2 : Fin 256)

theorem Gout_apply (b : Fin 2) (r : Fin 8192) (d : Fin 256) :
    Gout m c (ix3 b r d) = Cert.Spec.smooth (fun r d' => (V m c main_v22 : S2x8192x256.Idx → EReal) (ix3 b r d')) r d := rfl

variable (Xr : Fin 2 → Fin 8192 → Fin 256 → ℝ)
variable (hX : ∀ b r d, (V m c main_v22 : S2x8192x256.Idx → EReal) (ix3 b r d) = ((Xr b r d : ℝ) : EReal))

include hX in
/-- After a last key block the running buffers hold the sums over all the keys. -/
theorem inv_last (t : Fin cfg0.N) (h7 : t.val % 8 = 7) (p : Fin 512) (d : Fin 256) :
    OnlineInv Finset.univ (sOf Xr t p) (vOf Xr t d)
      ((outsAt m c t.val t.isLt).2.1 (ix2 p (0 : Fin 1))) ((outsAt m c t.val t.isLt).2.2.1 (ix2 p (0 : Fin 1))) ((outsAt m c t.val t.isLt).2.2.2 (ix2 p d)) := by
  have h := inv_at m c Xr hX t.val t.isLt p d
  rw [h7, show (7 + 1) = 8 from rfl, Sset_eight] at h
  exact h

include hX in
/-- WHAT A LAST KEY BLOCK WRITES BACK is its block of the specification's smoothing. -/
theorem flushed_eq (t : Fin cfg0.N) (h7 : t.val % 8 = 7) :
    (dats m 0 c).flushed 2 t = ((cfg0.win 2).blk t).view.read (Elt Ideal) (Gout m c) := by
  have h0 : ¬t.val % 8 = 0 := by omega
  show (cfg0.win 2).cut (grid0.coords t) ((dats m 0 c).after 2 t) = _
  rw [after2]
  funext y
  obtain ⟨u, p, d, rfl⟩ : ∃ (u : Fin 1) (p : Fin 512) (d : Fin 256), y = ix3 u p d := ⟨y 0, y 1, y 2, eq_ix3 y⟩
  have hu : u = 0 := Subsingleton.elim _ _
  subst hu
  rw [read_blk2, Gout_apply]
  show (outsAt m c t.val t.isLt).1 (ix3 (0 : Fin 1) p d) = _
  have hI := fun d' => inv_last m c Xr hX t h7 p d'
  rw [outsAt_C m c t h0 h7] at hI ⊢
  unfold caseC at hI ⊢
  dsimp only at hI ⊢
  rw [out_C_O_eq]
  simp only [sout_C_L_eq, sout_C_A_eq] at hI
  refine (finish (κ := Fin 8 × Fin 1024) (iblk m c 0 t) _ _ (fun r d' => ((Xr (halfOf t) r d' : ℝ) : EReal)) (Xr (halfOf t)) (fun _ _ => rfl)
    (qrow t p) p (fun d' => x0_real m c Xr hX t p d') keyEquiv (sOf Xr t p) (fun d' => vOf Xr t d') (fun _ => rfl) (fun _ _ => rfl)
    (fun d' => ⟨_, hI d'⟩) 0 d).trans ?_
  refine congrArg (fun X => Cert.Spec.smooth X (qrow t p) d) ?_
  funext r d'
  exact (hX _ _ _).symm

include hX in
/-- THE RESULT ARRAY after the kernel. -/
theorem final_eq : (dats m 0 c).arrAt 2 cfg0.N = Gout m c :=
  (dats m 0 c).arrAt_eq_of_cover 2 (Gout m c) (fun t hf => flushed_eq m c Xr hX t ((flush0_2 t).mp hf)) cover2

include hX in
/-- THE SCALAR RESULT of the kernel program: the specification's tail of the smoothing of the two normalized halves
    of the selected rows. -/
theorem result_eq :
    (Wfin m c (Proc.devRef .tc main_v39) : S_.Idx → EReal) ix0
      = Cert.Spec.tail (Cert.Spec.smooth (Cert.Spec.normalize (Host.rows2 (Host.G m c 0))))
          (Cert.Spec.smooth (Cert.Spec.normalize (Host.rows2 (Host.G m c 1)))) := by
  show (StableHlo.after hostOps1 (W1 m c) (Proc.devRef .tc main_v39) : S_.Idx → EReal) ix0 = _
  rw [Host.tail_eq (W1 m c), W1_v23, final_eq m c Xr hX]
  have hhalf : ∀ b : Fin 2, (fun r d => Gout m c (ix3 b r d)) = Cert.Spec.smooth (Cert.Spec.normalize (Host.rows2 (Host.G m c b))) := by
    intro b; funext r d
    rw [Gout_apply]
    refine congrArg (fun X => Cert.Spec.smooth X r d) ?_
    funext r' d'
    exact Host.head_eq m c b r' d'
  rw [hhalf 0, hhalf 1]

end Cert.KernelIdeal.Hand

end
-- ==== Proof.RefValue.lean ====
/-
  The reference, operation by operation, is the function of Proof/Spec.lean.

  The reference's value at its one output element is read back through its 115 host operations, index by index,
  down to the two gathered tables, which stay opaque. Each half goes through two stages: a gathered row is divided
  by its norm (normalize), and the normalized rows X are replaced by y * |y| with y = X - 0.8 * softmax(3 X Xᵀ) X
  (smooth); the two smoothed halves then meet in the tail, minus the mean of log (1 / (1 + exp (-(row dot)))).
  Every sum the operations print is a sum over one coordinate of a literal shape; the coordinates are named with
  ix1 / ix2, and each index map of a broadcast, a reduction or a contraction is computed by cases on the axis.
  A contraction prints a bare sum where Spec.lean writes 0 + sum: the two are joined by zero_add.
-/
import proofs.«146094_j20349555048597_2_alg».proof.Proof.RefReadPatched
import proofs.«146094_j20349555048597_2_alg».proof.Proof.Spec
import Idealize.ShloMosaic.Lib.IdealHost

noncomputable section

namespace Cert.Proof.Reference

open Idealize.ShloMosaic Idealize.ShloMosaic.ValueIdx Idealize.ShloMosaic.StableHlo
open Cert.ReferenceIdeal Cert.ReferenceIdeal.Gen Cert.ReferenceIdeal.ReadP

/-- An [8192, 256] array as 8192 rows of 256 entries. -/
def rows (g : Cert.ReferenceIdeal.S8192x256.Idx → EReal) : Cert.Spec.Rows := fun i d => g (ix2 i d)

theorem rows_apply (g : Cert.ReferenceIdeal.S8192x256.Idx → EReal) (i : Fin 8192) (d : Fin 256) :
    rows g i d = g (ix2 i d) := rfl

/-- Two indices of rank 2 (rank 1) with the same coordinates are equal. -/
local macro "idx2" : tactic => `(tactic| (funext a; match a with | ⟨0, _⟩ => rfl | ⟨1, _⟩ => rfl))
local macro "idx1" : tactic => `(tactic| (funext a; match a with | ⟨0, _⟩ => rfl))

abbrev Tab0 := (⟨S100000x256, .f32⟩ : BufTy).Contents (Elt Ideal)
abbrev Tab1 := (⟨S50000x256, .f32⟩ : BufTy).Contents (Elt Ideal)
abbrev Ids := (⟨S8192, .i32⟩ : BufTy).Contents (Elt Ideal)

/-- The single-precision word of minus infinity is the bottom of the extended reals. -/
theorem neg_inf_f32 : Ideal.ofBits .f32 0xFF800000#32 = (⊥ : EReal) := by simp [Ideal.ofBits, Ideal.ieee]

/-- An [8192, 8192] array reduces over its second axis to 8192 entries. -/
theorem red_sq : S8192x8192.Reduces [1] S8192 := by decide

/-- The reduced index (p) with the coordinate k put back on the second axis is (p, k). -/
theorem lift_sq (p : Fin 8192) (k : Fin (S8192x8192.size 1)) :
    red_sq.lift (ix1 p) k = ix2 p (⟨k.val, k.isLt⟩ : Fin 8192) := by
  funext c; apply Fin.ext
  fin_cases c <;> rfl

/-- A rank-1 index set is its coordinate's range, so a sum over it is the sum over the coordinate. -/
def idxEquiv1 {n : Nat} : (⟨1, ![n]⟩ : Shape).Idx ≃ Fin n where
  toFun i := i 0
  invFun p := ix1 p
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## HALF 0: a gathered row over its norm, then the smoothing of the normalized rows -/

/-- The normalized array at (i, d) is the gathered row's entry over the row's norm. -/
theorem normalize_h0 (x0 : Tab0) (x2 : Ids) (i : Fin 8192) (d : Fin 256) :
    val_main_v16 (F := Ideal) x0 x2 (ix2 i d) = Cert.Spec.normalize (rows (val_main_v6 (F := Ideal) x0 x2)) i d := by
  rw [val_main_v16_apply, val_main_v15_apply, val_main_v14_apply, val_main_call0_v2_apply, val_main_call0_v1_apply,
    val_main_call0_cst_apply]
  simp only [val_main_call0_v0_apply]
  have e : ∀ k : Fin 256, idx_main_call0_v1 (idx_main_call0_v2 (idx_main_v15 (ix2 i d))) k = ix2 i k := fun k => by idx2
  simp only [e]
  show Ideal.div _ (Ideal.sqrt (Ideal.ofBits .f32 0x00000000#32 + _)) = _
  rw [Ideal.ofBits_zero_f32]
  rfl

/-- The scaled inner product of rows i and j. -/
theorem score_h0 (x0 : Tab0) (x2 : Ids) (i j : Fin 8192) :
    val_main_v22 (F := Ideal) x0 x2 (ix2 i j) = Cert.Spec.score (rows (val_main_v16 (F := Ideal) x0 x2)) i j := by
  rw [val_main_v22_apply, val_main_v20_apply, val_main_v21_apply, val_main_cst_apply]
  have el : ∀ k : Fin 256, lidx_main_v20 (ix2 i j) k = ix2 i k := fun k => by idx2
  have er : ∀ k : Fin 256, ridx_main_v20 (ix2 i j) k = ix2 j k := fun k => by idx2
  simp only [el, er]
  unfold Cert.Spec.score
  rw [zero_add]
  rfl

/-- The largest score of row i: the fold of max from minus infinity over the row, joined once more with minus infinity. -/
theorem rowMax_h0 (x0 : Tab0) (x2 : Ids) (i : Fin 8192) :
    val_main_v25 (F := Ideal) x0 x2 (ix1 i) = Cert.Spec.rowMax (rows (val_main_v16 (F := Ideal) x0 x2)) i := by
  rw [val_main_v25_apply, val_main_v24_apply, val_main_cst_4_apply]
  unfold val_main_v23
  rw [Host.reduce_eq_fold_single FloatOps.maximumf _ _ Facts₀.reducesTo_S8192x8192_S8192_d1 red_sq Facts₀.h_S_,
    val_main_cst_3_apply]
  have hf : (val_main_v22 (F := Ideal) x0 x2 ∘ red_sq.lift (ix1 i))
      = fun j : Fin 8192 => Cert.Spec.score (rows (val_main_v16 (F := Ideal) x0 x2)) i j :=
    funext fun k => (congrArg (val_main_v22 (F := Ideal) x0 x2) (lift_sq i k)).trans (score_h0 x0 x2 i _)
  simp only [Ideal.ofBits_def, neg_inf_f32]
  unfold Cert.Spec.rowMax
  exact congrArg (fun f => max (⊥ : EReal) (Finset.fold max (⊥ : EReal) f (Finset.univ : Finset (Fin 8192)))) hf

/-- The exponential of a score less its row's maximum. -/
theorem expo_h0 (x0 : Tab0) (x2 : Ids) (i j : Fin 8192) :
    val_main_v29 (F := Ideal) x0 x2 (ix2 i j) = Cert.Spec.expo (rows (val_main_v16 (F := Ideal) x0 x2)) i j := by
  rw [val_main_v29_apply, val_main_v28_apply, val_main_v27_apply, val_main_v26_apply]
  have e : idx_main_v26 (idx_main_v27 (ix2 i j)) = ix1 i := by idx1
  rw [e, score_h0, rowMax_h0]
  rfl

/-- The sum of a row's exponentials. -/
theorem denom_h0 (x0 : Tab0) (x2 : Ids) (i : Fin 8192) :
    val_main_v30 (F := Ideal) x0 x2 (ix1 i) = Cert.Spec.denom (rows (val_main_v16 (F := Ideal) x0 x2)) i := by
  rw [val_main_v30_apply, val_main_cst_5_apply]
  have e : ∀ k : Fin 8192, idx_main_v30 (ix1 i) k = ix2 i k := fun k => by idx2
  simp only [e, expo_h0]
  show Ideal.ofBits .f32 0x00000000#32 + _ = _
  rw [Ideal.ofBits_zero_f32]
  rfl

/-- The softmax-weighted average of the rows, at (i, d). -/
theorem attn_h0 (x0 : Tab0) (x2 : Ids) (i : Fin 8192) (d : Fin 256) :
    val_main_v34 (F := Ideal) x0 x2 (ix2 i d) = Cert.Spec.attn (rows (val_main_v16 (F := Ideal) x0 x2)) i d := by
  rw [val_main_v34_apply]
  have el : ∀ k : Fin 8192, lidx_main_v34 (ix2 i d) k = ix2 i k := fun k => by idx2
  have er : ∀ k : Fin 8192, ridx_main_v34 (ix2 i d) k = ix2 k d := fun k => by idx2
  simp only [el, er, val_main_v33_apply, val_main_v32_apply, val_main_v31_apply]
  have e : ∀ k : Fin 8192, idx_main_v31 (idx_main_v32 (ix2 i k)) = ix1 i := fun k => by idx1
  simp only [e, expo_h0, denom_h0]
  unfold Cert.Spec.attn
  rw [zero_add]
  rfl

/-- A row less 0.8 times its average. -/
theorem y_h0 (x0 : Tab0) (x2 : Ids) (i : Fin 8192) (d : Fin 256) :
    val_main_v37 (F := Ideal) x0 x2 (ix2 i d) = Cert.Spec.y (rows (val_main_v16 (F := Ideal) x0 x2)) i d := by
  rw [val_main_v37_apply, val_main_v36_apply, val_main_v35_apply, val_main_cst_6_apply, attn_h0]
  rfl

/-- The smoothed array at (i, d): y times its row's norm (times one). -/
theorem smooth_h0 (x0 : Tab0) (x2 : Ids) (i : Fin 8192) (d : Fin 256) :
    val_main_v42 (F := Ideal) x0 x2 (ix2 i d) = Cert.Spec.smooth (rows (val_main_v16 (F := Ideal) x0 x2)) i d := by
  rw [val_main_v42_apply, val_main_v41_apply, val_main_v40_apply, val_main_v39_apply, val_main_cst_7_apply,
    val_main_v38_apply, val_main_call2_v2_apply, val_main_call2_v1_apply, val_main_call2_cst_apply]
  simp only [val_main_call2_v0_apply]
  have e : ∀ k : Fin 256, idx_main_call2_v1 (idx_main_call2_v2 (idx_main_v41 (ix2 i d))) k = ix2 i k := fun k => by idx2
  simp only [e, y_h0]
  show _ * (Ideal.sqrt (Ideal.ofBits .f32 0x00000000#32 + _) * _) = _
  rw [Ideal.ofBits_zero_f32]
  rfl

/-- The normalized rows are the normalization of the gathered rows. -/
theorem rows_normalize_h0 (x0 : Tab0) (x2 : Ids) :
    rows (val_main_v16 (F := Ideal) x0 x2) = Cert.Spec.normalize (rows (val_main_v6 (F := Ideal) x0 x2)) :=
  funext fun i => funext fun d => normalize_h0 x0 x2 i d

/-- The smoothed rows are the smoothing of the normalized gathered rows. -/
theorem rows_smooth_h0 (x0 : Tab0) (x2 : Ids) :
    rows (val_main_v42 (F := Ideal) x0 x2)
      = Cert.Spec.smooth (Cert.Spec.normalize (rows (val_main_v6 (F := Ideal) x0 x2))) := by
  rw [← rows_normalize_h0]
  exact funext fun i => funext fun d => smooth_h0 x0 x2 i d

/-! ## HALF 1: a gathered row over its norm, then the smoothing of the normalized rows -/

/-- The normalized array at (i, d) is the gathered row's entry over the row's norm. -/
theorem normalize_h1 (x1 : Tab1) (x3 : Ids) (i : Fin 8192) (d : Fin 256) :
    val_main_v19 (F := Ideal) x1 x3 (ix2 i d) = Cert.Spec.normalize (rows (val_main_v13 (F := Ideal) x1 x3)) i d := by
  rw [val_main_v19_apply, val_main_v18_apply, val_main_v17_apply, val_main_call1_v2_apply, val_main_call1_v1_apply,
    val_main_call1_cst_apply]
  simp only [val_main_call1_v0_apply]
  have e : ∀ k : Fin 256, idx_main_call1_v1 (idx_main_call1_v2 (idx_main_v18 (ix2 i d))) k = ix2 i k := fun k => by idx2
  simp only [e]
  show Ideal.div _ (Ideal.sqrt (Ideal.ofBits .f32 0x00000000#32 + _)) = _
  rw [Ideal.ofBits_zero_f32]
  rfl

/-- The scaled inner product of rows i and j. -/
theorem score_h1 (x1 : Tab1) (x3 : Ids) (i j : Fin 8192) :
    val_main_v45 (F := Ideal) x1 x3 (ix2 i j) = Cert.Spec.score (rows (val_main_v19 (F := Ideal) x1 x3)) i j := by
  rw [val_main_v45_apply, val_main_v43_apply, val_main_v44_apply, val_main_cst_8_apply]
  have el : ∀ k : Fin 256, lidx_main_v43 (ix2 i j) k = ix2 i k := fun k => by idx2
  have er : ∀ k : Fin 256, ridx_main_v43 (ix2 i j) k = ix2 j k := fun k => by idx2
  simp only [el, er]
  unfold Cert.Spec.score
  rw [zero_add]
  rfl

/-- The largest score of row i: the fold of max from minus infinity over the row, joined once more with minus infinity. -/
theorem rowMax_h1 (x1 : Tab1) (x3 : Ids) (i : Fin 8192) :
    val_main_v48 (F := Ideal) x1 x3 (ix1 i) = Cert.Spec.rowMax (rows (val_main_v19 (F := Ideal) x1 x3)) i := by
  rw [val_main_v48_apply, val_main_v47_apply, val_main_cst_10_apply]
  unfold val_main_v46
  rw [Host.reduce_eq_fold_single FloatOps.maximumf _ _ Facts₀.reducesTo_S8192x8192_S8192_d1 red_sq Facts₀.h_S_,
    val_main_cst_9_apply]
  have hf : (val_main_v45 (F := Ideal) x1 x3 ∘ red_sq.lift (ix1 i))
      = fun j : Fin 8192 => Cert.Spec.score (rows (val_main_v19 (F := Ideal) x1 x3)) i j :=
    funext fun k => (congrArg (val_main_v45 (F := Ideal) x1 x3) (lift_sq i k)).trans (score_h1 x1 x3 i _)
  simp only [Ideal.ofBits_def, neg_inf_f32]
  unfold Cert.Spec.rowMax
  exact congrArg (fun f => max (⊥ : EReal) (Finset.fold max (⊥ : EReal) f (Finset.univ : Finset (Fin 8192)))) hf

/-- The exponential of a score less its row's maximum. -/
theorem expo_h1 (x1 : Tab1) (x3 : Ids) (i j : Fin 8192) :
    val_main_v52 (F := Ideal) x1 x3 (ix2 i j) = Cert.Spec.expo (rows (val_main_v19 (F := Ideal) x1 x3)) i j := by
  rw [val_main_v52_apply, val_main_v51_apply, val_main_v50_apply, val_main_v49_apply]
  have e : idx_main_v49 (idx_main_v50 (ix2 i j)) = ix1 i := by idx1
  rw [e, score_h1, rowMax_h1]
  rfl

/-- The sum of a row's exponentials. -/
theorem denom_h1 (x1 : Tab1) (x3 : Ids) (i : Fin 8192) :
    val_main_v53 (F := Ideal) x1 x3 (ix1 i) = Cert.Spec.denom (rows (val_main_v19 (F := Ideal) x1 x3)) i := by
  rw [val_main_v53_apply, val_main_cst_11_apply]
  have e : ∀ k : Fin 8192, idx_main_v53 (ix1 i) k = ix2 i k := fun k => by idx2
  simp only [e, expo_h1]
  show Ideal.ofBits .f32 0x00000000#32 + _ = _
  rw [Ideal.ofBits_zero_f32]
  rfl

/-- The softmax-weighted average of the rows, at (i, d). -/
theorem attn_h1 (x1 : Tab1) (x3 : Ids) (i : Fin 8192) (d : Fin 256) :
    val_main_v57 (F := Ideal) x1 x3 (ix2 i d) = Cert.Spec.attn (rows (val_main_v19 (F := Ideal) x1 x3)) i d := by
  rw [val_main_v57_apply]
  have el : ∀ k : Fin 8192, lidx_main_v57 (ix2 i d) k = ix2 i k := fun k => by idx2
  have er : ∀ k : Fin 8192, ridx_main_v57 (ix2 i d) k = ix2 k d := fun k => by idx2
  simp only [el, er, val_main_v56_apply, val_main_v55_apply, val_main_v54_apply]
  have e : ∀ k : Fin 8192, idx_main_v54 (idx_main_v55 (ix2 i k)) = ix1 i := fun k => by idx1
  simp only [e, expo_h1, denom_h1]
  unfold Cert.Spec.attn
  rw [zero_add]
  rfl

/-- A row less 0.8 times its average. -/
theorem y_h1 (x1 : Tab1) (x3 : Ids) (i : Fin 8192) (d : Fin 256) :
    val_main_v60 (F := Ideal) x1 x3 (ix2 i d) = Cert.Spec.y (rows (val_main_v19 (F := Ideal) x1 x3)) i d := by
  rw [val_main_v60_apply, val_main_v59_apply, val_main_v58_apply, val_main_cst_12_apply, attn_h1]
  rfl

/-- The smoothed array at (i, d): y times its row's norm (times one). -/
theorem smooth_h1 (x1 : Tab1) (x3 : Ids) (i : Fin 8192) (d : Fin 256) :
    val_main_v65 (F := Ideal) x1 x3 (ix2 i d) = Cert.Spec.smooth (rows (val_main_v19 (F := Ideal) x1 x3)) i d := by
  rw [val_main_v65_apply, val_main_v64_apply, val_main_v63_apply, val_main_v62_apply, val_main_cst_13_apply,
    val_main_v61_apply, val_main_call3_v2_apply, val_main_call3_v1_apply, val_main_call3_cst_apply]
  simp only [val_main_call3_v0_apply]
  have e : ∀ k : Fin 256, idx_main_call3_v1 (idx_main_call3_v2 (idx_main_v64 (ix2 i d))) k = ix2 i k := fun k => by idx2
  simp only [e, y_h1]
  show _ * (Ideal.sqrt (Ideal.ofBits .f32 0x00000000#32 + _) * _) = _
  rw [Ideal.ofBits_zero_f32]
  rfl

/-- The normalized rows are the normalization of the gathered rows. -/
theorem rows_normalize_h1 (x1 : Tab1) (x3 : Ids) :
    rows (val_main_v19 (F := Ideal) x1 x3) = Cert.Spec.normalize (rows (val_main_v13 (F := Ideal) x1 x3)) :=
  funext fun i => funext fun d => normalize_h1 x1 x3 i d

/-- The smoothed rows are the smoothing of the normalized gathered rows. -/
theorem rows_smooth_h1 (x1 : Tab1) (x3 : Ids) :
    rows (val_main_v65 (F := Ideal) x1 x3)
      = Cert.Spec.smooth (Cert.Spec.normalize (rows (val_main_v13 (F := Ideal) x1 x3))) := by
  rw [← rows_normalize_h1]
  exact funext fun i => funext fun d => smooth_h1 x1 x3 i d

/-! ## The tail: the two smoothed halves meet -/

/-- The dot product of row i of the two smoothed halves, from the initial value 0. -/
theorem rowDot (x0 : Tab0) (x1 : Tab1) (x2 x3 : Ids) (i : Fin 8192) :
    val_main_v67 (F := Ideal) x0 x1 x2 x3 (ix1 i)
      = 0 + ∑ d : Fin 256, rows (val_main_v42 (F := Ideal) x0 x2) i d * rows (val_main_v65 (F := Ideal) x1 x3) i d := by
  rw [val_main_v67_apply, val_main_cst_14_apply]
  have e : ∀ k : Fin 256, idx_main_v67 (ix1 i) k = ix2 i k := fun k => by idx2
  simp only [e, val_main_v66_apply]
  show Ideal.ofBits .f32 0x00000000#32 + _ = _
  rw [Ideal.ofBits_zero_f32]
  rfl

/-- The logarithm of 1 / (1 + exp (-(row dot))), row by row. -/
theorem logSig (x0 : Tab0) (x1 : Tab1) (x2 x3 : Ids) (i : Fin 8192) :
    val_main_v74 (F := Ideal) x0 x1 x2 x3 (ix1 i)
      = Ideal.log (Ideal.div Cert.Spec.c1 (Cert.Spec.c1 + Ideal.exp (-(0 + ∑ d : Fin 256,
          rows (val_main_v42 (F := Ideal) x0 x2) i d * rows (val_main_v65 (F := Ideal) x1 x3) i d)))) := by
  rw [val_main_v74_apply, val_main_v73_apply, val_main_v72_apply, val_main_cst_16_apply, val_main_v71_apply,
    val_main_v70_apply, val_main_cst_15_apply, val_main_v69_apply, val_main_v68_apply, rowDot]
  rfl

/-- The output element is the tail of the two smoothed arrays. -/
theorem tail_eq (x0 : Tab0) (x1 : Tab1) (x2 x3 : Ids) :
    val_main_v77 (F := Ideal) x0 x1 x2 x3 ix0
      = Cert.Spec.tail (rows (val_main_v42 (F := Ideal) x0 x2)) (rows (val_main_v65 (F := Ideal) x1 x3)) := by
  rw [val_main_v77_apply, val_main_v76_apply, val_main_cst_18_apply, val_main_v75_apply, val_main_cst_17_apply, sum_idx1]
  simp only [logSig]
  show Ideal.div (-(Ideal.ofBits .f32 0x00000000#32 + _)) _ = _
  rw [Ideal.ofBits_zero_f32]
  rfl

/-! ## The reference's value -/

/-- The reference's output element is the function of Spec.lean of the two gathered tables. -/
theorem value (x0 : Tab0) (x1 : Tab1) (x2 x3 : Ids) :
    Cert.ReferenceIdeal.ReadP.val_main_v77 (F := Ideal) x0 x1 x2 x3 ValueIdx.ix0
      = Cert.Spec.tail
          (Cert.Spec.smooth (Cert.Spec.normalize (rows (val_main_v6 (F := Ideal) x0 x2))))
          (Cert.Spec.smooth (Cert.Spec.normalize (rows (val_main_v13 (F := Ideal) x1 x3)))) := by
  rw [tail_eq, rows_smooth_h0, rows_smooth_h1]

end Cert.Proof.Reference

end
-- ==== Proof.KiAlg.lean ====
/-
  The value claim: from memories agreeing on the four arguments, the idealized kernel program and the idealized
  reference both run to the end and end with the same scalar.

  Both results are the specification's tail of the specification's smoothing of the two normalized halves of the
  selected rows: the reference by reading its operations one at a time; the kernel program by the online-softmax
  invariant carried over the eight key blocks of each (half, query block) pair, which needs the normalized rows to be
  real numbers — the precondition's positive row norms give that. The selected rows are the same operations of the same
  arguments in both programs.
-/
import proofs.«146094_j20349555048597_2_alg».proof.Defs
import proofs.«146094_j20349555048597_2_alg».proof.Proof.Gen.Pre_finite_inputs
import proofs.«146094_j20349555048597_2_alg».proof.Proof.KiFinal
import proofs.«146094_j20349555048597_2_alg».proof.Proof.KiArgs
import proofs.«146094_j20349555048597_2_alg».proof.Proof.RefValue
import proofs.«146094_j20349555048597_2_alg».proof.Proof.RefFrame

noncomputable section

namespace Cert.Proof.Value

open Idealize.ShloMosaic Idealize.ShloMosaic.TcCoe Idealize.SL.Sem Idealize.ShloMosaic.ValueIdx

/-- The reference's stage for the selected user rows is the kernel program's term for them: the same operations. -/
theorem gather0_agree (a0 : FVec Ideal Cert.KernelIdeal.S100000x256 .f32) (a2 : IVec Cert.KernelIdeal.S8192 32) :
    Cert.ReferenceIdeal.ReadP.val_main_v6 (F := Ideal) a0 a2 = Cert.KernelIdeal.Host.gatherU (F := Ideal) a0 a2 := rfl
theorem gather1_agree (a1 : FVec Ideal Cert.KernelIdeal.S50000x256 .f32) (a3 : IVec Cert.KernelIdeal.S8192 32) :
    Cert.ReferenceIdeal.ReadP.val_main_v13 (F := Ideal) a1 a3 = Cert.KernelIdeal.Host.gatherP (F := Ideal) a1 a3 := rfl

theorem algebraic : Cert.algebraic_KernelIdeal_ReferenceIdeal := by
  intro m ρ m' ρ' hpre hagree
  refine ⟨fun c => Cert.KernelIdeal.Hand.Wfin m c (Proc.devRef .tc Cert.KernelIdeal.main_v39), ?_, ?_⟩
  · exact (θ_run Cert.KernelIdeal.defs _ _).mono (fun r h c =>
      ⟨h c (Proc.devRef .tc Cert.KernelIdeal.main_v39) (by decide),
       (h c (Proc.devRef .tc Cert.KernelIdeal.main_arg0) (by decide)).trans (Cert.KernelIdeal.Hand.Wfin_arg0 m c),
       (h c (Proc.devRef .tc Cert.KernelIdeal.main_arg1) (by decide)).trans (Cert.KernelIdeal.Hand.Wfin_arg1 m c),
       (h c (Proc.devRef .tc Cert.KernelIdeal.main_arg2) (by decide)).trans (Cert.KernelIdeal.Hand.Wfin_arg2 m c),
       (h c (Proc.devRef .tc Cert.KernelIdeal.main_arg3) (by decide)).trans (Cert.KernelIdeal.Hand.Wfin_arg3 m c)⟩) (Cert.KernelIdeal.Hand.run_main m ρ)
  · refine (θ_run Cert.ReferenceIdeal.defs _ _).mono (fun r h c => ⟨(h c).1.trans ?_, (h c).2⟩) (Cert.ReferenceIdeal.ValueP.run (F := Ideal) m' ρ')
    obtain ⟨Xr, hX⟩ := Cert.KernelIdeal.Host.stacked_real m hpre c
    funext i
    rw [eq_ix0 i, Cert.ReferenceIdeal.ReadP.val_main_v77_eq]
    refine (Cert.Proof.Reference.value _ _ _ _).trans ?_
    rw [(hagree c).1, (hagree c).2.1, (hagree c).2.2.1, (hagree c).2.2.2, gather0_agree, gather1_agree,
      ← Cert.KernelIdeal.Host.V_v6_eq m c, ← Cert.KernelIdeal.Host.V_v13_eq m c]
    exact (Cert.KernelIdeal.Hand.result_eq m c Xr hX).symm

end Cert.Proof.Value

end
-- ==== Proof.lean ====
/- The claim: frame_Kernel ∧ frame_KernelIdeal ∧ frame_ReferenceIdeal ∧ preserves_Kernel_KernelIdeal ∧ algebraic_KernelIdeal_ReferenceIdeal.

   Both programs select rows of two embedding tables, divide each selected row by its Euclidean norm, smooth each half
   x ↦ y·|y| with y = x − 0.8·softmax(3·x xᵀ) x, and end with −mean log sigmoid of the rowwise dot of the two halves.
   The reference takes the softmax over a whole row of 8192 scores. The kernel walks the 8192 keys in 8 blocks of 1024,
   keeping a running value, a running denominator and a running numerator per query row, rescaling them by
   exp(old value − new value) at each block, and divides at the end. Whenever the normalized rows are real numbers the two
   are one real number (Proof/LibOnlineSoftmax.lean: the rescaling identity e^(M−M')·e^(s−M) = e^(s−M'), and the
   softmax's invariance under a shift of all scores, so that the running value need not even be the maximum); the
   precondition's positive row norms make the normalized rows real (Proof/LibRowNormalize.lean). On a selected all-zero row
   0/0 is not a number and the two programs differ, which is why the precondition carries the two norm conjuncts.

   The frames: the kernel program runs as seven segments — five stretches of host operations, the kernel, one stretch —;
   the kernel's two input windows read ONE array, whose points-to is halved between them on entry and rejoined on exit;
   the three running buffers are carried in the invariant; no host operation writes an argument (Proof/KiLaunch.lean,
   Proof/KiArgs.lean; the word-level program's is the same text in its namespace). The reference is a straight line of host
   operations (Proof/RefFrame.lean). The idealization rewrote nothing, so preserves is True. The value claim is
   Proof/KiAlg.lean: both results are the specification's (Proof/Spec.lean) tail of the smoothing of the two normalized
   halves. -/
import proofs.«146094_j20349555048597_2_alg».proof.Defs
import proofs.«146094_j20349555048597_2_alg».proof.Proof.Gen.Kernel
import proofs.«146094_j20349555048597_2_alg».proof.Proof.Gen.KernelIdeal
import proofs.«146094_j20349555048597_2_alg».proof.Proof.Gen.ReferenceIdeal
import proofs.«146094_j20349555048597_2_alg».proof.Proof.Gen.Pre_finite_inputs
import proofs.«146094_j20349555048597_2_alg».proof.Proof.RefFrame
import proofs.«146094_j20349555048597_2_alg».proof.Proof.KiArgs
import proofs.«146094_j20349555048597_2_alg».proof.Proof.KbArgs
import proofs.«146094_j20349555048597_2_alg».proof.Proof.KiAlg
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.Proof.Reference.frame_ri,
  trivial,
  Cert.Proof.Value.algebraic⟩

end Cert.Proof

end
